-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x1600000 : Shape := ⟨2, ![2, 1600000]⟩
abbrev S3x32 : Shape := ⟨2, ![3, 32]⟩
abbrev S32 : Shape := ⟨1, ![32]⟩
abbrev S1 : Shape := ⟨1, ![1]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x32 : S_.BroadcastsInDim S3x32 (![] : Fin 0 → Fin S3x32.rank)
  reducesTo_S3x32_S_d0_1 : S3x32.ReducesTo [0, 1] S_
  bcast_S_S32 : S_.BroadcastsInDim S32 (![] : Fin 0 → Fin S32.rank)
  reducesTo_S32_S_d0 : S32.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S32 .f32) (main_arg6 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x3 .f32) (main_arg1 : IVec S2x1600000 32) (main_arg2 : FVec F S3x32 .f32) (main_arg3 : FVec F S32 .f32) (main_arg4 : FVec F S32 .f32) (main_arg5 : FVec F S32 .f32) (main_arg6 : FVec F S1 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x32 .f32 := Host.absf main_arg2
  let main_cst_0 : FVec F S_ .f32 := constant S_ .f32 0x7F800000#32
  let main_v5 : FVec F S3x32 .f32 := broadcastInDim S3x32 ![] bcast_S_S3x32 main_cst_0
  let main_v6 : IVec S3x32 1 := cmpf .olt main_v4 main_v5
  let main_c_1 : IVec S_ 1 := constantI S_ 1 1#1
  let main_v7 : IVec S_ 1 := (fun x v => Host.reduce IntOp.andi x v reducesTo_S3x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_v13 main_v16
-- ==== Kernel.lean ====
abbrev S100000x3 : Shape := ⟨2, ![100000, 3]⟩
abbrev S2x1600000 : Shape := ⟨2, ![2, 1600000]⟩
abbrev S3x32 : Shape := ⟨2, ![3, 32]⟩
abbrev S32 : Shape := ⟨1, ![32]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x3 : Shape := ⟨2, ![1600000, 3]⟩
abbrev S1x32 : Shape := ⟨2, ![1, 32]⟩
abbrev S100000x32 : Shape := ⟨2, ![100000, 32]⟩
abbrev S5000x3 : Shape := ⟨2, ![5000, 3]⟩
abbrev S5000x1 : Shape := ⟨2, ![5000, 1]⟩
abbrev S5000x32 : Shape := ⟨2, ![5000, 32]⟩
abbrev S1x1x1x32 : Shape := ⟨4, ![1, 1, 1, 32]⟩
abbrev S1x1x4x32 : Shape := ⟨4, ![1, 1, 4, 32]⟩
abbrev S1x128 : Shape := ⟨2, ![1, 128]⟩
abbrev S25000x128 : Shape := ⟨2, ![25000, 128]⟩
abbrev S5000x128 : Shape := ⟨2, ![5000, 128]⟩
abbrev S128 : Shape := ⟨1, ![128]⟩
abbrev S1x4x32 : Shape := ⟨3, ![1, 4, 32]⟩
abbrev S1x1 : Shape := ⟨2, ![1, 1]⟩

abbrev nBuf : Space → Nat
  | .hbm => 95
  | .vmem => 24
  | .smem => 0
  | _ => 0

abbrev bufTy : (tb : Table) → Fin (tcTables nBuf tb) → BufTy
  | .hbm, ⟨0, _⟩ => ⟨S100000x3, .f32⟩
  | .hbm, ⟨1, _⟩ => ⟨S2x1600000, .i32⟩
  | .hbm, ⟨2, _⟩ => ⟨S3x32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S1, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x3, .f32⟩
  | .hbm, ⟨53, _⟩ => ⟨S1600000x1, .f32⟩
  | .hbm, ⟨54, _⟩ => ⟨S1600000x3, .f32⟩
  | .hbm, ⟨55, _⟩ => ⟨S1600000x3, .f32⟩
  | .hbm, ⟨56, _⟩ => ⟨S_, .f32⟩
  | .hbm, ⟨57, _⟩ => ⟨S100000x3, .f32⟩
  | .hbm, ⟨58, _⟩ => ⟨S1600000x1, .i32⟩
  | .hbm, ⟨59, _⟩ => ⟨S100000x3, .f32⟩
  | .hbm, ⟨60, _⟩ => ⟨S1x32, .f32⟩
  | .hbm, ⟨61, _⟩ => ⟨S100000x32, .f32⟩
  | .hbm, ⟨62, _⟩ => ⟨S1x32, .f32⟩
  | .hbm, ⟨63, _⟩ => ⟨S_, .f32⟩
  | .hbm, ⟨64, _⟩ => ⟨S1x32, .f32⟩
  | .hbm, ⟨65, _⟩ => ⟨S1x32, .f32⟩
  | .hbm, ⟨66, _⟩ => ⟨S1x1x1x32, .f32⟩
  | .hbm, ⟨67, _⟩ => ⟨S1x1x4x32, .f32⟩
  | .hbm, ⟨68, _⟩ => ⟨S1x128, .f32⟩
  | .hbm, ⟨69, _⟩ => ⟨S25000x128, .f32⟩
  | .hbm, ⟨70, _⟩ => ⟨S1x128, .f32⟩
  | .hbm, ⟨71, _⟩ => ⟨S1x4x32, .f32⟩
  | .hbm, ⟨72, _⟩ => ⟨S_, .f32⟩
  | .hbm, ⟨73, _⟩ => ⟨S1x32, .f32⟩
  | .hbm, ⟨74, _⟩ => ⟨S_, .f32⟩
  | .hbm, ⟨75, _⟩ => ⟨S1x32, .f32⟩
  | .hbm, ⟨76, _⟩ => ⟨S1x32, .f32⟩
  | .hbm, ⟨77, _⟩ => ⟨S_, .f32⟩
  | .hbm, ⟨78, _⟩ => ⟨S1x32, .f32⟩
  | .hbm, ⟨79, _⟩ => ⟨S1x32, .f32⟩
  | .hbm, ⟨80, _⟩ => ⟨S1x32, .f32⟩
  | .hbm, ⟨81, _⟩ => ⟨S1x1x1x32, .f32⟩
  | .hbm, ⟨82, _⟩ => ⟨S1x1x4x32, .f32⟩
  | .hbm, ⟨83, _⟩ => ⟨S1x128, .f32⟩
  | .hbm, ⟨84, _⟩ => ⟨S1x32, .f32⟩
  | .hbm, ⟨85, _⟩ => ⟨S1x1x1x32, .f32⟩
  | .hbm, ⟨86, _⟩ => ⟨S1x1x4x32, .f32⟩
  | .hbm, ⟨87, _⟩ => ⟨S1x128, .f32⟩
  | .hbm, ⟨88, _⟩ => ⟨S1x32, .f32⟩
  | .hbm, ⟨89, _⟩ => ⟨S1x1x1x32, .f32⟩
  | .hbm, ⟨90, _⟩ => ⟨S1x1x4x32, .f32⟩
  | .hbm, ⟨91, _⟩ => ⟨S1x128, .f32⟩
  | .hbm, ⟨92, _⟩ => ⟨S1x1, .f32⟩
  | .hbm, ⟨93, _⟩ => ⟨S25000x128, .f32⟩
  | .hbm, ⟨94, _⟩ => ⟨S100000x32, .f32⟩
  | .local _ .vmem, ⟨0, _⟩ => ⟨S5000x3, .f32⟩
  | .local _ .vmem, ⟨1, _⟩ => ⟨S5000x3, .f32⟩
  | .local _ .vmem, ⟨2, _⟩ => ⟨S5000x3, .f32⟩
  | .local _ .vmem, ⟨3, _⟩ => ⟨S5000x3, .f32⟩
  | .local _ .vmem, ⟨4, _⟩ => ⟨S5000x1, .f32⟩
  | .local _ .vmem, ⟨5, _⟩ => ⟨S5000x1, .f32⟩
  | .local _ .vmem, ⟨6, _⟩ => ⟨S3x32, .f32⟩
  | .local _ .vmem, ⟨7, _⟩ => ⟨S1x32, .f32⟩
  | .local _ .vmem, ⟨8, _⟩ => ⟨S5000x32, .f32⟩
  | .local _ .vmem, ⟨9, _⟩ => ⟨S5000x32, .f32⟩
  | .local _ .vmem, ⟨10, _⟩ => ⟨S1x32, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x1, .f32⟩
  | .local _ .vmem, ⟨22, _⟩ => ⟨S5000x128, .f32⟩
  | .local _ .vmem, ⟨23, _⟩ => ⟨S5000x128, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43_0 : Ref sig .tc := ⟨.hbm, 61, rfl⟩
abbrev main_v43_1 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S1600000x1_S1600000x3_0_1 : S1600000x1.BroadcastsInDim S1600000x3 (![0, 1] : Fin 2 → Fin S1600000x3.rank)
  bcast_S_S100000x3 : S_.BroadcastsInDim S100000x3 (![] : Fin 0 → Fin S100000x3.rank)
  shapeCasts_S32_S1x32 : S32.ShapeCasts S1x32
  inb_S1x32_S1x32_0_0 : ∀ a, (![0, 0] : Fin 2 → Nat) a + S1x32.size a ≤ S1x32.size a
  h_S1x32 : 0 < S1x32.numel
  inb_S5000x3_S5000x3_0_0 : ∀ a, (![0, 0] : Fin 2 → Nat) a + S5000x3.size a ≤ S5000x3.size a
  h_S5000x3 : 0 < S5000x3.numel
  shapeCasts_S5000x3_S5000x3 : S5000x3.ShapeCasts S5000x3
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x3 : S5000x1.Broadcasts S5000x3
  inb_S3x32_S3x32_0_0 : ∀ a, (![0, 0] : Fin 2 → Nat) a + S3x32.size a ≤ S3x32.size a
  h_S3x32 : 0 < S3x32.numel
  shapeCasts_S1x32_S1x32 : S1x32.ShapeCasts S1x32
  slices_S5000x3_o0_0_S5000x1 : S5000x3.Slices ![0, 0] S5000x1
  slices_S3x32_o0_0_S1x32 : S3x32.Slices ![0, 0] S1x32
  broadcasts_S5000x1_S5000x32 : S5000x1.Broadcasts S5000x32
  broadcasts_S1x32_S5000x32 : S1x32.Broadcasts S5000x32
  slices_S5000x3_o0_1_S5000x1 : S5000x3.Slices ![0, 1] S5000x1
  slices_S3x32_o1_0_S1x32 : S3x32.Slices ![1, 0] S1x32
  slices_S5000x3_o0_2_S5000x1 : S5000x3.Slices ![0, 2] S5000x1
  slices_S3x32_o2_0_S1x32 : S3x32.Slices ![2, 0] S1x32
  inb_S5000x32_S5000x32_0_0 : ∀ a, (![0, 0] : Fin 2 → Nat) a + S5000x32.size a ≤ S5000x32.size a
  h_S5000x32 : 0 < S5000x32.numel
  reduces_S5000x32_S32 : S5000x32.Reduces [0] S32
  bcast_S_S1x32 : S_.BroadcastsInDim S1x32 (![] : Fin 0 → Fin S1x32.rank)
  shapeCasts_S1x32_S1x1x1x32 : S1x32.ShapeCasts S1x1x1x32
  bcast_S1x1x1x32_S1x1x4x32_0_1_2_3 : S1x1x1x32.BroadcastsInDim S1x1x4x32 (![0, 1, 2, 3] : Fin 4 → Fin S1x1x4x32.rank)
  shapeCasts_S1x1x4x32_S1x128 : S1x1x4x32.ShapeCasts S1x128
  shapeCasts_S100000x32_S25000x128 : S100000x32.ShapeCasts S25000x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S1x128_S1x128 : S1x128.ShapeCasts S1x128
  broadcasts_S1x128_S5000x128 : S1x128.Broadcasts S5000x128
  reduces_S5000x128_S128 : S5000x128.Reduces [0] S128
  shapeCasts_S128_S1x128 : S128.ShapeCasts S1x128
  shapeCasts_S1x128_S1x4x32 : S1x128.ShapeCasts S1x4x32
  reducesTo_S1x4x32_S1x32_d1 : S1x4x32.ReducesTo [1] S1x32
  h_S_ : 0 < S_.numel
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x128 : S1x1.Broadcasts S5000x128
  shapeCasts_S25000x128_S100000x32 : S25000x128.ShapeCasts S100000x32
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x3_S1600000x1_S1600000x3_1_0_n_n_0_1_13_wf : GatherDims.WF S100000x3 S1600000x1 S1600000x3 [1] [0] [] [0] [] 1 ![1, 3]
  scatter_S100000x3_S1600000x1_S1600000x3_1_0_0_1_wf : ScatterDims.WF S100000x3 S1600000x1 S1600000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S100000x3.size a
  hwx0_0 : ∀ i : grid0.Coords, EltTy.bits .f32 = 32 ∨ (Rect.block (s := S100000x3) S5000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x3.size a ≤ S100000x3.size a
  hwx0_1 : ∀ i : grid0.Coords, EltTy.bits .f32 = 32 ∨ (Rect.block (s := S100000x3) S5000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x32.size a ≤ S3x32.size a
  hwx0_3 : ∀ i : grid0.Coords, EltTy.bits .f32 = 32 ∨ (Rect.block (s := S3x32) S3x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x32.size a ≤ S100000x32.size a
  hwx0_5 : ∀ i : grid0.Coords, EltTy.bits .f32 = 32 ∨ (Rect.block (s := S100000x32) S5000x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S25000x128.size a
  hwx1_0 : ∀ i : grid1.Coords, EltTy.bits .f32 = 32 ∨ (Rect.block (s := S25000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S25000x128.size a
  hwx2_0 : ∀ i : grid2.Coords, EltTy.bits .f32 = 32 ∨ (Rect.block (s := S25000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S25000x128.size a
  hwx2_6 : ∀ i : grid2.Coords, EltTy.bits .f32 = 32 ∨ (Rect.block (s := S25000x128) S5000x128.size (cc2_transform_6 i) (hinb2_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def scatter_S100000x3_S1600000x1_S1600000x3_1_0_0_1 : ScatterDims S100000x3 S1600000x1 S1600000x3 where
  updateWindowDims := [1]
  insertedWindowDims := [0]
  scatterDimsToOperandDims := [0]
  indexVectorDim := 1
  wf := scatter_S100000x3_S1600000x1_S1600000x3_1_0_0_1_wf

abbrev win0_0 : Pipeline.Window sig grid0 :=
  Pipeline.Window.ofSpec (Memref.whole main_v41) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S3x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v42) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v43_0) S5000x32.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v43_1) S1x32.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v68) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v69) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v70) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x3 : Shape := ⟨2, ![100000, 3]⟩
abbrev S2x1600000 : Shape := ⟨2, ![2, 1600000]⟩
abbrev S3x32 : Shape := ⟨2, ![3, 32]⟩
abbrev S32 : Shape := ⟨1, ![32]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x32 : Shape := ⟨2, ![100000, 32]⟩
abbrev S1600000x32 : Shape := ⟨2, ![1600000, 32]⟩
abbrev S100000x1 : Shape := ⟨2, ![100000, 1]⟩
abbrev S1x32 : Shape := ⟨2, ![1, 32]⟩

abbrev nBuf : Space → Nat
  | .hbm => 104
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S2x1600000, .i32⟩
  | .hbm, ⟨2, _⟩ => ⟨S3x32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S1, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S100000x32, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S1600000, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x32, .f32⟩
  | .hbm, ⟨50, _⟩ => ⟨S1600000x1, .f32⟩
  | .hbm, ⟨51, _⟩ => ⟨S1600000x32, .f32⟩
  | .hbm, ⟨52, _⟩ => ⟨S1600000x32, .f32⟩
  | .hbm, ⟨53, _⟩ => ⟨S_, .f32⟩
  | .hbm, ⟨54, _⟩ => ⟨S100000x32, .f32⟩
  | .hbm, ⟨55, _⟩ => ⟨S1600000x1, .i32⟩
  | .hbm, ⟨56, _⟩ => ⟨S100000x32, .f32⟩
  | .hbm, ⟨57, _⟩ => ⟨S_, .f32⟩
  | .hbm, ⟨58, _⟩ => ⟨S100000, .f32⟩
  | .hbm, ⟨59, _⟩ => ⟨S100000, .f32⟩
  | .hbm, ⟨60, _⟩ => ⟨S100000x1, .f32⟩
  | .hbm, ⟨61, _⟩ => ⟨S100000x32, .f32⟩
  | .hbm, ⟨62, _⟩ => ⟨S100000x32, .f32⟩
  | .hbm, ⟨63, _⟩ => ⟨S100000x32, .f32⟩
  | .hbm, ⟨64, _⟩ => ⟨S1x32, .f32⟩
  | .hbm, ⟨65, _⟩ => ⟨S100000x32, .f32⟩
  | .hbm, ⟨66, _⟩ => ⟨S100000x32, .f32⟩
  | .hbm, ⟨67, _⟩ => ⟨S_, .f32⟩
  | .hbm, ⟨68, _⟩ => ⟨S32, .f32⟩
  | .hbm, ⟨69, _⟩ => ⟨S_, .f32⟩
  | .hbm, ⟨70, _⟩ => ⟨S32, .f32⟩
  | .hbm, ⟨71, _⟩ => ⟨S32, .f32⟩
  | .hbm, ⟨72, _⟩ => ⟨S1x32, .f32⟩
  | .hbm, ⟨73, _⟩ => ⟨S100000x32, .f32⟩
  | .hbm, ⟨74, _⟩ => ⟨S100000x32, .f32⟩
  | .hbm, ⟨75, _⟩ => ⟨S100000x32, .f32⟩
  | .hbm, ⟨76, _⟩ => ⟨S_, .f32⟩
  | .hbm, ⟨77, _⟩ => ⟨S32, .f32⟩
  | .hbm, ⟨78, _⟩ => ⟨S_, .f32⟩
  | .hbm, ⟨79, _⟩ => ⟨S32, .f32⟩
  | .hbm, ⟨80, _⟩ => ⟨S32, .f32⟩
  | .hbm, ⟨81, _⟩ => ⟨S1x32, .f32⟩
  | .hbm, ⟨82, _⟩ => ⟨S100000x32, .f32⟩
  | .hbm, ⟨83, _⟩ => ⟨S100000x32, .f32⟩
  | .hbm, ⟨84, _⟩ => ⟨S_, .f32⟩
  | .hbm, ⟨85, _⟩ => ⟨S32, .f32⟩
  | .hbm, ⟨86, _⟩ => ⟨S32, .f32⟩
  | .hbm, ⟨87, _⟩ => ⟨S32, .f32⟩
  | .hbm, ⟨88, _⟩ => ⟨S1x32, .f32⟩
  | .hbm, ⟨89, _⟩ => ⟨S100000x32, .f32⟩
  | .hbm, ⟨90, _⟩ => ⟨S100000x32, .f32⟩
  | .hbm, ⟨91, _⟩ => ⟨S1x32, .f32⟩
  | .hbm, ⟨92, _⟩ => ⟨S100000x32, .f32⟩
  | .hbm, ⟨93, _⟩ => ⟨S100000x32, .f32⟩
  | .hbm, ⟨94, _⟩ => ⟨S1x32, .f32⟩
  | .hbm, ⟨95, _⟩ => ⟨S100000x32, .f32⟩
  | .hbm, ⟨96, _⟩ => ⟨S100000x32, .f32⟩
  | .hbm, ⟨97, _⟩ => ⟨S_, .f32⟩
  | .hbm, ⟨98, _⟩ => ⟨S100000x32, .f32⟩
  | .hbm, ⟨99, _⟩ => ⟨S100000x32, .i1⟩
  | .hbm, ⟨100, _⟩ => ⟨S_, .f32⟩
  | .hbm, ⟨101, _⟩ => ⟨S100000x32, .f32⟩
  | .hbm, ⟨102, _⟩ => ⟨S100000x32, .f32⟩
  | .hbm, ⟨103, _⟩ => ⟨S100000x32, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_11 : Ref sig .tc := ⟨.hbm, 76, rfl⟩
abbrev main_v56 : Ref sig .tc := ⟨.hbm, 77, rfl⟩
abbrev main_cst_12 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_13 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_14 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S32_d0 : S100000x32.ReducesTo [0] S32
  h_S_ : 0 < S_.numel
  bcast_S_S32 : S_.BroadcastsInDim S32 (![] : Fin 0 → Fin S32.rank)
  shapeCasts_S1_S_ : S1.ShapeCasts S_
  scatter_S100000_S1600000x1_S1600000_n_0_0_1_wf : ScatterDims.WF S100000 S1600000x1 S1600000 [] [0] [0] 1
  dot_S100000x3_S3x32_S100000x32_1_0_0_1_n_n_wf : DotDims.WF S100000x3 S3x32 S100000x32 [1] [0] [0] [1] [] []
  gather_S100000_S1600000x1_S1600000_n_0_n_n_0_1_1_wf : GatherDims.WF S100000 S1600000x1 S1600000 [] [0] [] [0] [] 1 ![1]
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x3_S3x32_S100000x32_1_0_0_1_n_n : DotDims S100000x3 S3x32 S100000x32 where
  lhsContracting := [1]
  rhsContracting := [0]
  lhsNonContracting := [0]
  rhsNonContracting := [1]
  lhsBatch := []
  rhsBatch := []
  wf := dot_S100000x3_S3x32_S100000x32_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.RunNamed.lean ====
/-
  The kernel program's run with its result named: every weakly fair execution of @main terminates, nothing faulting,
  with the result buffer at what the last host stretch leaves there (`Gen.W7`, the fold of the four host stretches and
  the three grid computations' write-backs over the launch memory) and the argument arrays as launched. The argument is
  the frame's: the seven segments run by the library's launch theorem, the last thread state read against the final
  state; only the final reading differs, which here also reads the result buffer.
-/
import proofs.«166766_j89163521065197_2_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_named : θ_run defs (onTc (τ := τ) (main (F := F))) ⟨m, fun _ => 0, ρ⟩ (fun r => ∀ c : Dev nD,
      r.2.mem ((c.tc : Thread nD τ).loc main_v71) = W7 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v71 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.Named

end
-- ==== Proof.Glue2.lean ====
/-
  The host stretches between and after the grid computations, read back at the buffers the next computation reads:
  the layer re-laid four rows to a row; the column sums divided by the node count and tiled four times; the column sums
  of squares folded back four to one, divided, floored, their inverse square root tiled; the scale, shift and slope
  arguments as rows; and the final result, the third computation's output re-laid back. An argument no stretch and no
  computation writes is still as launched when the third computation is entered.
-/
import proofs.«166766_j89163521065197_2_alg».proof.Proof.Gen.KernelIdeal.Frame
import Idealize.ShloMosaic.Lib.StableHlo.Run
import Idealize.ShloMosaic.PureOps.Ideal

set_option maxRecDepth 16384

noncomputable section

namespace Cert.KernelIdeal.Glue

open Idealize.ShloMosaic Idealize.ShloMosaic.TcCoe Idealize.ShloMosaic.StableHlo Cert.KernelIdeal Cert.KernelIdeal.Gen

variable (m : (ℓ : Loc nD τ sig) → Buf (Elt Ideal) ℓ) (ρ : Dev nD → PrngReg) (c : Dev nD)

theorem V3_v49 : V3 m ρ c main_v49
    = shapeCast S25000x128 (W2 m ρ c (Proc.devRef .tc main_v43_0)) shapeCasts_S100000x32_S25000x128 := by
  show StableHlo.after hostOps1 (W2 m ρ c) (Proc.devRef .tc main_v49) = _
  after_results <;> rfl

theorem V3_v48 : V3 m ρ c main_v48
    = shapeCast S1x128 (broadcastInDim S1x1x4x32 ![0, 1, 2, 3] bcast_S1x1x1x32_S1x1x4x32_0_1_2_3
        (shapeCast S1x1x1x32 (Host.divf (F := Ideal) (W2 m ρ c (Proc.devRef .tc main_v43_1))
          (broadcastInDim S1x32 ![] bcast_S_S1x32 (constant (F := Ideal) S_ .f32 0x47C35000#32))) shapeCasts_S1x32_S1x1x1x32))
        shapeCasts_S1x1x4x32_S1x128 := by
  show StableHlo.after hostOps1 (W2 m ρ c) (Proc.devRef .tc main_v48) = _
  after_results <;> rfl

theorem V5_v49 : V5 m ρ c main_v49 = W4 m ρ c (Proc.devRef .tc main_v49) := by
  show StableHlo.after hostOps2 (W4 m ρ c) (Proc.devRef .tc main_v49) = _
  after_results <;> rfl

theorem V5_v48 : V5 m ρ c main_v48 = W4 m ρ c (Proc.devRef .tc main_v48) := by
  show StableHlo.after hostOps2 (W4 m ρ c) (Proc.devRef .tc main_v48) = _
  after_results <;> rfl

theorem V5_v60 : V5 m ρ c main_v60
    = shapeCast S1x128 (broadcastInDim S1x1x4x32 ![0, 1, 2, 3] bcast_S1x1x1x32_S1x1x4x32_0_1_2_3
        (shapeCast S1x1x1x32
          (Host.rsqrt (F := Ideal) (addf (F := Ideal)
            (Host.divf (F := Ideal) (Host.reduceAdd (F := Ideal) (shapeCast S1x4x32 (W4 m ρ c (Proc.devRef .tc main_v50)) shapeCasts_S1x128_S1x4x32)
                (constant (F := Ideal) S_ .f32 0x00000000#32) reducesTo_S1x4x32_S1x32_d1 h_S_)
              (broadcastInDim S1x32 ![] bcast_S_S1x32 (constant (F := Ideal) S_ .f32 0x47C35000#32)))
            (broadcastInDim S1x32 ![] bcast_S_S1x32 (constant (F := Ideal) S_ .f32 0x3727C5AC#32))))
          shapeCasts_S1x32_S1x1x1x32))
        shapeCasts_S1x1x4x32_S1x128 := by
  show StableHlo.after hostOps2 (W4 m ρ c) (Proc.devRef .tc main_v60) = _
  after_results <;> rfl

theorem V5_v64 : V5 m ρ c main_v64
    = shapeCast S1x128 (broadcastInDim S1x1x4x32 ![0, 1, 2, 3] bcast_S1x1x1x32_S1x1x4x32_0_1_2_3
        (shapeCast S1x1x1x32 (shapeCast S1x32 (W4 m ρ c (Proc.devRef .tc main_arg4)) shapeCasts_S32_S1x32) shapeCasts_S1x32_S1x1x1x32))
        shapeCasts_S1x1x4x32_S1x128 := by
  show StableHlo.after hostOps2 (W4 m ρ c) (Proc.devRef .tc main_v64) = _
  after_results <;> rfl

theorem V5_v68 : V5 m ρ c main_v68
    = shapeCast S1x128 (broadcastInDim S1x1x4x32 ![0, 1, 2, 3] bcast_S1x1x1x32_S1x1x4x32_0_1_2_3
        (shapeCast S1x1x1x32 (shapeCast S1x32 (W4 m ρ c (Proc.devRef .tc main_arg5)) shapeCasts_S32_S1x32) shapeCasts_S1x32_S1x1x1x32))
        shapeCasts_S1x1x4x32_S1x128 := by
  show StableHlo.after hostOps2 (W4 m ρ c) (Proc.devRef .tc main_v68) = _
  after_results <;> rfl

theorem V5_v69 : V5 m ρ c main_v69 = shapeCast S1x1 (W4 m ρ c (Proc.devRef .tc main_arg6)) shapeCasts_S1_S1x1 := by
  show StableHlo.after hostOps2 (W4 m ρ c) (Proc.devRef .tc main_v69) = _
  after_results <;> rfl

theorem W7_v71 : W7 m ρ c (Proc.devRef .tc main_v71)
    = shapeCast S100000x32 (W6 m ρ c (Proc.devRef .tc main_v70)) shapeCasts_S25000x128_S100000x32 := by
  show StableHlo.after hostOps3 (W6 m ρ c) (Proc.devRef .tc main_v71) = _
  after_results <;> rfl

theorem W4_main_arg4 : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

end Cert.KernelIdeal.Glue

end
-- ==== Proof.Spec.lean ====
/-
  The mathematics of the claim, with no program in sight.

  A graph convolution with symmetric normalisation and self loops over N = 100000 nodes with 3 input and 32 output
  channels, followed by a batch normalisation over the nodes (biased variance) and a one-slope leaky rectifier.
  The edge list enters only through three maps: `sp e`, the node an edge's feature row is picked from; `dl e`, the
  (signed) node number the edge's message is added to (a message whose number is no node's is dropped); and two
  real weights, `nrm e` per edge and `invdeg i` per node.

  Two arrangements of the aggregated layer are stated: `aggK` aggregates the 3-channel rows and applies the linear
  map afterwards (three products per entry, summed left to right), `aggR` applies the linear map first and
  aggregates 32-channel rows. They agree when every number involved is real (`aggK_eq_aggR`, in Bridge.lean),
  because a real factor distributes over a finite sum; on the extended reals in general it does not.
  Everything after the layer (`out`) is one function of the layer's entries.
-/
import Idealize.ShloMosaic.PureOps.Ideal
import Idealize.ShloMosaic.Lib.ValueIdx

noncomputable section

namespace Cert.Spec

open Idealize.ShloMosaic
open scoped BigOperators

/-- The f32 words the two programs spell: 0, 1, the node count 100000 and the variance floor 1e-5 (as rounded). -/
abbrev zeroW : EReal := Ideal.ofBits .f32 0x00000000#32
abbrev oneW : EReal := Ideal.ofBits .f32 0x3F800000#32
abbrev cntW : EReal := Ideal.ofBits .f32 0x47C35000#32
abbrev epsW : EReal := Ideal.ofBits .f32 0x3727C5AC#32

section Layer

variable (sp : Fin 1600000 → Fin 100000) (dl : Fin 1600000 → Int)
  (nrm : Fin 1600000 → EReal) (invdeg : Fin 100000 → EReal)
  (x : Fin 100000 → Fin 3 → EReal) (w : Fin 3 → Fin 32 → EReal) (b : Fin 32 → EReal)

/-- Node i's degree: one for its self loop plus the number of edges that point at it. -/
def deg (i : Fin 100000) : EReal :=
  oneW + (zeroW + ∑ e : Fin 1600000, if dl e = (i.val : Int) then oneW else 0)

/-- The 3-channel aggregate: the weighted feature rows of the edges pointing at node i, channel c. -/
def agg3 (i : Fin 100000) (c : Fin 3) : EReal :=
  zeroW + ∑ e : Fin 1600000, if dl e = (i.val : Int) then x (sp e) c * nrm e else 0

/-- One entry of the linear layer from a 3-channel aggregate `a3`: the self loop folded in channel by channel,
    then the three products with W's rows summed left to right, then the bias. -/
def lin (a3 : Fin 100000 → Fin 3 → EReal) (i : Fin 100000) (q : Fin 32) : EReal :=
  (((a3 i 0 + x i 0 * invdeg i) * w 0 q + (a3 i 1 + x i 1 * invdeg i) * w 1 q)
    + (a3 i 2 + x i 2 * invdeg i) * w 2 q) + b q

/-- The layer as the kernel arranges it. -/
def aggK (i : Fin 100000) (q : Fin 32) : EReal := lin invdeg x w b (agg3 sp dl nrm x) i q

/-- The features times W. -/
def hmat (j : Fin 100000) (q : Fin 32) : EReal := ∑ c : Fin 3, x j c * w c q

/-- The layer as the reference arranges it: 32-channel messages aggregated, the self loop, the bias. -/
def aggR (i : Fin 100000) (q : Fin 32) : EReal :=
  ((zeroW + ∑ e : Fin 1600000, if dl e = (i.val : Int) then hmat x w (sp e) q * nrm e else 0)
    + hmat x w i q * invdeg i) + b q

end Layer

section Norm

variable (a : Fin 100000 → Fin 32 → EReal) (g be : Fin 32 → EReal) (p : EReal)

/-- Column q's mean over the nodes. -/
def mean (q : Fin 32) : EReal := Ideal.div (∑ i : Fin 100000, a i q) cntW

/-- Column q's sum of squared deviations from `mu q`. -/
def sqdev (mu : Fin 32 → EReal) (q : Fin 32) : EReal := ∑ i : Fin 100000, (a i q - mu q) * (a i q - mu q)

/-- One over the standard deviation, the variance floored by the small word. -/
def invstd (q : Fin 32) : EReal := Ideal.rsqrt (Ideal.div (sqdev a (mean a) q) cntW + epsW)

/-- The leaky rectifier with slope p: v where v ≥ 0 (ordered comparison), else p·v. -/
def act (v : EReal) : EReal := Scalar.select (Ideal.cmp .oge v zeroW) v (p * v)

/-- The normalised, scaled, shifted and rectified entry. -/
def out (i : Fin 100000) (q : Fin 32) : EReal :=
  act p (((a i q - mean a q) * invstd a q) * g q + be q)

end Norm

end Cert.Spec

end
-- ==== Proof.RegionDefs.lean ====
/-
  What each of the kernel's three grid computations leaves in its output arrays, as functions of the arrays it is
  entered with (the entry contents `V` are a parameter): the definitions the three value modules and the host
  glue share.
  • `layer`: entry (i,q) of the linear layer with the self loop folded in (Spec.lin) from the five input arrays of the
    first computation: the 3-channel aggregate, the features, the inverse degrees (a column), W and the bias (a row).
  • `sumsq`: column l of the second computation's output, the sum over the 25000 rows of the re-laid layer of the
    squared deviation from that column's mean.
  • `normed`: entry (r,l) of the third computation's output, the re-laid layer normalised, scaled, shifted and passed
    through the leaky rectifier.
-/
import proofs.«166766_j89163521065197_2_alg».proof.Proof.Gen.KernelIdeal.Frame
import proofs.«166766_j89163521065197_2_alg».proof.Proof.Spec
import Idealize.ShloMosaic.Lib.ValueIdx

noncomputable section

namespace Cert.KernelIdeal.Regions

open Idealize.ShloMosaic Idealize.ShloMosaic.ValueIdx Idealize.ShloMosaic.TcCoe Cert.KernelIdeal Cert.KernelIdeal.Gen
open scoped BigOperators

variable (V : (c : Dev nD) → (b : Ref sig .tc) → Buf (Elt Ideal) ((c : Thread nD τ).loc b))

/-- An array of extended reals of shape `s`, read as such (the identity: it only fixes the type). -/
abbrev asArr (s : Shape) (f : s.Idx → EReal) : s.Idx → EReal := f

/-- The linear layer's entry from the arrays the first computation is entered with. -/
def layer (c : Dev nD) (i : Fin 100000) (q : Fin 32) : EReal :=
  Cert.Spec.lin (fun i => V c main_v13 (ix2 i (0 : Fin 1))) (fun i k => V c main_arg0 (ix2 i k)) (fun k q => V c main_arg2 (ix2 k q))
    (fun q => V c main_v42 (ix2 (0 : Fin 1) q)) (fun i k => V c main_v41 (ix2 i k)) i q

/-- Column l's sum of squared deviations over the 25000 rows of the re-laid layer. -/
def sumsq (c : Dev nD) (l : Fin 128) : EReal :=
  ∑ r : Fin 25000, (asArr S25000x128 (V c main_v49) (ix2 r l) - asArr S1x128 (V c main_v48) (ix2 (0 : Fin 1) l))
    * (asArr S25000x128 (V c main_v49) (ix2 r l) - asArr S1x128 (V c main_v48) (ix2 (0 : Fin 1) l))

/-- Entry (r,l) of the normalised, scaled, shifted and rectified re-laid layer. -/
def normed (c : Dev nD) (r : Fin 25000) (l : Fin 128) : EReal :=
  Cert.Spec.act (asArr S1x1 (V c main_v69) (ix2 (0 : Fin 1) (0 : Fin 1)))
    ((((asArr S25000x128 (V c main_v49) (ix2 r l) - asArr S1x128 (V c main_v48) (ix2 (0 : Fin 1) l))
        * asArr S1x128 (V c main_v60) (ix2 (0 : Fin 1) l)) * asArr S1x128 (V c main_v64) (ix2 (0 : Fin 1) l))
      + asArr S1x128 (V c main_v68) (ix2 (0 : Fin 1) l))

end Cert.KernelIdeal.Regions

end
-- ==== Proof.LibColSum.lean ====
/-
  Sums down the columns of a matrix, at the ideal values: a reduction by addition over axis 0 of an a × b array, from
  zero, read at column j, is the sum over the rows of the entries (k, j); and the same sum kept as a one-row matrix,
  read at (0, j). For any extents. (The companion of a row reduction, for kernels that keep the reduced axis on the
  sublanes: features down the rows, pixels along the columns.)
-/
import Idealize.ShloMosaic.PureOps.Ideal.Laws
import Idealize.ShloMosaic.Lib.ValueIdx
import Idealize.ShloMosaic.Lib.ValueLayout

noncomputable section

namespace Cert.LibColSum

open Idealize.ShloMosaic Idealize.ShloMosaic.ValueIdx
open scoped BigOperators

/-! ## Sums down the columns of a matrix -/

/-- The coordinate inserted on axis 0 of a column index. -/
theorem lift_col {a b : Nat} (h : (⟨2, ![a, b]⟩ : Shape).Reduces [0] ⟨1, ![b]⟩) (j : Fin b) (k : Fin a) :
    h.lift (ix1 j) k = ix2 k j := by
  funext c; apply Fin.ext
  match c with
  | ⟨0, _⟩ => rfl
  | ⟨1, _⟩ => rfl

/-- The sum of each column from zero, at column j: the sum over the rows. -/
theorem colSum_apply {a b : Nat} (y : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ y 0x00000000#32 h hφ hacc (ix1 j) = ∑ k : Fin a, y (ix2 k j) := by
  refine (Ideal.multiReduction_add_single y _ h hφ hacc (ix1 j)).trans ?_
  exact Finset.sum_congr rfl fun k _ => congrArg y (lift_col h j k)

/-- A column sum kept as a one-row matrix, at (0, j). -/
theorem colSumRow_apply {a b : Nat} (y : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ)
    (hc : (⟨1, ![b]⟩ : Shape).ShapeCasts ⟨2, ![1, b]⟩) (u : Fin 1) (j : Fin b) :
    shapeCast ⟨2, ![1, b]⟩ (multiReduction .add [0] ⟨1, ![b]⟩ y 0x00000000#32 h hφ hacc) hc (ix2 u j)
      = ∑ k : Fin a, y (ix2 k j) :=
  (shapeCast_a_1a_apply _ hc u j).trans (colSum_apply y h hφ hacc j)

end Cert.LibColSum

end
-- ==== Proof.LibSums.lean ====
import Idealize.ShloMosaic.Lib.ValueIdx

/-! # A sum taken tile by tile

A sum over `a · b` consecutive positions is the sum over `a` tiles of the sums over each tile's `b` positions; and a sum
whose terms vanish past position `n` is the sum of its first `n` terms. Stated for any commutative additive monoid. -/

namespace Cert.Sums

open scoped BigOperators

variable {M : Type} [AddCommMonoid M]

/-- Tile by tile: the sums over the tiles `k·b … k·b + b − 1`, `k < a`, add up to the sum over the first `a·b` positions. -/
theorem sum_tiles (a b : ℕ) (f : ℕ → M) :
    ∑ k ∈ Finset.range a, ∑ n : Fin b, f (k * b + n.val) = ∑ v ∈ Finset.range (a * b), f v := by
  induction a with
  | zero => simp
  | succ a ih =>
    rw [Finset.sum_range_succ, ih, Nat.succ_mul, Finset.sum_range_add]
    congr 1
    exact (Finset.sum_range (fun x => f (a * b + x))).symm

/-- Terms that vanish from position `n` on do not count. -/
theorem sum_range_of_tail_zero (n e : ℕ) (f : ℕ → M) (h : ∀ x, f (n + x) = 0) :
    ∑ v ∈ Finset.range (n + e), f v = ∑ v : Fin n, f v.val := by
  rw [Finset.sum_range_add, Finset.sum_range, Finset.sum_eq_zero (fun x _ => h x), add_zero]

end Cert.Sums
-- ==== Proof.Region1.lean ====
/-
  The second grid computation (5 blocks of 5000 rows of the re-laid layer): its output array as a function of its inputs.
-/
import proofs.«166766_j89163521065197_2_alg».proof.Proof.RegionDefs
import proofs.«166766_j89163521065197_2_alg».proof.Proof.LibColSum
import proofs.«166766_j89163521065197_2_alg».proof.Proof.LibSums
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.KernelIdeal.Regions

open Idealize.ShloMosaic Idealize.ShloMosaic.ValueIdx Idealize.ShloMosaic.TcCoe Cert.KernelIdeal Cert.KernelIdeal.Gen
open Idealize.ShloMosaic.Pipeline (Dat)
open scoped BigOperators

namespace R1

section pieces
variable {F : FTy → Type} [FloatOps F]

theorem hz : (![0, 0] : Fin 2 → Nat) = fun _ => 0 := funext fun a => by fin_cases a <;> rfl

/-- Every point but the first: the body leaves the payload of the block, the means and the running contents. -/
theorem out_B (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x0 : Vec F S5000x128 .f32) (x1 : Vec F S1x128 .f32) (xo : Vec F S1x128 .f32) :
    out1_B_2 c i a1 h1 a2 h2 a3 h3 hc x0 x1 xo = k1_pay2 x0 x1 xo := by
  unfold out1_B_2
  rw [View.read_writes_eq_canon _ _ _ (cover1_B_2 c i a1 h1 a2 h2 a3 h3 hc x0 x1 xo)]
  unfold kernelRun1_B
  dsimp only
  rw [View.canon_unit_zero hz]
  simp only [View.readAt_eq_ld, h1.read_unread, h2.read_unread, h3.read_unread, View.ld_unit_zero (S := S5000x128) hz,
    View.ld_unit_zero (S := S1x128) hz]

/-- The first point: the body stores the zero row, reads it back, and leaves the payload over it. -/
theorem out_A (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x0 : Vec F S5000x128 .f32) (x1 : Vec F S1x128 .f32) :
    out1_A_2 c i a1 h1 a2 h2 a3 h3 hc x0 x1 = k1_pay2 x0 x1 (k1_pay1 (F := F)) := by
  unfold out1_A_2
  rw [View.read_writes_eq_canon _ _ _ (cover1_A_2 c i a1 h1 a2 h2 a3 h3 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread, View.ld_unit_zero (S := S5000x128) hz,
    View.ld_unit_zero (S := S1x128) hz]

end pieces

/-- The zero row reads zero everywhere. -/
theorem pay1_apply (j : S1x128.Idx) : k1_pay1 (F := Ideal) j = 0 := by
  unfold k1_pay1
  exact Ideal.ofBits_zero_f32

/-- The payload at column l: the running value there plus the sum, over the block's 5000 rows, of the squared deviation
    from the column's mean. -/
theorem pay2_apply (x0 : Vec Ideal S5000x128 .f32) (x1 acc : Vec Ideal S1x128 .f32) (u : Fin 1) (l : Fin 128) :
    k1_pay2 (F := Ideal) x0 x1 acc (ix2 u l)
      = acc (ix2 u l) + ∑ p : Fin 5000, (x0 (ix2 p l) - x1 (ix2 (0 : Fin 1) l)) * (x0 (ix2 p l) - x1 (ix2 (0 : Fin 1) l)) := by
  unfold k1_pay2
  simp only [addf_apply, shapeCast_self]
  refine congrArg (acc (ix2 u l) + ·) ?_
  refine (Cert.LibColSum.colSumRow_apply _ _ _ _ _ u l).trans ?_
  refine Finset.sum_congr rfl fun p _ => ?_
  simp only [mulf_apply, subf_apply]
  rw [broadcastTo_1b_ab_apply]

end R1

namespace R1

section value
variable (V : (c : Dev nD) → (b : Ref sig .tc) → Buf (Elt Ideal) ((c : Thread nD τ).loc b))

/-- The windows' block indices over the grid: the first window's block moves down one block of rows per point; the
    means' block and the output's block stay where they are. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- The first window's block at point t, entry (p, l): row 5000 t + p of the re-laid layer. -/
theorem blk0_apply (c : Dev nD) (t : Fin cfg1.N) (p : Fin 5000) (l : Fin 128) (h : t.val * 5000 + p.val < 25000) :
    (iblk1 V c 0 t : Vec Ideal S5000x128 .f32) (ix2 p l)
      = asArr S25000x128 (V c main_v49) (ix2 ⟨t.val * 5000 + p.val, h⟩ l) := by
  obtain ⟨e0, e1, -⟩ := idx_facts t
  show V c main_v49 (((cfg1.win 0).blk t).view.emb (ix2 p l)) = V c main_v49 _
  refine congrArg (V c main_v49) (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 128 + 1 * l.val = l.val; rw [e1]; omega

/-- The second window's block is the row of column means, at every point. -/
theorem blk1_apply (c : Dev nD) (t : Fin cfg1.N) (l : Fin 128) :
    (iblk1 V c 1 t : Vec Ideal S1x128 .f32) (ix2 (0 : Fin 1) l) = asArr S1x128 (V c main_v48) (ix2 (0 : Fin 1) l) := by
  obtain ⟨-, -, e2, e3, -⟩ := idx_facts t
  show V c main_v48 (((cfg1.win 1).blk t).view.emb (ix2 (0 : Fin 1) l)) = V c main_v48 _
  refine congrArg (V c main_v48) (funext fun a => Fin.ext ?_)
  match a with
  | ⟨0, _⟩ => show win1_1.index t (0 : Fin 2) * 1 + 1 * 0 = 0; rw [e2]
  | ⟨1, _⟩ => show win1_1.index t (1 : Fin 2) * 128 + 1 * l.val = l.val; rw [e3]; omega

/-- The squared deviation from the column's mean at row v of column l; zero past the last row. -/
def dev2 (c : Dev nD) (l : Fin 128) (v : ℕ) : EReal :=
  if h : v < 25000 then
    (asArr S25000x128 (V c main_v49) (ix2 ⟨v, h⟩ l) - asArr S1x128 (V c main_v48) (ix2 (0 : Fin 1) l))
      * (asArr S25000x128 (V c main_v49) (ix2 ⟨v, h⟩ l) - asArr S1x128 (V c main_v48) (ix2 (0 : Fin 1) l))
  else 0

/-- One block's contribution: the squared deviations of its 5000 rows. -/
theorem block_sum (c : Dev nD) (t : Fin cfg1.N) (l : Fin 128) (x0 : Vec Ideal S5000x128 .f32) (x1 : Vec Ideal S1x128 .f32)
    (h0 : x0 = iblk1 V c 0 t) (h1 : x1 = iblk1 V c 1 t) :
    ∑ p : Fin 5000, (x0 (ix2 p l) - x1 (ix2 (0 : Fin 1) l)) * (x0 (ix2 p l) - x1 (ix2 (0 : Fin 1) l))
      = ∑ p : Fin 5000, dev2 V c l (t.val * 5000 + p.val) := by
  have hN : t.val < 5 := lt_of_lt_of_eq t.isLt (show cfg1.N = 5 from N_1)
  subst h0 h1
  refine Finset.sum_congr rfl fun p _ => ?_
  have h : t.val * 5000 + p.val < 25000 := by have := p.isLt; omega
  rw [blk0_apply V c t p l h, blk1_apply V c t l, dev2, dif_pos h]

/-- After point n the output row holds, at column l, the squared deviations of the first n + 1 blocks of rows. -/
theorem outsAt_eq (c : Dev nD) (l : Fin 128) (u : Fin 1) : ∀ (n : ℕ) (hn : n < cfg1.N),
    outsAt1 V c n hn (ix2 u l) = ∑ k ∈ Finset.range (n + 1), ∑ p : Fin 5000, dev2 V c l (k * 5000 + p.val)
  | 0, hn => by
    refine (congrFun (outsAt1_A V c ⟨0, hn⟩ rfl) (ix2 u l)).trans ?_
    rw [out_A, pay2_apply, pay1_apply, zero_add, Finset.sum_range_one]
    exact block_sum V c ⟨0, hn⟩ l _ _ rfl rfl
  | n + 1, hn => by
    have hN : cfg1.N = 5 := N_1
    have hB : ¬(⟨n + 1, hn⟩ : Fin cfg1.N).val % 5 = 0 := by dsimp only; omega
    rw [outsAt1_B V c ⟨n + 1, hn⟩ hB, out_B, pay2_apply]
    show outsAt1 V c n _ (ix2 u l) + _ = _
    rw [outsAt_eq c l u n, Finset.sum_range_succ _ (n + 1)]
    exact congrArg _ (block_sum V c ⟨n + 1, hn⟩ l _ _ rfl rfl)

/-- The five blocks' contributions are the sum over all 25000 rows. -/
theorem total (c : Dev nD) (l : Fin 128) :
    ∑ k ∈ Finset.range 5, ∑ p : Fin 5000, dev2 V c l (k * 5000 + p.val) = sumsq V c l := by
  rw [Cert.Sums.sum_tiles 5 5000 (dev2 V c l)]
  show ∑ v ∈ Finset.range 25000, dev2 V c l v = _
  rw [Finset.sum_range]
  unfold sumsq
  refine Finset.sum_congr rfl fun r _ => ?_
  rw [dev2, dif_pos r.isLt]

/-- After the last point the output row is the columns' sums of squared deviations. -/
theorem outs_last (c : Dev nD) (n : ℕ) (hn : n < cfg1.N) (h4 : n = 4) :
    outsAt1 V c n hn = fun j : S1x128.Idx => sumsq V c (j 1) := by
  subst h4
  funext j
  obtain ⟨u, l, rfl⟩ : ∃ (u : Fin 1) (l : Fin 128), j = ix2 u l := ⟨j 0, j 1, eq_ix2 j⟩
  rw [outsAt_eq V c l u 4 hn]
  exact total V c l

/-- The one write-back, at the last point, writes that row: the output's block is its whole array. -/
theorem flushed_eq (c : Dev nD) (t : Fin cfg1.N) (hf : (cfg1.win 2).flush t = true) :
    (dat1 V c).flushed 2 t
      = ((cfg1.win 2).blk t).view.read (Elt Ideal) (fun j : S1x128.Idx => sumsq V c (j 1)) := by
  have hN : cfg1.N = 5 := N_1
  have h4 : t.val = 4 := by have := (flush1_2 t).mp hf; have := t.isLt; omega
  show (cfg1.win 2).cut (grid1.coords t) ((dat1 V c).after 2 t) = _
  rw [after1_2, outs_last V c t.val t.isLt h4]
  obtain ⟨-, -, -, -, e4, e5⟩ := idx_facts t
  have hz' : (fun a => win1_2.index t a * main_v50.ty.shape.size a) = fun _ => 0 := funext fun a => by
    match a with
    | ⟨0, _⟩ => show win1_2.index t (0 : Fin 2) * 1 = 0; rw [e4]
    | ⟨1, _⟩ => show win1_2.index t (1 : Fin 2) * 128 = 0; rw [e5]
  exact (Memref.read_access_unit_zero (Elt Ideal) main_v50 hz' (fun a => by rw [congrFun hz' a]; simp) _).symm

end value

end R1

variable (V : (c : Dev nD) → (b : Ref sig .tc) → Buf (Elt Ideal) ((c : Thread nD τ).loc b))

/-- The output array after the second computation: each of the 128 columns' sum of squared deviations. -/
theorem region1_sumsq (c : Dev nD) :
    (dat1 V c).arrAt 2 cfg1.N = fun j : S1x128.Idx => sumsq V c (j 1) :=
  (dat1 V c).arrAt_eq_of_cover 2 _ (R1.flushed_eq V c) fun i =>
    ⟨t1_4, (flush1_2 t1_4).mpr rfl, by
      show i ∈ ((View.whole main_v50).slice (win1_2.rect t1_4)).set
      rw [View.set_slice_whole, Rect.mem_set_unit]
      intro a
      have h0 : (i 0 : Nat) < 1 := (i 0).isLt
      have h1 : (i 1 : Nat) < 128 := (i 1).isLt
      match a with
      | ⟨0, _⟩ =>
        show win1_2.index t1_4 0 * win1_2.size 0 ≤ (i 0 : Nat) ∧ (i 0 : Nat) < win1_2.index t1_4 0 * win1_2.size 0 + win1_2.xsize (grid1.coords t1_4) 0
        rw [show win1_2.index t1_4 0 * win1_2.size 0 = 0 from by decide +kernel, show win1_2.xsize (grid1.coords t1_4) 0 = 1 from by decide +kernel]; omega
      | ⟨1, _⟩ =>
        show win1_2.index t1_4 1 * win1_2.size 1 ≤ (i 1 : Nat) ∧ (i 1 : Nat) < win1_2.index t1_4 1 * win1_2.size 1 + win1_2.xsize (grid1.coords t1_4) 1
        rw [show win1_2.index t1_4 1 * win1_2.size 1 = 0 from by decide +kernel, show win1_2.xsize (grid1.coords t1_4) 1 = 128 from by decide +kernel]; omega⟩

end Cert.KernelIdeal.Regions

end
-- ==== Proof.LibFinTiles.lean ====
import Idealize.ShloMosaic.Lib.ValueIdx

/-! # A sum over `Fin n` taken tile by tile

When `n = a · b`, the positions below `n` are the positions `i · b + p` of `a` consecutive tiles of `b` positions
(division with remainder), so a sum over `Fin n` is the sum over the tiles of the sums over each tile's positions. The
position map `r` is a parameter, known only through its values, so that a caller's own indexing of the tiles can be
used as it stands. Stated for any commutative additive monoid: only commutativity and associativity of addition are
used (so it applies on the extended reals, where nothing may be cancelled). -/

namespace Cert.FinTiles

open scoped BigOperators

/-- A sum over `a · b` positions taken tile by tile. Position `r i p` is `i · b + p`; every position below `a · b` is
`i · b + p` for exactly one tile `i < a` and one offset `p < b`, so the two sides add the same terms. -/
theorem sum_fin_tiles {M : Type} [AddCommMonoid M] (a b n : ℕ) (h : a * b = n) (f : Fin n → M)
    (r : Fin a → Fin b → Fin n) (hr : ∀ i p, (r i p).val = i.val * b + p.val) :
    ∑ x : Fin n, f x = ∑ i : Fin a, ∑ p : Fin b, f (r i p) := by
  subst h
  refine (Equiv.sum_comp (finProdFinEquiv (m := a) (n := b)) f).symm.trans ?_
  rw [Fintype.sum_prod_type]
  refine Finset.sum_congr rfl fun i _ => Finset.sum_congr rfl fun p _ => ?_
  refine congrArg f (Fin.ext ?_)
  rw [hr, finProdFinEquiv_apply_val]
  show p.val + b * i.val = i.val * b + p.val
  rw [Nat.mul_comm, Nat.add_comm]

end Cert.FinTiles
-- ==== Proof.LibRelay.lean ====
/-
  A row-major re-laying of a matrix, four rows to a row, and a row of 32 tiled four times.

  A matrix of 100000 rows and 32 columns, laid out row by row, is the same sequence of numbers as a matrix of 25000
  rows and 128 columns: row r of the wide matrix is rows 4r, 4r+1, 4r+2, 4r+3 of the narrow one side by side, so
  its entry l is entry (4r + l / 32, l mod 32) of the narrow matrix, and entry (i, q) of the narrow matrix is entry
  (i / 4, 32 · (i mod 4) + q) of the wide one. A row of 32 repeated four times side by side is a row of 128 whose
  entry l is entry l mod 32 of the row; a row of 128 read as four groups of 32 and summed over the groups gives,
  at q, the sum over the groups g of entry 32 · g + q. A vector read as a one-row or one-column matrix keeps its
  entries. And a sum over the 100000 rows may be taken residue by residue modulo 4.
-/
import Idealize.ShloMosaic.Lib.Pipeline.Value
import Idealize.ShloMosaic.Lib.ValueIdx
import Idealize.ShloMosaic.Lib.ValueLayout
import Idealize.ShloMosaic.PureOps.Ideal.Laws
import proofs.«166766_j89163521065197_2_alg».proof.Proof.LibFinTiles

noncomputable section

namespace Cert.LibRelay

open Idealize.ShloMosaic Idealize.ShloMosaic.ValueIdx
open scoped BigOperators

variable {α : Type}

/-- The wide matrix read at (r, l) is the narrow one at (4r + l / 32, l mod 32): both sit at position 128 r + l. -/
theorem relay_apply (X : (⟨2, ![100000, 32]⟩ : Shape).Idx → α)
    (h : (⟨2, ![100000, 32]⟩ : Shape).ShapeCasts ⟨2, ![25000, 128]⟩) (r : Fin 25000) (l : Fin 128) :
    shapeCast ⟨2, ![25000, 128]⟩ X h (ix2 r l)
      = X (ix2 (⟨4 * r.val + l.val / 32, by omega⟩ : Fin 100000) (⟨l.val % 32, by omega⟩ : Fin 32)) :=
  shapeCast_apply X h _ _ (by
    rw [Shape.rowMajor_val_two, Shape.rowMajor_val_two]
    show (4 * r.val + l.val / 32) * 32 + l.val % 32 = r.val * 128 + l.val
    omega)

/-- The narrow matrix read at (i, q) is the wide one at (i / 4, 32 (i mod 4) + q): both sit at position 32 i + q. -/
theorem unrelay_apply (Y : (⟨2, ![25000, 128]⟩ : Shape).Idx → α)
    (h : (⟨2, ![25000, 128]⟩ : Shape).ShapeCasts ⟨2, ![100000, 32]⟩) (i : Fin 100000) (q : Fin 32) :
    shapeCast ⟨2, ![100000, 32]⟩ Y h (ix2 i q)
      = Y (ix2 (⟨i.val / 4, by omega⟩ : Fin 25000) (⟨32 * (i.val % 4) + q.val, by omega⟩ : Fin 128)) :=
  shapeCast_apply Y h _ _ (by
    rw [Shape.rowMajor_val_two, Shape.rowMajor_val_two]
    show i.val / 4 * 128 + (32 * (i.val % 4) + q.val) = i.val * 32 + q.val
    omega)

/-- A row of 32, given a group axis of length one, spread over four groups and flattened to a row of 128, reads at
    l the row's entry l mod 32. -/
theorem tile4_apply (Z : (⟨2, ![1, 32]⟩ : Shape).Idx → α)
    (h1 : (⟨2, ![1, 32]⟩ : Shape).ShapeCasts ⟨4, ![1, 1, 1, 32]⟩)
    (hb : (⟨4, ![1, 1, 1, 32]⟩ : Shape).BroadcastsInDim ⟨4, ![1, 1, 4, 32]⟩ ![0, 1, 2, 3])
    (h2 : (⟨4, ![1, 1, 4, 32]⟩ : Shape).ShapeCasts ⟨2, ![1, 128]⟩) (l : Fin 128) :
    shapeCast ⟨2, ![1, 128]⟩ (broadcastInDim ⟨4, ![1, 1, 4, 32]⟩ ![0, 1, 2, 3] hb (shapeCast ⟨4, ![1, 1, 1, 32]⟩ Z h1)) h2
        (ix2 (0 : Fin 1) l)
      = Z (ix2 (0 : Fin 1) (⟨l.val % 32, by omega⟩ : Fin 32)) := by
  refine (shapeCast_apply _ h2 (ix2 (0 : Fin 1) l)
    (ix4 (0 : Fin 1) (0 : Fin 1) (⟨l.val / 32, by omega⟩ : Fin 4) (⟨l.val % 32, by omega⟩ : Fin 32)) ?_).trans ?_
  · rw [Shape.rowMajor_val_two, Shape.rowMajor_val_four]
    show ((0 * 1 + 0) * 4 + l.val / 32) * 32 + l.val % 32 = 0 * 128 + l.val
    omega
  refine (broadcastInDim_apply _ hb _ _
    (ix4 (0 : Fin 1) (0 : Fin 1) (0 : Fin 1) (⟨l.val % 32, by omega⟩ : Fin 32)) fun ax => ?_).trans ?_
  · match ax with
    | ⟨0, _⟩ => rfl
    | ⟨1, _⟩ => rfl
    | ⟨2, _⟩ => rfl
    | ⟨3, _⟩ => rfl
  · refine shapeCast_apply Z h1 _ _ ?_
    rw [Shape.rowMajor_val_two, Shape.rowMajor_val_four]
    show 0 * 32 + l.val % 32 = ((0 * 1 + 0) * 1 + 0) * 32 + l.val % 32
    omega

/-- A row of 128 read as four groups of 32 and summed over the groups, from an initial value: at q, the initial
    value plus the sum over the groups g of entry 32 g + q. -/
theorem fold4_apply (X : (⟨2, ![1, 128]⟩ : Shape).Idx → EReal)
    (h1 : (⟨2, ![1, 128]⟩ : Shape).ShapeCasts ⟨3, ![1, 4, 32]⟩)
    (hr : (⟨3, ![1, 4, 32]⟩ : Shape).ReducesTo [1] ⟨2, ![1, 32]⟩) (h0 : 0 < (⟨0, ![]⟩ : Shape).numel)
    (init : (⟨0, ![]⟩ : Shape).Idx → EReal) (q : Fin 32) :
    Host.reduceAdd (F := Ideal) (φ := .f32) (shapeCast ⟨3, ![1, 4, 32]⟩ X h1) init hr h0 (ix2 (0 : Fin 1) q)
      = init ix0 + ∑ g : Fin 4, X (ix2 (0 : Fin 1) (⟨32 * g.val + q.val, by omega⟩ : Fin 128)) := by
  have h : (⟨3, ![1, 4, 32]⟩ : Shape).Reduces [1] ⟨2, ![1, 32]⟩ := ⟨hr.1, Nat.two_pos, hr.2⟩
  show Ideal.hostReduceAdd hr (shapeCast ⟨3, ![1, 4, 32]⟩ X h1) (init (Shape.Idx.first h0)) (ix2 (0 : Fin 1) q) = _
  rw [Ideal.hostReduceAdd_single hr h _ _ (ix2 (0 : Fin 1) q), eq_ix0 (Shape.Idx.first h0)]
  show init ix0 + ∑ g : Fin 4, shapeCast ⟨3, ![1, 4, 32]⟩ X h1 (h.lift (ix2 (0 : Fin 1) q) g) = _
  refine congrArg (init ix0 + ·) (Finset.sum_congr rfl fun (g : Fin 4) _ => ?_)
  have hl : h.lift (ix2 (0 : Fin 1) q) g = ix3 (0 : Fin 1) g q := by
    funext ax
    refine Fin.ext ?_
    match ax with
    | ⟨0, _⟩ => rfl
    | ⟨1, _⟩ => rfl
    | ⟨2, _⟩ => rfl
  rw [hl]
  refine shapeCast_apply X h1 _ _ ?_
  rw [Shape.rowMajor_val_two, Shape.rowMajor_val_three]
  show 0 * 128 + (32 * g.val + q.val) = (0 * 4 + g.val) * 32 + q.val
  omega

/-- A vector of 32 read as a one-row matrix keeps its entries. -/
theorem row_apply (z : (⟨1, ![32]⟩ : Shape).Idx → α) (h : (⟨1, ![32]⟩ : Shape).ShapeCasts ⟨2, ![1, 32]⟩) (q : Fin 32) :
    shapeCast ⟨2, ![1, 32]⟩ z h (ix2 (0 : Fin 1) q) = z (ix1 q) :=
  shapeCast_apply z h _ _ (by
    rw [Shape.rowMajor_val_two, Shape.rowMajor_val_one]
    show q.val = 0 * 32 + q.val
    omega)

/-- A vector of 100000 read as a one-column matrix keeps its entries. -/
theorem col_apply (z : (⟨1, ![100000]⟩ : Shape).Idx → α) (h : (⟨1, ![100000]⟩ : Shape).ShapeCasts ⟨2, ![100000, 1]⟩)
    (i : Fin 100000) : shapeCast ⟨2, ![100000, 1]⟩ z h (ix2 i (0 : Fin 1)) = z (ix1 i) :=
  shapeCast_apply z h _ _ (by
    rw [Shape.rowMajor_val_two, Shape.rowMajor_val_one]
    show i.val = i.val * 1 + 0
    omega)

/-- A vector of one entry read as a one-by-one matrix keeps its entry. -/
theorem one_apply (z : (⟨1, ![1]⟩ : Shape).Idx → α) (h : (⟨1, ![1]⟩ : Shape).ShapeCasts ⟨2, ![1, 1]⟩) :
    shapeCast ⟨2, ![1, 1]⟩ z h (ix2 (0 : Fin 1) (0 : Fin 1)) = z (ix1 (0 : Fin 1)) :=
  shapeCast_apply z h _ _ (by
    rw [Shape.rowMajor_val_two, Shape.rowMajor_val_one]
    rfl)

/-- A sum over the 100000 rows taken residue by residue modulo 4: every row is 4 r + g for exactly one r below
    25000 and one g below 4. -/
theorem sum_relay {M : Type} [AddCommMonoid M] (f : Fin 100000 → M) :
    ∑ g : Fin 4, ∑ r : Fin 25000, f (⟨4 * r.val + g.val, by omega⟩ : Fin 100000) = ∑ i : Fin 100000, f i := by
  rw [Cert.FinTiles.sum_fin_tiles 25000 4 100000 (by norm_num) f
    (fun r g => (⟨4 * r.val + g.val, by omega⟩ : Fin 100000)) (fun r g => by show 4 * r.val + g.val = r.val * 4 + g.val; omega)]
  exact Finset.sum_comm

end Cert.LibRelay

end
-- ==== Proof.LibHostRead.lean ====
/-
  A jnp reference's host operations read at an index, on the extended reals, for any extents.

  The broadcasts a reduction with keepdims or a row / column operand prints: a vector kept as a one-column or one-row
  matrix, a one-column or one-row matrix spread over the other axis, the same with a trailing unit axis of a three-axis
  array; a literal splat to any shape; the host's sum over the last axis of a matrix or of a three-axis array from an
  initial value that is zero, as the plain sum over that axis's coordinates; the host's quotient, square root,
  reciprocal square root and logarithm entry by entry; and a reshape that splits the second axis of a matrix in two:
  entry (r, k, p) of the [a, c, d] array is entry (r, k · d + p) of the [a, c · d] matrix.
-/
import Idealize.ShloMosaic.Lib.ValueIdx
import Idealize.ShloMosaic.Lib.Pipeline.Value
import Idealize.ShloMosaic.PureOps.Ideal.Laws

noncomputable section

namespace Cert.LibHostRead

open Idealize.ShloMosaic Idealize.ShloMosaic.ValueIdx
open scoped BigOperators

/-! ## Host operations read at an index, for any extents -/

section Helpers
variable {α : Type}

/-- A splat of a literal, broadcast to any shape, is the literal's value at every index. -/
theorem bcastConst_apply {s t : Shape} (dims : Fin s.rank → Fin t.rank) (h : s.BroadcastsInDim t dims) (w : BitVec 32)
    (j : t.Idx) : broadcastInDim t dims h (constant (F := Ideal) s .f32 w) j = Ideal.ofBits .f32 w := rfl

/-- A vector kept as a one-column matrix reads, at `(r, z)`, entry `r`. -/
theorem bcast_a_a1_apply {a : ℕ} (x : (⟨1, ![a]⟩ : Shape).Idx → α)
    (h : (⟨1, ![a]⟩ : Shape).BroadcastsInDim ⟨2, ![a, 1]⟩ (![0] : Fin 1 → Fin 2)) (r : Fin a) (z : Fin 1) :
    broadcastInDim ⟨2, ![a, 1]⟩ (![0] : Fin 1 → Fin 2) h x (ix2 r z) = x (ix1 r) := by
  refine broadcastInDim_apply _ h x (ix2 r z) (ix1 r) fun ax => ?_
  match ax with
  | ⟨0, _⟩ =>
    show r.val = if a = 1 then 0 else r.val
    split
    · have := r.isLt; omega
    · rfl

/-- A one-column matrix spread over `b` columns reads, at `(r, d)`, the column's entry of row `r`. -/
theorem bcast_a1_ab_apply {a b : ℕ} (x : (⟨2, ![a, 1]⟩ : Shape).Idx → α)
    (h : (⟨2, ![a, 1]⟩ : Shape).BroadcastsInDim ⟨2, ![a, b]⟩ (![0, 1] : Fin 2 → Fin 2)) (r : Fin a) (d : Fin b) :
    broadcastInDim ⟨2, ![a, b]⟩ (![0, 1] : Fin 2 → Fin 2) h x (ix2 r d) = x (ix2 r (0 : Fin 1)) := by
  refine broadcastInDim_apply _ h x (ix2 r d) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else d.val
    rw [if_pos rfl]

/-- A vector kept as a one-row matrix reads, at `(z, d)`, entry `d`. -/
theorem bcast_b_1b_apply {b : ℕ} (x : (⟨1, ![b]⟩ : Shape).Idx → α)
    (h : (⟨1, ![b]⟩ : Shape).BroadcastsInDim ⟨2, ![1, b]⟩ (![1] : Fin 1 → Fin 2)) (z : Fin 1) (d : Fin b) :
    broadcastInDim ⟨2, ![1, b]⟩ (![1] : Fin 1 → Fin 2) h x (ix2 z d) = x (ix1 d) := by
  refine broadcastInDim_apply _ h x (ix2 z d) (ix1 d) fun ax => ?_
  match ax with
  | ⟨0, _⟩ =>
    show d.val = if b = 1 then 0 else d.val
    split
    · have := d.isLt; omega
    · rfl

/-- A one-row matrix spread over `a` rows reads, at `(r, d)`, the row's entry of column `d`. -/
theorem bcast_1b_ab_apply {a b : ℕ} (x : (⟨2, ![1, b]⟩ : Shape).Idx → α)
    (h : (⟨2, ![1, b]⟩ : Shape).BroadcastsInDim ⟨2, ![a, b]⟩ (![0, 1] : Fin 2 → Fin 2)) (r : Fin a) (d : Fin b) :
    broadcastInDim ⟨2, ![a, b]⟩ (![0, 1] : Fin 2 → Fin 2) h x (ix2 r d) = x (ix2 (0 : Fin 1) d) := by
  refine broadcastInDim_apply _ h x (ix2 r d) (ix2 (0 : Fin 1) d) fun ax => ?_
  match ax with
  | ⟨0, _⟩ =>
    show (0 : ℕ) = if (1 : ℕ) = 1 then 0 else r.val
    rw [if_pos rfl]
  | ⟨1, _⟩ =>
    show d.val = if b = 1 then 0 else d.val
    split
    · have := d.isLt; omega
    · rfl

/-- A vector spread over the rows of a matrix, through a one-row matrix: at `(r, d)`, entry `d`. -/
theorem bcastRow_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (d : Fin b) :
    broadcastInDim ⟨2, ![a, b]⟩ (![0, 1] : Fin 2 → Fin 2) h2 (broadcastInDim ⟨2, ![1, b]⟩ (![1] : Fin 1 → Fin 2) h1 x) (ix2 r d)
      = x (ix1 d) :=
  (bcast_1b_ab_apply _ h2 r d).trans (bcast_b_1b_apply x h1 0 d)

/-- An `[a, b]` array kept as `[a, b, 1]` reads, at `(i, j, z)`, entry `(i, j)`. -/
theorem bcast_ab_ab1_apply {a b : ℕ} (x : (⟨2, ![a, b]⟩ : Shape).Idx → α)
    (h : (⟨2, ![a, b]⟩ : Shape).BroadcastsInDim ⟨3, ![a, b, 1]⟩ (![0, 1] : Fin 2 → Fin 3)) (i : Fin a) (j : Fin b) (z : Fin 1) :
    broadcastInDim ⟨3, ![a, b, 1]⟩ (![0, 1] : Fin 2 → Fin 3) h x (ix3 i j z) = x (ix2 i j) := by
  refine broadcastInDim_apply _ h x (ix3 i j z) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- An `[a, b, 1]` array spread over `c` entries of the last axis reads, at `(i, j, k)`, entry `(i, j, 0)`. -/
theorem bcast_ab1_abc_apply {a b c : ℕ} (x : (⟨3, ![a, b, 1]⟩ : Shape).Idx → α)
    (h : (⟨3, ![a, b, 1]⟩ : Shape).BroadcastsInDim ⟨3, ![a, b, c]⟩ (![0, 1, 2] : Fin 3 → Fin 3)) (i : Fin a) (j : Fin b) (k : Fin c) :
    broadcastInDim ⟨3, ![a, b, c]⟩ (![0, 1, 2] : Fin 3 → Fin 3) h x (ix3 i j k) = x (ix3 i j (0 : Fin 1)) := by
  refine broadcastInDim_apply _ h x (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- The host's sum of each row of a matrix, from an initial value that is zero: at row `r`, the sum over the columns. -/
theorem hostSumAxis1_apply {a b : ℕ} (x : (⟨2, ![a, b]⟩ : Shape).Idx → EReal) {u : Shape} (init : u.Idx → EReal)
    (h' : (⟨2, ![a, b]⟩ : Shape).ReducesTo [1] ⟨1, ![a]⟩) (hu : 0 < u.numel)
    (hinit : init (Shape.Idx.first hu) = 0) (r : Fin a) :
    Host.reduceAdd (F := Ideal) (φ := .f32) x init h' hu (ix1 r) = ∑ d : Fin b, x (ix2 r d) := by
  have h : (⟨2, ![a, b]⟩ : Shape).Reduces [1] ⟨1, ![a]⟩ := ⟨h'.1, Nat.one_pos, h'.2⟩
  show Ideal.hostReduceAdd h' x (init (Shape.Idx.first hu)) (ix1 r) = _
  rw [hinit, Ideal.hostReduceAdd_single h' h x 0 (ix1 r), zero_add]
  exact Finset.sum_congr rfl fun k _ => congrArg x (funext fun ax => Fin.ext (match ax with | ⟨0, _⟩ => rfl | ⟨1, _⟩ => rfl))

/-- The host's sum over the last axis of a three-axis array, from zero: at `(i, j)`, the sum over `k` of the entries `(i, j, k)`. -/
theorem hostSumAxis2_apply {a b c : ℕ} (x : (⟨3, ![a, b, c]⟩ : Shape).Idx → EReal) {u : Shape} (init : u.Idx → EReal)
    (h' : (⟨3, ![a, b, c]⟩ : Shape).ReducesTo [2] ⟨2, ![a, b]⟩) (hu : 0 < u.numel)
    (hinit : init (Shape.Idx.first hu) = 0) (i : Fin a) (j : Fin b) :
    Host.reduceAdd (F := Ideal) (φ := .f32) x init h' hu (ix2 i j) = ∑ k : Fin c, x (ix3 i j k) := by
  have h : (⟨3, ![a, b, c]⟩ : Shape).Reduces [2] ⟨2, ![a, b]⟩ := ⟨h'.1, Nat.two_pos, h'.2⟩
  show Ideal.hostReduceAdd h' x (init (Shape.Idx.first hu)) (ix2 i j) = _
  rw [hinit, Ideal.hostReduceAdd_single h' h x 0 (ix2 i j), zero_add]
  refine Finset.sum_congr rfl fun k _ => congrArg x (funext fun ax => Fin.ext ?_)
  match ax with
  | ⟨0, _⟩ => rfl
  | ⟨1, _⟩ => rfl
  | ⟨2, _⟩ => rfl

end Helpers

/-! ## Pointwise host operations at the extended reals -/

theorem hostDivf_apply {s : Shape} (x y : FVec Ideal s .f32) (i : s.Idx) : Host.divf x y i = Ideal.div (x i) (y i) := rfl
theorem hostSqrt_apply {s : Shape} (x : FVec Ideal s .f32) (i : s.Idx) : Host.sqrt x i = Ideal.sqrt (x i) := rfl
theorem hostRsqrt_apply {s : Shape} (x : FVec Ideal s .f32) (i : s.Idx) : Host.rsqrt x i = Ideal.rsqrt (x i) := rfl
theorem hostLog_apply {s : Shape} (x : FVec Ideal s .f32) (i : s.Idx) : Host.log x i = Ideal.log (x i) := rfl

/-- A matrix whose second axis is split in two reads, at `(r, k, p)`, the matrix at `(r, k · d + p)`. -/
theorem shapeCast_ab_acd_apply {α : Type} {a b c d : ℕ} (X : (⟨2, ![a, b]⟩ : Shape).Idx → α)
    (h : (⟨2, ![a, b]⟩ : Shape).ShapeCasts ⟨3, ![a, c, d]⟩) (hb : b = c * d) (r : Fin a) (k : Fin c) (p : Fin d) (kp : Fin b)
    (hkp : kp.val = k.val * d + p.val) : shapeCast ⟨3, ![a, c, d]⟩ X h (ix3 r k p) = X (ix2 r kp) :=
  shapeCast_apply X h _ _ (by
    rw [Shape.rowMajor_val_two, Shape.rowMajor_val_three]
    show r.val * b + kp.val = (r.val * c + k.val) * d + p.val
    rw [hkp, hb]; ring)

end Cert.LibHostRead

end
-- ==== Proof.KernelStats.lean ====
/-
  What the third grid computation is entered with, read at an index, and the final result read at an index: the layer
  re-laid four rows to a row; its column means tiled four times; the inverse standard deviations, from the second
  computation's sums of squared deviations folded back four lanes to one; the scale, the shift and the slope as
  launched; and the result, the third computation's output re-laid back, as one function of the layer.
-/
import proofs.«166766_j89163521065197_2_alg».proof.Proof.Glue2
import proofs.«166766_j89163521065197_2_alg».proof.Proof.RegionDefs
import proofs.«166766_j89163521065197_2_alg».proof.Proof.Region1
import proofs.«166766_j89163521065197_2_alg».proof.Proof.LibRelay
import proofs.«166766_j89163521065197_2_alg».proof.Proof.LibHostRead
import proofs.«166766_j89163521065197_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Glue

open Idealize.ShloMosaic Idealize.ShloMosaic.ValueIdx Idealize.ShloMosaic.TcCoe Idealize.ShloMosaic.StableHlo Cert.KernelIdeal Cert.KernelIdeal.Gen
open Idealize.ShloMosaic.Pipeline (Dat)
open scoped BigOperators

variable (m : (ℓ : Loc nD τ sig) → Buf (Elt Ideal) ℓ) (ρ : Dev nD → PrngReg) (c : Dev nD)

/-! ## The first computation's two outputs, as the second stretch of host operations finds them -/

theorem W2_layer
    (h0a : (dat0 (V1 m ρ) c).arrAt 5 cfg0.N = fun j : S100000x32.Idx => Regions.layer (V1 m ρ) c (j 0) (j 1)) :
    W2 m ρ c (Proc.devRef .tc main_v43_0) = fun j : S100000x32.Idx => Regions.layer (V1 m ρ) c (j 0) (j 1) :=
  (W2_arr m ρ c 5).trans h0a

theorem W2_colsum
    (h0s : (dat0 (V1 m ρ) c).arrAt 6 cfg0.N = fun j : S1x32.Idx => ∑ i : Fin 100000, Regions.layer (V1 m ρ) c i (j 1)) :
    W2 m ρ c (Proc.devRef .tc main_v43_1) = fun j : S1x32.Idx => ∑ i : Fin 100000, Regions.layer (V1 m ρ) c i (j 1) :=
  (W2_arr m ρ c 6).trans h0s

/-! ## What the second computation is entered with -/

/-- The re-laid layer: entry (r, l) is the layer's entry (4r + l / 32, l mod 32). -/
theorem V3_v49_apply
    (h0a : (dat0 (V1 m ρ) c).arrAt 5 cfg0.N = fun j : S100000x32.Idx => Regions.layer (V1 m ρ) c (j 0) (j 1))
    (r : Fin 25000) (l : Fin 128) :
    Regions.asArr S25000x128 (V3 m ρ c main_v49) (ix2 r l)
      = Regions.layer (V1 m ρ) c ⟨4 * r.val + l.val / 32, by omega⟩ ⟨l.val % 32, by omega⟩ := by
  rw [V3_v49 m ρ c]
  refine (Cert.LibRelay.relay_apply _ _ r l).trans ?_
  rw [W2_layer m ρ c h0a]

/-- The tiled column means: lane l holds the mean of column l mod 32. -/
theorem V3_v48_apply
    (h0s : (dat0 (V1 m ρ) c).arrAt 6 cfg0.N = fun j : S1x32.Idx => ∑ i : Fin 100000, Regions.layer (V1 m ρ) c i (j 1))
    (l : Fin 128) :
    Regions.asArr S1x128 (V3 m ρ c main_v48) (ix2 (0 : Fin 1) l)
      = Cert.Spec.mean (Regions.layer (V1 m ρ) c) ⟨l.val % 32, by omega⟩ := by
  rw [V3_v48 m ρ c]
  refine (Cert.LibRelay.tile4_apply _ _ _ _ l).trans ?_
  rw [Cert.LibHostRead.hostDivf_apply, Cert.LibHostRead.bcastConst_apply, W2_colsum m ρ c h0s]
  rfl

/-! ## The second computation's arrays as the third stretch finds them -/

theorem W4_v49 : W4 m ρ c (Proc.devRef .tc main_v49) = V3 m ρ c main_v49 :=
  (W4_arr m ρ c 0).trans (((dat1 (V3 m ρ) c).arrAt_in 0 rfl _).trans (A_eq1 (V3 m ρ) c 0))

theorem W4_v48 : W4 m ρ c (Proc.devRef .tc main_v48) = V3 m ρ c main_v48 :=
  (W4_arr m ρ c 1).trans (((dat1 (V3 m ρ) c).arrAt_in 1 rfl _).trans (A_eq1 (V3 m ρ) c 1))

theorem W4_v50 : W4 m ρ c (Proc.devRef .tc main_v50) = fun j : S1x128.Idx => Regions.sumsq (V3 m ρ) c (j 1) :=
  (W4_arr m ρ c 2).trans (Regions.region1_sumsq (V3 m ρ) c)

/-- The second computation's sum at lane l, from the layer: over the 25000 rows r, the squared deviation of the layer's
    entry (4r + l / 32, l mod 32) from the mean of column l mod 32. -/
theorem sumsq_lane
    (h0a : (dat0 (V1 m ρ) c).arrAt 5 cfg0.N = fun j : S100000x32.Idx => Regions.layer (V1 m ρ) c (j 0) (j 1))
    (h0s : (dat0 (V1 m ρ) c).arrAt 6 cfg0.N = fun j : S1x32.Idx => ∑ i : Fin 100000, Regions.layer (V1 m ρ) c i (j 1))
    (l : Fin 128) :
    Regions.sumsq (V3 m ρ) c l
      = ∑ r : Fin 25000,
          (Regions.layer (V1 m ρ) c ⟨4 * r.val + l.val / 32, by omega⟩ ⟨l.val % 32, by omega⟩
              - Cert.Spec.mean (Regions.layer (V1 m ρ) c) ⟨l.val % 32, by omega⟩)
            * (Regions.layer (V1 m ρ) c ⟨4 * r.val + l.val / 32, by omega⟩ ⟨l.val % 32, by omega⟩
              - Cert.Spec.mean (Regions.layer (V1 m ρ) c) ⟨l.val % 32, by omega⟩) := by
  unfold Regions.sumsq
  refine Finset.sum_congr rfl fun r _ => ?_
  rw [V3_v49_apply m ρ c h0a r l, V3_v48_apply m ρ c h0s l]

/-- The four lanes 32 g + q folded back: column q's sum of squared deviations over all 100000 rows. -/
theorem fold_sumsq
    (h0a : (dat0 (V1 m ρ) c).arrAt 5 cfg0.N = fun j : S100000x32.Idx => Regions.layer (V1 m ρ) c (j 0) (j 1))
    (h0s : (dat0 (V1 m ρ) c).arrAt 6 cfg0.N = fun j : S1x32.Idx => ∑ i : Fin 100000, Regions.layer (V1 m ρ) c i (j 1))
    (q : Fin 32) :
    ∑ g : Fin 4, Regions.sumsq (V3 m ρ) c (⟨32 * g.val + q.val, by omega⟩ : Fin 128)
      = Cert.Spec.sqdev (Regions.layer (V1 m ρ) c) (Cert.Spec.mean (Regions.layer (V1 m ρ) c)) q := by
  unfold Cert.Spec.sqdev
  rw [← Cert.LibRelay.sum_relay (fun i : Fin 100000 =>
    (Regions.layer (V1 m ρ) c i q - Cert.Spec.mean (Regions.layer (V1 m ρ) c) q)
      * (Regions.layer (V1 m ρ) c i q - Cert.Spec.mean (Regions.layer (V1 m ρ) c) q))]
  refine Finset.sum_congr rfl fun g _ => ?_
  rw [sumsq_lane m ρ c h0a h0s]
  refine Finset.sum_congr rfl fun r _ => ?_
  exact congrArg₂ (fun (i : Fin 100000) (q' : Fin 32) =>
      (Regions.layer (V1 m ρ) c i q' - Cert.Spec.mean (Regions.layer (V1 m ρ) c) q')
        * (Regions.layer (V1 m ρ) c i q' - Cert.Spec.mean (Regions.layer (V1 m ρ) c) q'))
    (Fin.ext (by show 4 * r.val + (32 * g.val + q.val) / 32 = 4 * r.val + g.val; omega))
    (Fin.ext (by show (32 * g.val + q.val) % 32 = q.val; omega))

/-! ## What the third computation is entered with -/

/-- The re-laid layer, still as the second computation was entered with it. -/
theorem V5_v49_apply
    (h0a : (dat0 (V1 m ρ) c).arrAt 5 cfg0.N = fun j : S100000x32.Idx => Regions.layer (V1 m ρ) c (j 0) (j 1))
    (r : Fin 25000) (l : Fin 128) :
    Regions.asArr S25000x128 (V5 m ρ c main_v49) (ix2 r l)
      = Regions.layer (V1 m ρ) c ⟨4 * r.val + l.val / 32, by omega⟩ ⟨l.val % 32, by omega⟩ := by
  rw [V5_v49 m ρ c, W4_v49 m ρ c]
  exact V3_v49_apply m ρ c h0a r l

/-- The tiled column means, still as the second computation was entered with them. -/
theorem V5_v48_apply
    (h0s : (dat0 (V1 m ρ) c).arrAt 6 cfg0.N = fun j : S1x32.Idx => ∑ i : Fin 100000, Regions.layer (V1 m ρ) c i (j 1))
    (l : Fin 128) :
    Regions.asArr S1x128 (V5 m ρ c main_v48) (ix2 (0 : Fin 1) l)
      = Cert.Spec.mean (Regions.layer (V1 m ρ) c) ⟨l.val % 32, by omega⟩ := by
  rw [V5_v48 m ρ c, W4_v48 m ρ c]
  exact V3_v48_apply m ρ c h0s l

/-- The tiled inverse standard deviations: lane l holds that of column l mod 32. -/
theorem V5_v60_apply
    (h0a : (dat0 (V1 m ρ) c).arrAt 5 cfg0.N = fun j : S100000x32.Idx => Regions.layer (V1 m ρ) c (j 0) (j 1))
    (h0s : (dat0 (V1 m ρ) c).arrAt 6 cfg0.N = fun j : S1x32.Idx => ∑ i : Fin 100000, Regions.layer (V1 m ρ) c i (j 1))
    (l : Fin 128) :
    Regions.asArr S1x128 (V5 m ρ c main_v60) (ix2 (0 : Fin 1) l)
      = Cert.Spec.invstd (Regions.layer (V1 m ρ) c) ⟨l.val % 32, by omega⟩ := by
  rw [V5_v60 m ρ c]
  refine (Cert.LibRelay.tile4_apply _ _ _ _ l).trans ?_
  rw [Cert.LibHostRead.hostRsqrt_apply, addf_apply, Cert.LibHostRead.hostDivf_apply, Cert.LibHostRead.bcastConst_apply,
    Cert.LibHostRead.bcastConst_apply, Cert.LibRelay.fold4_apply, W4_v50 m ρ c]
  rw [constant_apply, Ideal.ofBits_zero_f32, zero_add]
  unfold Cert.Spec.invstd
  exact congrArg (fun s : EReal => Ideal.rsqrt (Ideal.div s Cert.Spec.cntW + Cert.Spec.epsW))
    (fold_sumsq m ρ c h0a h0s ⟨l.val % 32, by omega⟩)

/-- The tiled scale: lane l holds the scale argument's entry l mod 32, as launched. -/
theorem V5_v64_apply (l : Fin 128) :
    Regions.asArr S1x128 (V5 m ρ c main_v64) (ix2 (0 : Fin 1) l)
      = m ((c : Thread nD τ).loc main_arg4) (ix1 (⟨l.val % 32, by omega⟩ : Fin 32)) := by
  rw [V5_v64 m ρ c]
  refine (Cert.LibRelay.tile4_apply _ _ _ _ l).trans ?_
  refine (Cert.LibRelay.row_apply _ _ _).trans ?_
  rw [W4_main_arg4 m ρ c]

/-- The tiled shift: lane l holds the shift argument's entry l mod 32, as launched. -/
theorem V5_v68_apply (l : Fin 128) :
    Regions.asArr S1x128 (V5 m ρ c main_v68) (ix2 (0 : Fin 1) l)
      = m ((c : Thread nD τ).loc main_arg5) (ix1 (⟨l.val % 32, by omega⟩ : Fin 32)) := by
  rw [V5_v68 m ρ c]
  refine (Cert.LibRelay.tile4_apply _ _ _ _ l).trans ?_
  refine (Cert.LibRelay.row_apply _ _ _).trans ?_
  rw [W4_main_arg5 m ρ c]

/-- The slope, as launched. -/
theorem V5_v69_apply :
    Regions.asArr S1x1 (V5 m ρ c main_v69) (ix2 (0 : Fin 1) (0 : Fin 1))
      = m ((c : Thread nD τ).loc main_arg6) (ix1 (0 : Fin 1)) := by
  rw [V5_v69 m ρ c]
  refine (Cert.LibRelay.one_apply _ _).trans ?_
  rw [W4_main_arg6 m ρ c]

/-! ## The third computation's output, and the result -/

/-- Entry (r, l) of the third computation's output is the specification's result at the layer's entry
    (4r + l / 32, l mod 32). -/
theorem normed_apply
    (h0a : (dat0 (V1 m ρ) c).arrAt 5 cfg0.N = fun j : S100000x32.Idx => Regions.layer (V1 m ρ) c (j 0) (j 1))
    (h0s : (dat0 (V1 m ρ) c).arrAt 6 cfg0.N = fun j : S1x32.Idx => ∑ i : Fin 100000, Regions.layer (V1 m ρ) c i (j 1))
    (r : Fin 25000) (l : Fin 128) :
    Regions.normed (V5 m ρ) c r l
      = Cert.Spec.out (Regions.layer (V1 m ρ) c) (fun q => m ((c : Thread nD τ).loc main_arg4) (ix1 q))
          (fun q => m ((c : Thread nD τ).loc main_arg5) (ix1 q)) (m ((c : Thread nD τ).loc main_arg6) (ix1 (0 : Fin 1)))
          ⟨4 * r.val + l.val / 32, by omega⟩ ⟨l.val % 32, by omega⟩ := by
  unfold Regions.normed Cert.Spec.out
  rw [V5_v49_apply m ρ c h0a r l, V5_v48_apply m ρ c h0s l, V5_v60_apply m ρ c h0a h0s l, V5_v64_apply m ρ c l,
    V5_v68_apply m ρ c l, V5_v69_apply m ρ c]

/-- The result at (i, q): the specification's result of the layer there. -/
theorem out_apply
    (h0a : (dat0 (V1 m ρ) c).arrAt 5 cfg0.N = fun j : S100000x32.Idx => Regions.layer (V1 m ρ) c (j 0) (j 1))
    (h0s : (dat0 (V1 m ρ) c).arrAt 6 cfg0.N = fun j : S1x32.Idx => ∑ i : Fin 100000, Regions.layer (V1 m ρ) c i (j 1))
    (h2 : (dat2 (V5 m ρ) c).arrAt 6 cfg2.N = fun j : S25000x128.Idx => Regions.normed (V5 m ρ) c (j 0) (j 1))
    (i : Fin 100000) (q : Fin 32) :
    Regions.asArr S100000x32 (W7 m ρ c (Proc.devRef .tc main_v71)) (ix2 i q)
      = Cert.Spec.out (Regions.layer (V1 m ρ) c) (fun q => m ((c : Thread nD τ).loc main_arg4) (ix1 q))
          (fun q => m ((c : Thread nD τ).loc main_arg5) (ix1 q)) (m ((c : Thread nD τ).loc main_arg6) (ix1 (0 : Fin 1))) i q := by
  rw [W7_v71 m ρ c]
  refine (Cert.LibRelay.unrelay_apply _ _ i q).trans ?_
  rw [show W6 m ρ c (Proc.devRef .tc main_v70) = _ from (W6_arr m ρ c 6).trans h2]
  refine (normed_apply m ρ c h0a h0s _ _).trans ?_
  exact congrArg₂ (Cert.Spec.out (Regions.layer (V1 m ρ) c) (fun q => m ((c : Thread nD τ).loc main_arg4) (ix1 q))
      (fun q => m ((c : Thread nD τ).loc main_arg5) (ix1 q)) (m ((c : Thread nD τ).loc main_arg6) (ix1 (0 : Fin 1))))
    (Fin.ext (by show 4 * (i.val / 4) + (32 * (i.val % 4) + q.val) / 32 = i.val; omega))
    (Fin.ext (by show (32 * (i.val % 4) + q.val) % 32 = q.val; omega))

end Cert.KernelIdeal.Glue

end
-- ==== Proof.Glue1.lean ====
/-
  What the first grid computation is entered with: the host stretch before it, read back at the buffers that
  computation reads. The features and W are the arguments themselves; the bias is the bias argument as a row; the
  inverse degrees are the reference's own inverse-degree stage as a column; the 3-channel aggregate is the scatter of the
  weighted feature rows, over the reference's own stages for the target words, the wrapped source words and the edge
  weights (the two programs compute these with the same operations).
-/
import proofs.«166766_j89163521065197_2_alg».proof.Proof.Gen.KernelIdeal.Frame
import proofs.«166766_j89163521065197_2_alg».proof.Proof.RefRead
import Idealize.ShloMosaic.Lib.StableHlo.Run
import Idealize.ShloMosaic.PureOps.Ideal

set_option maxRecDepth 16384

noncomputable section

namespace Cert.KernelIdeal.Glue

open Idealize.ShloMosaic Idealize.ShloMosaic.TcCoe Idealize.ShloMosaic.StableHlo Cert.KernelIdeal Cert.KernelIdeal.Gen

variable (m : (ℓ : Loc nD τ sig) → Buf (Elt Ideal) ℓ) (ρ : Dev nD → PrngReg) (c : Dev nD)

/-- The edge array as launched. -/
abbrev ei : (⟨S2x1600000, .i32⟩ : BufTy).Contents (Elt Ideal) := m ((c.tc : Thread nD τ).loc main_arg1)

theorem V1_arg0 : V1 m ρ c main_arg0 = m ((c.tc : Thread nD τ).loc main_arg0) := by
  show StableHlo.after hostOps0 (W0 m ρ c) (Proc.devRef .tc main_arg0) = _
  after_results_simp <;> rfl

theorem V1_arg2 : V1 m ρ c main_arg2 = m ((c.tc : Thread nD τ).loc main_arg2) := by
  show StableHlo.after hostOps0 (W0 m ρ c) (Proc.devRef .tc main_arg2) = _
  after_results_simp <;> rfl

theorem V1_v42 : V1 m ρ c main_v42 = shapeCast S1x32 (m ((c.tc : Thread nD τ).loc main_arg3)) shapeCasts_S32_S1x32 := by
  show StableHlo.after hostOps0 (W0 m ρ c) (Proc.devRef .tc main_v42) = _
  after_results_simp <;> rfl

theorem V1_v13 : V1 m ρ c main_v13
    = shapeCast S100000x1 (Cert.ReferenceIdeal.ReadP.val_main_v41 (F := Ideal) (ei m c)) shapeCasts_S100000_S100000x1 := by
  show StableHlo.after hostOps0 (W0 m ρ c) (Proc.devRef .tc main_v13) = _
  after_results_simp <;> rfl

theorem V1_v41 : V1 m ρ c main_v41
    = Host.scatterAdd (F := Ideal) scatter_S100000x3_S1600000x1_S1600000x3_1_0_0_1
        (broadcastInDim S100000x3 ![] bcast_S_S100000x3 (constant (F := Ideal) S_ .f32 0x00000000#32))
        (broadcastInDim S1600000x1 ![0] bcast_S1600000_S1600000x1_0 (Cert.ReferenceIdeal.ReadP.val_main_v3 (F := Ideal) (ei m c)))
        (mulf (F := Ideal) (Host.gather gather_S100000x3_S1600000x1_S1600000x3_1_0_n_n_0_1_13 (m ((c.tc : Thread nD τ).loc main_arg0))
                (broadcastInDim S1600000x1 ![0] bcast_S1600000_S1600000x1_0 (Cert.ReferenceIdeal.ReadP.val_main_v31 (F := Ideal) (ei m c))))
              (broadcastInDim S1600000x3 ![0, 1] bcast_S1600000x1_S1600000x3_0_1
                (broadcastInDim S1600000x1 ![0] bcast_S1600000_S1600000x1_0 (Cert.ReferenceIdeal.ReadP.val_main_v26 (F := Ideal) (ei m c))))) := by
  show StableHlo.after hostOps0 (W0 m ρ c) (Proc.devRef .tc main_v41) = _
  after_results_simp <;> rfl

end Cert.KernelIdeal.Glue

end
-- ==== Proof.LibNegDot.lean ====
/-
  A product with a NEGATED matrix, subtracted, against the product added — x − y · (−E) against x + y · E — entry
  by entry on the extended reals. The two agree when the row's and the column's entries are real numbers; with
  infinite entries a sum can hold both infinities, and negation does not pass through such a sum.
-/
import Idealize.ShloMosaic.PureOps.Ideal

noncomputable section

namespace Cert.LibNegDot

open scoped BigOperators

/-- A finite sum of reals, read in the extended reals, is the sum of the terms read there. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Subtracting the product of a row with the NEGATED column is adding the product with the column, when the
    row's and the column's entries are real: the terms are then real, and negation passes through a real sum. -/
theorem sub_dot_neg {ι : Type} [Fintype ι] (a : EReal) (y e : ι → EReal) (hy : ∀ k, ∃ r : ℝ, y k = r)
    (he : ∀ k, ∃ r : ℝ, e k = r) : a - ∑ k, y k * -(e k) = a + ∑ k, y k * e k := by
  choose yr hyr using hy
  choose er her using he
  have h1 : ∑ k, y k * -(e k) = ((-(∑ k, yr k * er k) : ℝ) : EReal) := by
    rw [← Finset.sum_neg_distrib, coe_sum]
    refine Finset.sum_congr rfl fun k _ => ?_
    rw [hyr k, her k, ← EReal.coe_neg, ← EReal.coe_mul, mul_neg]
  have h2 : ∑ k, y k * e k = ((∑ k, yr k * er k : ℝ) : EReal) := by
    rw [coe_sum]
    refine Finset.sum_congr rfl fun k _ => ?_
    rw [hyr k, her k, EReal.coe_mul]
  rw [h1, h2, sub_eq_add_neg, ← EReal.coe_neg, neg_neg]

end Cert.LibNegDot
-- ==== Proof.Bridge.lean ====
/-
  The real-number facts behind the layer.

  Both arrangements of the aggregated layer are, when every feature, weight and normalising factor is a real number,
  the same real number with the bias added last: a real factor distributes over a finite real sum, and a finite sum
  of sums may be taken in either order. The bias stays an arbitrary extended real; it is added last on both sides.

  A node's degree is one plus a count of edges, so it is a real number at least one; its reciprocal square root and
  its reciprocal are therefore real numbers too.
-/
import proofs.«166766_j89163521065197_2_alg».proof.Proof.Spec
import proofs.«166766_j89163521065197_2_alg».proof.Proof.LibNegDot
import Idealize.ShloMosaic.PureOps.Ideal.Laws

noncomputable section

namespace Cert.Bridge

open Idealize.ShloMosaic
open scoped BigOperators

/-- The zero word is the number zero, the one word the number one. -/
theorem zeroW_eq : Cert.Spec.zeroW = 0 := Ideal.ofBits_zero_f32

theorem oneW_eq : Cert.Spec.oneW = 1 := by
  simp [Ideal.ofBits, Ideal.ieee]
  rw [← EReal.coe_mul]
  norm_num

/-- A finite sum of real terms, each kept or dropped by a condition, read in the extended reals. -/
theorem sum_ite_coe {ι : Type} (s : Finset ι) (p : ι → Prop) [DecidablePred p] (f : ι → ℝ) :
    ((∑ e ∈ s, if p e then f e else 0 : ℝ) : EReal) = ∑ e ∈ s, if p e then (f e : EReal) else 0 := by
  rw [Cert.LibNegDot.coe_sum]
  refine Finset.sum_congr rfl fun e _ => ?_
  split <;> simp

/-- The law in the reals: the three-term linear map applied to each kept row and then summed is the linear map
    applied to the three channel sums. -/
theorem real_law {ι : Type} (s : Finset ι) (p : ι → Prop) [DecidablePred p] (a0 a1 a2 n : ι → ℝ) (w0 w1 w2 : ℝ) :
    (∑ e ∈ s, if p e then (a0 e * w0 + a1 e * w1 + a2 e * w2) * n e else 0)
      = (∑ e ∈ s, if p e then a0 e * n e else 0) * w0 + (∑ e ∈ s, if p e then a1 e * n e else 0) * w1
        + (∑ e ∈ s, if p e then a2 e * n e else 0) * w2 := by
  rw [Finset.sum_mul, Finset.sum_mul, Finset.sum_mul, ← Finset.sum_add_distrib, ← Finset.sum_add_distrib]
  refine Finset.sum_congr rfl fun e _ => ?_
  split <;> ring

/-- The two arrangements of the layer agree when every feature, weight and normalising factor is real. -/
theorem aggK_eq_aggR (sp : Fin 1600000 → Fin 100000) (dl : Fin 1600000 → Int) (nrm : Fin 1600000 → EReal)
    (invdeg : Fin 100000 → EReal) (x : Fin 100000 → Fin 3 → EReal) (w : Fin 3 → Fin 32 → EReal) (b : Fin 32 → EReal)
    (hx : ∀ i c, ∃ r : ℝ, x i c = (r : EReal)) (hw : ∀ c q, ∃ r : ℝ, w c q = (r : EReal))
    (hn : ∀ e, ∃ r : ℝ, nrm e = (r : EReal)) (hd : ∀ i, ∃ r : ℝ, invdeg i = (r : EReal)) :
    Cert.Spec.aggK sp dl nrm invdeg x w b = Cert.Spec.aggR sp dl nrm invdeg x w b := by
  choose xr hxr using hx
  choose wr hwr using hw
  choose nr hnr using hn
  choose dr hdr using hd
  funext i q
  -- the three channel aggregates are real
  have hA : ∀ c, Cert.Spec.agg3 sp dl nrm x i c
      = ((∑ e : Fin 1600000, if dl e = (i.val : Int) then xr (sp e) c * nr e else 0 : ℝ) : EReal) := by
    intro c
    unfold Cert.Spec.agg3
    rw [zeroW_eq, zero_add, sum_ite_coe]
    refine Finset.sum_congr rfl fun e _ => ?_
    rw [hxr, hnr, EReal.coe_mul]
  -- a row of the features times the weights is real
  have hH : ∀ j, Cert.Spec.hmat x w j q
      = ((xr j 0 * wr 0 q + xr j 1 * wr 1 q + xr j 2 * wr 2 q : ℝ) : EReal) := by
    intro j
    unfold Cert.Spec.hmat
    rw [Fin.sum_univ_three]
    simp only [hxr, hwr, EReal.coe_mul, EReal.coe_add]
  -- so is the aggregate of such rows
  have hR : (∑ e : Fin 1600000, if dl e = (i.val : Int) then Cert.Spec.hmat x w (sp e) q * nrm e else 0)
      = ((∑ e : Fin 1600000, if dl e = (i.val : Int) then
            (xr (sp e) 0 * wr 0 q + xr (sp e) 1 * wr 1 q + xr (sp e) 2 * wr 2 q) * nr e else 0 : ℝ) : EReal) := by
    rw [sum_ite_coe]
    refine Finset.sum_congr rfl fun e _ => ?_
    rw [hH, hnr, EReal.coe_mul]
  unfold Cert.Spec.aggK Cert.Spec.lin Cert.Spec.aggR
  refine congrArg (· + b q) ?_
  rw [hA, hA, hA, hR, hH i, zeroW_eq, zero_add]
  simp only [hxr, hwr, hdr, ← EReal.coe_mul, ← EReal.coe_add]
  rw [EReal.coe_eq_coe_iff, real_law]
  ring

/-- A node's degree is one plus the number of edges pointing at it. -/
theorem deg_eq (dl : Fin 1600000 → Int) (i : Fin 100000) :
    Cert.Spec.deg dl i
      = ((1 + ((Finset.univ.filter fun e : Fin 1600000 => dl e = (i.val : Int)).card : ℝ) : ℝ) : EReal) := by
  classical
  unfold Cert.Spec.deg
  rw [zeroW_eq, zero_add, oneW_eq]
  have hterm : ∀ e : Fin 1600000, (if dl e = (i.val : Int) then (1 : EReal) else 0)
      = (((if dl e = (i.val : Int) then (1 : ℝ) else 0 : ℝ)) : EReal) := by
    intro e; split <;> simp
  simp only [hterm]
  rw [← Cert.LibNegDot.coe_sum, Finset.sum_boole, EReal.coe_add, EReal.coe_one]

/-- So it is a real number at least one. -/
theorem deg_real (dl : Fin 1600000 → Int) (i : Fin 100000) :
    ∃ r : ℝ, 1 ≤ r ∧ Cert.Spec.deg dl i = (r : EReal) :=
  ⟨_, le_add_of_nonneg_right (Nat.cast_nonneg _), deg_eq dl i⟩

/-- The reciprocal square root of a real number at least one is a real number. -/
theorem rsqrt_deg_real (dl : Fin 1600000 → Int) (i : Fin 100000) :
    ∃ r : ℝ, Ideal.rsqrt (Cert.Spec.deg dl i) = (r : EReal) := by
  obtain ⟨r, hr1, hr⟩ := deg_real dl i
  have hpos : (0 : ℝ) < r := lt_of_lt_of_le one_pos hr1
  rw [hr, Ideal.rsqrt_coe, if_neg (not_lt.mpr hpos.le), if_neg hpos.ne']
  exact ⟨_, rfl⟩

/-- One divided by a real number at least one is a real number. -/
theorem inv_deg_real (dl : Fin 1600000 → Int) (i : Fin 100000) :
    ∃ r : ℝ, Ideal.div Cert.Spec.oneW (Cert.Spec.deg dl i) = (r : EReal) := by
  obtain ⟨r, hr1, hr⟩ := deg_real dl i
  have hpos : (0 : ℝ) < r := lt_of_lt_of_le one_pos hr1
  rw [hr, Ideal.div_coe hpos.ne', oneW_eq, one_mul]
  exact ⟨_, rfl⟩

end Cert.Bridge

end
-- ==== Proof.Edges.lean ====
/-
  How the edge list enters: an edge array of two rows of 1600000 signed 32-bit words (row 0 the node an edge leaves,
  row 1 the node it points at) gives
  • `wrap`, a word wrapped once by the number of nodes when it is negative, and `pos`, the wrapped word read signed and
    clamped into 0 … 99999: the row an indexing "a[idx]" reads;
  • `sp e`, `dp e`: the rows the two ends of edge e read; `dl e`: the signed number of the node edge e's message is
    added to (a scatter drops a message whose number is no node's, and does not wrap);
  • the degree-derived weights: `dinv i` = 1/√deg i, `invdeg i` = 1/deg i, `nrm e` = dinv (sp e) · dinv (dp e),
    all real numbers since a degree is one plus a count.
-/
import proofs.«166766_j89163521065197_2_alg».proof.Proof.Spec
import proofs.«166766_j89163521065197_2_alg».proof.Proof.Bridge

noncomputable section

namespace Cert.Edges

open Idealize.ShloMosaic Idealize.ShloMosaic.ValueIdx

/-- A position as an indexing spells it: a negative word has the node count added once. -/
def wrap (v : BitVec 32) : BitVec 32 := Scalar.select (IntOp.cmpi .slt v 0#32) (IntOp.addi v 100000#32) v

/-- The row a wrapped position reads: signed, clamped into the array. -/
def pos (v : BitVec 32) : Fin 100000 := ⟨min (wrap v).toInt.toNat (100000 - 1), by omega⟩

variable (ei : (⟨2, ![2, 1600000]⟩ : Shape).Idx → BitVec 32)

def src (e : Fin 1600000) : BitVec 32 := ei (ix2 (0 : Fin 2) e)
def dst (e : Fin 1600000) : BitVec 32 := ei (ix2 (1 : Fin 2) e)

def sp (e : Fin 1600000) : Fin 100000 := pos (src ei e)
def dp (e : Fin 1600000) : Fin 100000 := pos (dst ei e)
def dl (e : Fin 1600000) : Int := (dst ei e).toInt

def dinv (i : Fin 100000) : EReal := Ideal.rsqrt (Cert.Spec.deg (dl ei) i)
def invdeg (i : Fin 100000) : EReal := Ideal.div Cert.Spec.oneW (Cert.Spec.deg (dl ei) i)
def nrm (e : Fin 1600000) : EReal := dinv ei (sp ei e) * dinv ei (dp ei e)

theorem invdeg_real (i : Fin 100000) : ∃ r : ℝ, invdeg ei i = (r : EReal) := Cert.Bridge.inv_deg_real _ _

theorem nrm_real (e : Fin 1600000) : ∃ r : ℝ, nrm ei e = (r : EReal) := by
  obtain ⟨a, ha⟩ := Cert.Bridge.rsqrt_deg_real (dl ei) (sp ei e)
  obtain ⟨b, hb⟩ := Cert.Bridge.rsqrt_deg_real (dl ei) (dp ei e)
  exact ⟨a * b, by unfold nrm dinv; rw [ha, hb, EReal.coe_mul]⟩

end Cert.Edges

end
-- ==== Proof.LibIndexOps.lean ====
/-
  Rows of a matrix (or entries of a vector) picked and accumulated by a list of integer positions, read at an index.

  A gather "x[idx]" along the leading axis reads, for list entry e, the row of x at position idx e, the position read as
  a signed integer and clamped into the rows of x. An accumulating scatter "y.at[idx].add(u)" adds, into row n of y, every
  list entry e's update whose position idx e, read as a signed integer and NOT clamped, is exactly n; an entry whose
  position is negative or past the last row contributes nothing. At the ideal values the accumulation is the exact sum,
  so the scattered array at (n, q) is y (n, q) plus the sum over the list entries e with idx e = n of u (e, q).
  Stated for the dimension numbers jax prints for these two operations on a matrix and on a vector, with the list of
  positions given as an [M, 1] array, for any extents.
-/
import Idealize.ShloMosaic.Lib.ValueIdx
import Idealize.ShloMosaic.PureOps.Ideal.Laws

noncomputable section

namespace Cert.LibIndexOps

open Idealize.ShloMosaic Idealize.ShloMosaic.ValueIdx
open scoped BigOperators

variable {α : Type} {N M D w : Nat}

/-! ## Gathering rows of a matrix -/

/-- The record of "x[idx]" for a matrix x : [N, D] and positions [M, 1]: whole rows, the leading axis collapsed. -/
abbrev rowsGather (N M D : Nat) (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- Entry (e, q) of the gathered rows: x at row "position e, clamped" and column q. -/
theorem gather_rows_apply (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (q : Fin D) :
    Host.gather (rowsGather N M D wf) x idx (ix2 e q)
      = x (ix2 (⟨min (idx (ix2 e (0 : Fin 1))).toInt.toNat (N - 1), by omega⟩ : Fin N) q) := by
  unfold Host.gather
  congr 1
  funext a
  refine Fin.ext ?_
  show (rowsGather N M D wf).start (ix2 e q) idx a + (rowsGather N M D wf).batchCoord (ix2 e q) a
    + (rowsGather N M D wf).offCoord (ix2 e q) a = _
  rw [GatherDims.batchCoord_eq_zero _ _ _ List.not_mem_nil]
  have key0 : (rowsGather N M D wf).start (ix2 e q) idx (0 : Fin 2) + 0 + (rowsGather N M D wf).offCoord (ix2 e q) (0 : Fin 2)
      = min (idx (ix2 e (0 : Fin 1))).toInt.toNat (N - 1) := by
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather N M D wf).startIndexMap from List.mem_singleton.mpr rfl)]
    have hsi : (rowsGather N M D wf).siIdx (ix2 e q) ⟨List.idxOf (0 : Fin 2) (rowsGather N M D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have key1 : (rowsGather N M D wf).start (ix2 e q) idx (1 : Fin 2) + 0 + (rowsGather N M D wf).offCoord (ix2 e q) (1 : Fin 2)
      = q.val := by
    have hs : (rowsGather N M D wf).start (ix2 e q) idx (1 : Fin 2) = 0 := by
      unfold GatherDims.start
      rw [dif_neg (show (1 : Fin 2) ∉ ([0] : List (Fin 2)) by decide)]
    have ho : (rowsGather N M D wf).offCoord (ix2 e q) (1 : Fin 2) = q.val := by
      unfold GatherDims.offCoord
      rw [dif_pos ((GatherDims.mem_sKept _ _).2 ⟨(show (1 : Fin 2) ∉ ([0] : List (Fin 2)) by decide), List.not_mem_nil⟩)]
      rfl
    rw [hs, ho]; omega
  match a with
  | ⟨0, _⟩ => exact key0
  | ⟨1, _⟩ => exact key1

/-! ## Gathering entries of a vector -/

/-- The record of "x[idx]" for a vector x : [N] and positions [M, 1]. -/
abbrev vecGather (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Entry e of the gathered vector: x at "position e, clamped". -/
theorem gather_vec_apply (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecGather N M wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecGather N M wf).start (ix1 e) idx 0 + (vecGather N M wf).batchCoord (ix1 e) 0 + (vecGather N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N M wf).startIndexMap from List.mem_singleton.mpr rfl)]
  have hsi : (vecGather N M wf).siIdx (ix1 e) ⟨List.idxOf (0 : Fin 1) (vecGather N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Accumulating rows into a matrix -/

/-- The record of "y.at[idx].add(u)" for a matrix y : [N, D], positions [M, 1] and updates u : [M, D]. -/
abbrev rowsScatter (N M D : Nat) (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- Update (e, q') lands on entry (n, q) exactly when position e is n and the columns agree. -/
theorem rows_lands_iff (wf : ScatterDims.WF ⟨2, ![N, D]⟩ ⟨2, ![M, 1]⟩ ⟨2, ![M, D]⟩ [1] [0] [0] 1)
    (idx : IVec ⟨2, ![M, 1]⟩ w) (e : Fin M) (q' : Fin D) (n : Fin N) (q : Fin D) :
    (rowsScatter N M D wf).resultIdx? (ix2 e q') idx = some (ix2 n q)
      ↔ (idx (ix2 e (0 : Fin 1))).toInt = (n.val : Int) ∧ q' = q := by
  have s0 : (rowsScatter N M D wf).start (ix2 e q') idx (0 : Fin 2) = (idx (ix2 e (0 : Fin 1))).toInt := by
    unfold ScatterDims.start
    rw [dif_pos (show (0 : Fin 2) ∈ (rowsScatter N M D wf).scatterDimsToOperandDims from List.mem_singleton.mpr rfl)]
    congr 2
    funext b; refine Fin.ext ?_
    match b with
    | ⟨0, _⟩ => rfl
    | ⟨1, _⟩ => rfl
  have s1 : (rowsScatter N M D wf).start (ix2 e q') idx (1 : Fin 2) = 0 := by
    unfold ScatterDims.start
    rw [dif_neg (show (1 : Fin 2) ∉ ([0] : List (Fin 2)) by decide)]
  have w0 : (rowsScatter N M D wf).window (ix2 e q') (0 : Fin 2) = 0 := by
    unfold ScatterDims.window
    rw [dif_neg (show (0 : Fin 2) ∉ (rowsScatter N M D wf).sKept from (by decide : (0 : Fin 2) ∉ (List.finRange 2).filter (· ∉ ([0] : List (Fin 2)))))]
  have w1 : (rowsScatter N M D wf).window (ix2 e q') (1 : Fin 2) = q'.val := by
    unfold ScatterDims.window
    rw [dif_pos (show (1 : Fin 2) ∈ (rowsScatter N M D wf).sKept from (by decide : (1 : Fin 2) ∈ (List.finRange 2).filter (· ∉ ([0] : List (Fin 2)))))]
    rfl
  have hn := n.isLt
  have hq := q.isLt
  have hq' := q'.isLt
  unfold ScatterDims.resultIdx?
  split
  · next h =>
    rw [Option.some.injEq]
    constructor
    · intro hf
      have h0 : ((rowsScatter N M D wf).start (ix2 e q') idx (0 : Fin 2) + ((rowsScatter N M D wf).window (ix2 e q') (0 : Fin 2) : Int)).toNat = n.val :=
        congrArg (fun f : (⟨2, ![N, D]⟩ : Shape).Idx => (f 0).val) hf
      have h1 : ((rowsScatter N M D wf).start (ix2 e q') idx (1 : Fin 2) + ((rowsScatter N M D wf).window (ix2 e q') (1 : Fin 2) : Int)).toNat = q.val :=
        congrArg (fun f : (⟨2, ![N, D]⟩ : Shape).Idx => (f 1).val) hf
      have hh := (h 0).1
      rw [s0, w0] at h0 hh
      rw [s1, w1] at h1
      exact ⟨by omega, Fin.ext (by omega)⟩
    · rintro ⟨h0, rfl⟩
      funext a; refine Fin.ext ?_
      match a with
      | ⟨0, _⟩ =>
        show ((rowsScatter N M D wf).start (ix2 e q') idx (0 : Fin 2) + ((rowsScatter N M D wf).window (ix2 e q') (0 : Fin 2) : Int)).toNat = n.val
        rw [s0, w0]; omega
      | ⟨1, _⟩ =>
        show ((rowsScatter N M D wf).start (ix2 e q') idx (1 : Fin 2) + ((rowsScatter N M D wf).window (ix2 e q') (1 : Fin 2) : Int)).toNat = q'.val
        rw [s1, w1]; omega
  · next h =>
    constructor
    · intro hf; exact absurd hf (by simp)
    · rintro ⟨h0, rfl⟩
      exfalso; apply h; intro a
      match a with
      | ⟨0, _⟩ =>
        show 0 ≤ (rowsScatter N M D wf).start (ix2 e q') idx (0 : Fin 2) + ((rowsScatter N M D wf).window (ix2 e q') (0 : Fin 2) : Int)
          ∧ (rowsScatter N M D wf).start (ix2 e q') idx (0 : Fin 2) + ((rowsScatter N M D wf).window (ix2 e q') (0 : Fin 2) : Int) < (N : Int)
        rw [s0, w0]; omega
      | ⟨1, _⟩ =>
        show 0 ≤ (rowsScatter N M D wf).start (ix2 e q') idx (1 : Fin 2) + ((rowsScatter N M D wf).window (ix2 e q') (1 : Fin 2) : Int)
          ∧ (rowsScatter N M D wf).start (ix2 e q') idx (1 : Fin 2) + ((rowsScatter N M D wf).window (ix2 e q') (1 : Fin 2) : Int) < (D : Int)
        rw [s1, w1]; omega

/-- Entry (n, q) of the accumulated matrix at the ideal values: y (n, q) plus the updates of the list entries whose
    position is n, at column q. -/
theorem scatterAdd_rows_apply (wf : ScatterDims.WF ⟨2, ![N, D]⟩ ⟨2, ![M, 1]⟩ ⟨2, ![M, D]⟩ [1] [0] [0] 1)
    (y : FVec Ideal ⟨2, ![N, D]⟩ .f32) (idx : IVec ⟨2, ![M, 1]⟩ w) (u : FVec Ideal ⟨2, ![M, D]⟩ .f32) (n : Fin N) (q : Fin D) :
    Host.scatterAdd (rowsScatter N M D wf) y idx u (ix2 n q)
      = y (ix2 n q) + ∑ e : Fin M, if (idx (ix2 e (0 : Fin 1))).toInt = (n.val : Int) then u (ix2 e q) else 0 := by
  show Ideal.hostScatterAdd (rowsScatter N M D wf) y idx u (ix2 n q) = _
  unfold Ideal.hostScatterAdd
  congr 1
  rw [Finset.sum_filter, sum_idx2]
  refine Finset.sum_congr rfl fun e _ => ?_
  simp only [rows_lands_iff]
  by_cases h : (idx (ix2 e (0 : Fin 1))).toInt = (n.val : Int)
  · simp only [h, true_and, if_true]
    rw [Finset.sum_ite_eq' Finset.univ q (fun q' => u (ix2 e q'))]
    simp
  · simp [h]

/-! ## Accumulating entries into a vector -/

/-- The record of "y.at[idx].add(u)" for a vector y : [N], positions [M, 1] and updates u : [M]. -/
abbrev vecScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update e lands on entry n exactly when position e is n. -/
theorem vec_lands_iff (wf : ScatterDims.WF ⟨1, ![N]⟩ ⟨2, ![M, 1]⟩ ⟨1, ![M]⟩ [] [0] [0] 1)
    (idx : IVec ⟨2, ![M, 1]⟩ w) (e : Fin M) (n : Fin N) :
    (vecScatter N M wf).resultIdx? (ix1 e) idx = some (ix1 n) ↔ (idx (ix2 e (0 : Fin 1))).toInt = (n.val : Int) := by
  have s0 : (vecScatter N M wf).start (ix1 e) idx (0 : Fin 1) = (idx (ix2 e (0 : Fin 1))).toInt := by
    unfold ScatterDims.start
    rw [dif_pos (show (0 : Fin 1) ∈ (vecScatter N M wf).scatterDimsToOperandDims from List.mem_singleton.mpr rfl)]
    congr 2
    funext b; refine Fin.ext ?_
    match b with
    | ⟨0, _⟩ => rfl
    | ⟨1, _⟩ => rfl
  have w0 : (vecScatter N M wf).window (ix1 e) (0 : Fin 1) = 0 := by
    unfold ScatterDims.window
    rw [dif_neg (show (0 : Fin 1) ∉ (vecScatter N M wf).sKept from (by decide : (0 : Fin 1) ∉ (List.finRange 1).filter (· ∉ ([0] : List (Fin 1)))))]
  have hn := n.isLt
  unfold ScatterDims.resultIdx?
  split
  · next h =>
    rw [Option.some.injEq]
    constructor
    · intro hf
      have h0 : ((vecScatter N M wf).start (ix1 e) idx (0 : Fin 1) + ((vecScatter N M wf).window (ix1 e) (0 : Fin 1) : Int)).toNat = n.val :=
        congrArg (fun f : (⟨1, ![N]⟩ : Shape).Idx => (f 0).val) hf
      have hh := (h 0).1
      rw [s0, w0] at h0 hh
      omega
    · intro h0
      funext a; refine Fin.ext ?_
      obtain rfl : a = 0 := Subsingleton.elim _ _
      show ((vecScatter N M wf).start (ix1 e) idx (0 : Fin 1) + ((vecScatter N M wf).window (ix1 e) (0 : Fin 1) : Int)).toNat = n.val
      rw [s0, w0]; omega
  · next h =>
    constructor
    · intro hf; exact absurd hf (by simp)
    · intro h0
      exfalso; apply h; intro a
      obtain rfl : a = 0 := Subsingleton.elim _ _
      show 0 ≤ (vecScatter N M wf).start (ix1 e) idx (0 : Fin 1) + ((vecScatter N M wf).window (ix1 e) (0 : Fin 1) : Int)
        ∧ (vecScatter N M wf).start (ix1 e) idx (0 : Fin 1) + ((vecScatter N M wf).window (ix1 e) (0 : Fin 1) : Int) < (N : Int)
      rw [s0, w0]; omega

/-- Entry n of the accumulated vector at the ideal values: y n plus the updates of the list entries whose position is n. -/
theorem scatterAdd_vec_apply (wf : ScatterDims.WF ⟨1, ![N]⟩ ⟨2, ![M, 1]⟩ ⟨1, ![M]⟩ [] [0] [0] 1)
    (y : FVec Ideal ⟨1, ![N]⟩ .f32) (idx : IVec ⟨2, ![M, 1]⟩ w) (u : FVec Ideal ⟨1, ![M]⟩ .f32) (n : Fin N) :
    Host.scatterAdd (vecScatter N M wf) y idx u (ix1 n)
      = y (ix1 n) + ∑ e : Fin M, if (idx (ix2 e (0 : Fin 1))).toInt = (n.val : Int) then u (ix1 e) else 0 := by
  show Ideal.hostScatterAdd (vecScatter N M wf) y idx u (ix1 n) = _
  unfold Ideal.hostScatterAdd
  congr 1
  rw [Finset.sum_filter]
  have hsum : ∀ f : (⟨1, ![M]⟩ : Shape).Idx → EReal, ∑ j, f j = ∑ e : Fin M, f (ix1 e) := fun f =>
    (Equiv.sum_comp (⟨fun e => ix1 e, fun j => j 0, fun _ => rfl, fun j => (eq_ix1 j).symm⟩ : Fin M ≃ (⟨1, ![M]⟩ : Shape).Idx) f).symm
  rw [hsum]
  refine Finset.sum_congr rfl fun e _ => ?_
  simp only [vec_lands_iff]

end Cert.LibIndexOps

end
-- ==== Proof.RefEdges.lean ====
/-
  The edge-derived arrays of the reference program, read at an index: the two rows of the edge list, the wrapped
  positions an indexing spells, the degree of a node (one plus the number of edges pointing at it), and the
  degree-derived weights 1/√deg, 1/deg and the per-edge product of the two ends' 1/√deg.
-/
import proofs.«166766_j89163521065197_2_alg».proof.Proof.RefRead
import proofs.«166766_j89163521065197_2_alg».proof.Proof.Edges
import proofs.«166766_j89163521065197_2_alg».proof.Proof.LibIndexOps

noncomputable section

namespace Cert.RefEdges

open Cert.ReferenceIdeal Cert.ReferenceIdeal.ReadP Idealize.ShloMosaic Idealize.ShloMosaic.ValueIdx
open scoped BigOperators

variable (x1 : (⟨2, ![2, 1600000]⟩ : Shape).Idx → BitVec 32)

/-! ## The two rows of the edge list -/

/-- Row 0 of the edge list (slice, then the rank-lowering reshape). -/
theorem v1_apply (e : Fin 1600000) : val_main_v1 (F := Ideal) x1 (ix1 e) = Cert.Edges.src x1 e := by
  rw [val_main_v1_apply, val_main_v0_apply]
  unfold Cert.Edges.src
  congr 1
  funext a
  match a with
  | ⟨0, _⟩ => rfl
  | ⟨1, _⟩ => exact Fin.ext (Nat.mod_eq_of_lt e.isLt)

/-- Row 1 of the edge list. -/
theorem v3_apply (e : Fin 1600000) : val_main_v3 (F := Ideal) x1 (ix1 e) = Cert.Edges.dst x1 e := by
  rw [val_main_v3_apply, val_main_v2_apply]
  unfold Cert.Edges.dst
  congr 1
  funext a
  match a with
  | ⟨0, _⟩ => rfl
  | ⟨1, _⟩ => exact Fin.ext (Nat.mod_eq_of_lt e.isLt)

/-! ## The wrapped positions: a negative word has the node count added once -/

theorem v16_apply (e : Fin 1600000) :
    val_main_v16 (F := Ideal) x1 (ix1 e) = Cert.Edges.wrap (Cert.Edges.src x1 e) := by
  rw [val_main_v16_apply, val_main_v13_apply, val_main_v15_apply, val_main_v12_apply, val_main_c_apply,
    val_main_v14_apply, val_main_c_2_apply, v1_apply]
  rfl

theorem v23_apply (e : Fin 1600000) :
    val_main_v23 (F := Ideal) x1 (ix1 e) = Cert.Edges.wrap (Cert.Edges.dst x1 e) := by
  rw [val_main_v23_apply, val_main_v20_apply, val_main_v22_apply, val_main_v19_apply, val_main_c_3_apply,
    val_main_v21_apply, val_main_c_4_apply, v3_apply]
  rfl

theorem v31_apply (e : Fin 1600000) :
    val_main_v31 (F := Ideal) x1 (ix1 e) = Cert.Edges.wrap (Cert.Edges.src x1 e) := by
  rw [val_main_v31_apply, val_main_v28_apply, val_main_v30_apply, val_main_v27_apply, val_main_c_5_apply,
    val_main_v29_apply, val_main_c_6_apply, v1_apply]
  rfl

/-! ## The degree and the per-node weights -/

/-- The list of positions the degree count is accumulated by: row 1 of the edge list as a column. -/
theorem v6_apply (e : Fin 1600000) :
    val_main_v6 (F := Ideal) x1 (ix2 e (0 : Fin 1)) = Cert.Edges.dst x1 e := by
  rw [val_main_v6_apply, ← v3_apply]
  congr 1
  funext a
  match a with
  | ⟨0, _⟩ => rfl

/-- The number of edges pointing at node i, accumulated from zero: an edge whose signed number is no node's adds nothing. -/
theorem v7_apply (i : Fin 100000) :
    val_main_v7 (F := Ideal) x1 (ix1 i)
      = Cert.Spec.zeroW + ∑ e : Fin 1600000, if Cert.Edges.dl x1 e = (i.val : Int) then Cert.Spec.oneW else 0 := by
  unfold val_main_v7
  show Host.scatterAdd (Cert.LibIndexOps.vecScatter 100000 1600000 Facts₀.scatter_S100000_S1600000x1_S1600000_n_0_0_1_wf) _ _ _ _ = _
  rw [Cert.LibIndexOps.scatterAdd_vec_apply]
  refine congrArg₂ (· + ·) ?_ (Finset.sum_congr rfl fun e _ => ?_)
  · rw [val_main_v5_apply]; rfl
  · rw [v6_apply, val_main_v4_apply]
    rfl

/-- The degree: one for the self loop plus the count. -/
theorem v9_apply (i : Fin 100000) :
    val_main_v9 (F := Ideal) x1 (ix1 i) = Cert.Spec.deg (Cert.Edges.dl x1) i := by
  rw [val_main_v9_apply, v7_apply, val_main_v8_apply]
  rfl

/-- 1/√deg. -/
theorem v10_apply (i : Fin 100000) :
    val_main_v10 (F := Ideal) x1 (ix1 i) = Cert.Edges.dinv x1 i := by
  rw [val_main_v10_apply, v9_apply, Ideal.hostUnary_rsqrt_def]
  rfl

/-- 1/deg. -/
theorem v41_apply (i : Fin 100000) :
    val_main_v41 (F := Ideal) x1 (ix1 i) = Cert.Edges.invdeg x1 i := by
  rw [val_main_v41_apply, v9_apply, val_main_v40_apply, Ideal.hostDivf_def]
  rfl

/-! ## The per-edge weight: the two ends' 1/√deg, each read at its wrapped, clamped position -/

theorem v17_apply (e : Fin 1600000) :
    val_main_v17 (F := Ideal) x1 (ix2 e (0 : Fin 1)) = Cert.Edges.wrap (Cert.Edges.src x1 e) := by
  rw [val_main_v17_apply, ← v16_apply]
  congr 1
  funext a
  match a with
  | ⟨0, _⟩ => rfl

theorem v24_apply (e : Fin 1600000) :
    val_main_v24 (F := Ideal) x1 (ix2 e (0 : Fin 1)) = Cert.Edges.wrap (Cert.Edges.dst x1 e) := by
  rw [val_main_v24_apply, ← v23_apply]
  congr 1
  funext a
  match a with
  | ⟨0, _⟩ => rfl

theorem v18_apply (e : Fin 1600000) :
    val_main_v18 (F := Ideal) x1 (ix1 e) = Cert.Edges.dinv x1 (Cert.Edges.sp x1 e) := by
  unfold val_main_v18
  show Host.gather (Cert.LibIndexOps.vecGather 100000 1600000 Facts₀.gather_S100000_S1600000x1_S1600000_n_0_n_n_0_1_1_wf) _ _ _ = _
  rw [Cert.LibIndexOps.gather_vec_apply (by decide), ← v10_apply]
  refine congrArg (fun j : Fin 100000 => val_main_v10 (F := Ideal) x1 (ix1 j)) (Fin.ext ?_)
  show min (val_main_v17 (F := Ideal) x1 (ix2 e (0 : Fin 1))).toInt.toNat (100000 - 1) = _
  rw [v17_apply]
  rfl

theorem v25_apply (e : Fin 1600000) :
    val_main_v25 (F := Ideal) x1 (ix1 e) = Cert.Edges.dinv x1 (Cert.Edges.dp x1 e) := by
  unfold val_main_v25
  show Host.gather (Cert.LibIndexOps.vecGather 100000 1600000 Facts₀.gather_S100000_S1600000x1_S1600000_n_0_n_n_0_1_1_wf) _ _ _ = _
  rw [Cert.LibIndexOps.gather_vec_apply (by decide), ← v10_apply]
  refine congrArg (fun j : Fin 100000 => val_main_v10 (F := Ideal) x1 (ix1 j)) (Fin.ext ?_)
  show min (val_main_v24 (F := Ideal) x1 (ix2 e (0 : Fin 1))).toInt.toNat (100000 - 1) = _
  rw [v24_apply]
  rfl

/-- The per-edge weight. -/
theorem v26_apply (e : Fin 1600000) :
    val_main_v26 (F := Ideal) x1 (ix1 e) = Cert.Edges.nrm x1 e := by
  rw [val_main_v26_apply, v18_apply, v25_apply]
  rfl

end Cert.RefEdges

end
-- ==== Proof.LayerEq.lean ====
/-
  The first grid computation's linear layer is the specification's kernel arrangement: its five input arrays, read at
  an index, are the features, W, the bias, the inverse degrees and the 3-channel aggregate of the specification
  (the scatter of the weighted feature rows: row `sp e` of the features times `nrm e`, added at node `dl e`).
-/
import proofs.«166766_j89163521065197_2_alg».proof.Proof.Glue1
import proofs.«166766_j89163521065197_2_alg».proof.Proof.RegionDefs
import proofs.«166766_j89163521065197_2_alg».proof.Proof.RefEdges
import proofs.«166766_j89163521065197_2_alg».proof.Proof.Edges
import proofs.«166766_j89163521065197_2_alg».proof.Proof.LibIndexOps
import proofs.«166766_j89163521065197_2_alg».proof.Proof.LibRelay
import proofs.«166766_j89163521065197_2_alg».proof.Proof.LibHostRead

set_option maxRecDepth 16384

noncomputable section

namespace Cert.KernelIdeal.Glue

open Idealize.ShloMosaic Idealize.ShloMosaic.ValueIdx Idealize.ShloMosaic.TcCoe Cert.KernelIdeal Cert.KernelIdeal.Gen
open scoped BigOperators

variable (m : (ℓ : Loc nD τ sig) → Buf (Elt Ideal) ℓ) (ρ : Dev nD → PrngReg) (c : Dev nD)

/-- The inverse degrees as the first computation finds them. -/
theorem v13_apply (i : Fin 100000) :
    Regions.asArr S100000x1 (V1 m ρ c main_v13) (ix2 i (0 : Fin 1)) = Cert.Edges.invdeg (ei m c) i := by
  rw [V1_v13]
  exact (Cert.LibRelay.col_apply _ shapeCasts_S100000_S100000x1 i).trans (Cert.RefEdges.v41_apply (ei m c) i)

/-- The bias row as the first computation finds it. -/
theorem v42_apply (q : Fin 32) :
    Regions.asArr S1x32 (V1 m ρ c main_v42) (ix2 (0 : Fin 1) q) = m ((c.tc : Thread nD τ).loc main_arg3) (ix1 q) := by
  rw [V1_v42]
  exact Cert.LibRelay.row_apply _ shapeCasts_S32_S1x32 q

/-- The 3-channel aggregate as the first computation finds it. -/
theorem v41_apply (i : Fin 100000) (k : Fin 3) :
    Regions.asArr S100000x3 (V1 m ρ c main_v41) (ix2 i k)
      = Cert.Spec.agg3 (Cert.Edges.sp (ei m c)) (Cert.Edges.dl (ei m c)) (Cert.Edges.nrm (ei m c))
          (fun i k => m ((c.tc : Thread nD τ).loc main_arg0) (ix2 i k)) i k := by
  rw [V1_v41]
  refine (Cert.LibIndexOps.scatterAdd_rows_apply (N := 100000) (M := 1600000) (D := 3)
    scatter_S100000x3_S1600000x1_S1600000x3_1_0_0_1.wf _ _ _ i k).trans ?_
  unfold Cert.Spec.agg3
  refine congrArg₂ (· + ·) rfl (Finset.sum_congr rfl fun e _ => ?_)
  rw [Cert.LibHostRead.bcast_a_a1_apply, Cert.RefEdges.v3_apply]
  refine if_congr Iff.rfl ?_ rfl
  rw [ValueIdx.mulf_apply]
  refine congrArg₂ (· * ·) ?_ ?_
  · refine (Cert.LibIndexOps.gather_rows_apply (N := 100000) (M := 1600000) (D := 3) (by omega)
      gather_S100000x3_S1600000x1_S1600000x3_1_0_n_n_0_1_13.wf _ _ e k).trans ?_
    have hb : broadcastInDim S1600000x1 ![0] bcast_S1600000_S1600000x1_0
        (Cert.ReferenceIdeal.ReadP.val_main_v31 (F := Ideal) (ei m c)) (ix2 e (0 : Fin 1))
        = Cert.Edges.wrap (Cert.Edges.src (ei m c) e) :=
      (Cert.LibHostRead.bcast_a_a1_apply _ _ e 0).trans (Cert.RefEdges.v31_apply (ei m c) e)
    refine congrArg (fun r : Fin 100000 => m ((c.tc : Thread nD τ).loc main_arg0) (ix2 r k)) (Fin.ext ?_)
    show min _ (100000 - 1) = min (Cert.Edges.wrap (Cert.Edges.src (ei m c) e)).toInt.toNat (100000 - 1)
    rw [hb]
  · rw [Cert.LibHostRead.bcast_a1_ab_apply, Cert.LibHostRead.bcast_a_a1_apply, Cert.RefEdges.v26_apply]

/-- The layer the first computation computes is the specification's kernel arrangement. -/
theorem layer_eq :
    Regions.layer (V1 m ρ) c
      = Cert.Spec.aggK (Cert.Edges.sp (ei m c)) (Cert.Edges.dl (ei m c)) (Cert.Edges.nrm (ei m c)) (Cert.Edges.invdeg (ei m c))
          (fun i k => m ((c.tc : Thread nD τ).loc main_arg0) (ix2 i k)) (fun k q => m ((c.tc : Thread nD τ).loc main_arg2) (ix2 k q))
          (fun q => m ((c.tc : Thread nD τ).loc main_arg3) (ix1 q)) := by
  funext i q
  unfold Regions.layer Cert.Spec.aggK
  have h13 : (fun i => V1 m ρ c main_v13 (ix2 i (0 : Fin 1))) = Cert.Edges.invdeg (ei m c) := funext fun i => v13_apply m ρ c i
  have h42 : (fun q => V1 m ρ c main_v42 (ix2 (0 : Fin 1) q)) = fun q => m ((c.tc : Thread nD τ).loc main_arg3) (ix1 q) :=
    funext fun q => v42_apply m ρ c q
  have h41 : (fun i k => V1 m ρ c main_v41 (ix2 i k))
      = Cert.Spec.agg3 (Cert.Edges.sp (ei m c)) (Cert.Edges.dl (ei m c)) (Cert.Edges.nrm (ei m c))
          (fun i k => m ((c.tc : Thread nD τ).loc main_arg0) (ix2 i k)) := funext fun i => funext fun k => v41_apply m ρ c i k
  have h0 : (fun i k => V1 m ρ c main_arg0 (ix2 i k)) = fun i k => m ((c.tc : Thread nD τ).loc main_arg0) (ix2 i k) := by
    rw [V1_arg0]
  have h2 : (fun k q => V1 m ρ c main_arg2 (ix2 k q)) = fun k q => m ((c.tc : Thread nD τ).loc main_arg2) (ix2 k q) := by
    rw [V1_arg2]
  rw [h13, h42, h41, h0, h2]

end Cert.KernelIdeal.Glue

end
-- ==== Proof.LibKeepdims.lean ====
/-
  A reduction over the last axis that keeps its dimension: the vector of row results, length a, is viewed as a
  column [a, 1] and the column is then spread over b columns, [a, 1] to [a, b]. Read at (p, c) the result is the
  row result of row p, whatever the column c. Stated for any element type and any extents.
-/
import Idealize.ShloMosaic.Lib.ValueLayout

namespace Idealize.ShloMosaic.ValueIdx

open Idealize.ShloMosaic

variable {α : Type}

/-- An `[a]` array cast to a column `[a, 1]` reads, at `(i, u)`, the operand at `i`, whatever the unit coordinate `u`:
    the row-major position of `(i, u)` in a one-column array is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a length-`a` vector as a column spread over `b` columns reads, at `(p, c)`, entry `p`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

end Idealize.ShloMosaic.ValueIdx
-- ==== Proof.Region0Body.lean ====
/-
  The first grid computation's body, read as values: what each of its two control cases leaves in the two output
  blocks, as the body's arithmetic applied to the five input blocks (for any float values), and that arithmetic read
  entry by entry over the extended reals: the block of the layer at (p, q) is the three channels with the self loop
  folded in, times the three rows of the weights, summed left to right, plus the bias; the running row after a block
  is what it held plus the block's column sums; the row the first point starts from is zero.
-/
import proofs.«166766_j89163521065197_2_alg».proof.Proof.Gen.KernelIdeal.Frame
import proofs.«166766_j89163521065197_2_alg».proof.Proof.LibColSum
import proofs.«166766_j89163521065197_2_alg».proof.Proof.LibKeepdims
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.KernelIdeal.Regions

open Idealize.ShloMosaic Idealize.ShloMosaic.ValueIdx Idealize.ShloMosaic.TcCoe Cert.KernelIdeal Cert.KernelIdeal.Gen
open Idealize.SL.Sem
open scoped BigOperators

/-- The zero offsets of a rank-2 block. -/
theorem hz2 : (![0, 0] : Fin 2 → Nat) = fun _ => 0 := funext fun a => by fin_cases a <;> rfl

section Pieces

variable {F : FTy → Type} [FloatOps F]

/-- Case B, first output: the block stored is the layer's payload of the five input blocks. -/
theorem piece_B_5 (c : Dev nD) (i : grid0.Coords) (a1 : Memref sig .tc .vmem S5000x3 .f32) (h1 : a1.IsWhole) (a2 : Memref sig .tc .vmem S5000x3 .f32) (h2 : a2.IsWhole) (a3 : Memref sig .tc .vmem S5000x1 .f32) (h3 : a3.IsWhole) (a4 : Memref sig .tc .vmem S3x32 .f32) (h4 : a4.IsWhole) (a5 : Memref sig .tc .vmem S1x32 .f32) (h5 : a5.IsWhole) (a6 : Memref sig .tc .vmem S5000x32 .f32) (h6 : a6.IsWhole) (a7 : Memref sig .tc .vmem S1x32 .f32) (h7 : a7.IsWhole) (hc : ¬cond0_0 i)
    (x0 : Vec F S5000x3 .f32) (x1 : Vec F S5000x3 .f32) (x2 : Vec F S5000x1 .f32) (x3 : Vec F S3x32 .f32) (x4 : Vec F S1x32 .f32) (xo6 : Vec F S1x32 .f32) :
    out0_B_5 c i a1 h1 a2 h2 a3 h3 a4 h4 a5 h5 a6 h6 a7 h7 hc x0 x1 x2 x3 x4 xo6 = k0_pay2 x0 x1 x2 x3 x4 := by
  unfold out0_B_5
  rw [View.read_writes_eq_canon _ _ _ (cover0_B_5 c i a1 h1 a2 h2 a3 h3 a4 h4 a5 h5 a6 h6 a7 h7 hc x0 x1 x2 x3 x4 xo6)]
  unfold kernelRun0_B
  dsimp only
  rw [View.canon_unit_zero hz2]
  simp only [View.readAt_eq_ld, h1.read_unread, h2.read_unread, h3.read_unread, h4.read_unread, h5.read_unread, h7.read_unread, View.ld_unit_zero (S := S5000x3) hz2, View.ld_unit_zero (S := S5000x1) hz2, View.ld_unit_zero (S := S3x32) hz2, View.ld_unit_zero (S := S1x32) hz2]

/-- Case B, second output: the running row plus the block's column sums. -/
theorem piece_B_6 (c : Dev nD) (i : grid0.Coords) (a1 : Memref sig .tc .vmem S5000x3 .f32) (h1 : a1.IsWhole) (a2 : Memref sig .tc .vmem S5000x3 .f32) (h2 : a2.IsWhole) (a3 : Memref sig .tc .vmem S5000x1 .f32) (h3 : a3.IsWhole) (a4 : Memref sig .tc .vmem S3x32 .f32) (h4 : a4.IsWhole) (a5 : Memref sig .tc .vmem S1x32 .f32) (h5 : a5.IsWhole) (a6 : Memref sig .tc .vmem S5000x32 .f32) (h6 : a6.IsWhole) (a7 : Memref sig .tc .vmem S1x32 .f32) (h7 : a7.IsWhole) (hc : ¬cond0_0 i)
    (x0 : Vec F S5000x3 .f32) (x1 : Vec F S5000x3 .f32) (x2 : Vec F S5000x1 .f32) (x3 : Vec F S3x32 .f32) (x4 : Vec F S1x32 .f32) (xo6 : Vec F S1x32 .f32) :
    out0_B_6 c i a1 h1 a2 h2 a3 h3 a4 h4 a5 h5 a6 h6 a7 h7 hc x0 x1 x2 x3 x4 xo6 = k0_pay3 x0 x1 x2 x3 x4 xo6 := by
  unfold out0_B_6
  rw [View.read_writes_eq_canon _ _ _ (cover0_B_6 c i a1 h1 a2 h2 a3 h3 a4 h4 a5 h5 a6 h6 a7 h7 hc x0 x1 x2 x3 x4 xo6)]
  unfold kernelRun0_B
  dsimp only
  sl_unfold_words
  rw [View.canon_unit_zero hz2]
  simp only [View.readAt_eq_ld, h1.read_unread, h2.read_unread, h3.read_unread, h4.read_unread, h5.read_unread, h7.read_unread, View.ld_unit_zero (S := S5000x3) hz2, View.ld_unit_zero (S := S5000x1) hz2, View.ld_unit_zero (S := S3x32) hz2, View.ld_unit_zero (S := S1x32) hz2]

/-- Case A, first output: the same block as in case B. -/
theorem piece_A_5 (c : Dev nD) (i : grid0.Coords) (a1 : Memref sig .tc .vmem S5000x3 .f32) (h1 : a1.IsWhole) (a2 : Memref sig .tc .vmem S5000x3 .f32) (h2 : a2.IsWhole) (a3 : Memref sig .tc .vmem S5000x1 .f32) (h3 : a3.IsWhole) (a4 : Memref sig .tc .vmem S3x32 .f32) (h4 : a4.IsWhole) (a5 : Memref sig .tc .vmem S1x32 .f32) (h5 : a5.IsWhole) (a6 : Memref sig .tc .vmem S5000x32 .f32) (h6 : a6.IsWhole) (a7 : Memref sig .tc .vmem S1x32 .f32) (h7 : a7.IsWhole) (hc : cond0_0 i)
    (x0 : Vec F S5000x3 .f32) (x1 : Vec F S5000x3 .f32) (x2 : Vec F S5000x1 .f32) (x3 : Vec F S3x32 .f32) (x4 : Vec F S1x32 .f32) :
    out0_A_5 c i a1 h1 a2 h2 a3 h3 a4 h4 a5 h5 a6 h6 a7 h7 hc x0 x1 x2 x3 x4 = k0_pay2 x0 x1 x2 x3 x4 := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  rw [View.canon_unit_zero hz2]
  simp only [View.readAt_eq_ld, h1.read_unread, h2.read_unread, h3.read_unread, h4.read_unread, h5.read_unread, h7.read_unread, View.ld_unit_zero (S := S5000x3) hz2, View.ld_unit_zero (S := S5000x1) hz2, View.ld_unit_zero (S := S3x32) hz2, View.ld_unit_zero (S := S1x32) hz2]

/-- Case A, second output: the zero row plus the block's column sums. -/
theorem piece_A_6 (c : Dev nD) (i : grid0.Coords) (a1 : Memref sig .tc .vmem S5000x3 .f32) (h1 : a1.IsWhole) (a2 : Memref sig .tc .vmem S5000x3 .f32) (h2 : a2.IsWhole) (a3 : Memref sig .tc .vmem S5000x1 .f32) (h3 : a3.IsWhole) (a4 : Memref sig .tc .vmem S3x32 .f32) (h4 : a4.IsWhole) (a5 : Memref sig .tc .vmem S1x32 .f32) (h5 : a5.IsWhole) (a6 : Memref sig .tc .vmem S5000x32 .f32) (h6 : a6.IsWhole) (a7 : Memref sig .tc .vmem S1x32 .f32) (h7 : a7.IsWhole) (hc : cond0_0 i)
    (x0 : Vec F S5000x3 .f32) (x1 : Vec F S5000x3 .f32) (x2 : Vec F S5000x1 .f32) (x3 : Vec F S3x32 .f32) (x4 : Vec F S1x32 .f32) :
    out0_A_6 c i a1 h1 a2 h2 a3 h3 a4 h4 a5 h5 a6 h6 a7 h7 hc x0 x1 x2 x3 x4 = k0_pay3 x0 x1 x2 x3 x4 k0_pay1 := by
  unfold out0_A_6
  rw [View.read_writes_eq_canon _ _ _ (cover0_A_6 c i a1 h1 a2 h2 a3 h3 a4 h4 a5 h5 a6 h6 a7 h7 hc x0 x1 x2 x3 x4)]
  unfold kernelRun0_A
  dsimp only
  sl_unfold_words
  rw [View.canon_cons_unit_zero (S := S1x32) hz2, View.readCov_unit_zero (S := S1x32) _ hz2]
  simp only [View.readAt_eq_ld, h1.read_unread, h2.read_unread, h3.read_unread, h4.read_unread, h5.read_unread, h7.read_unread, View.ld_unit_zero (S := S5000x3) hz2, View.ld_unit_zero (S := S5000x1) hz2, View.ld_unit_zero (S := S3x32) hz2, View.ld_unit_zero (S := S1x32) hz2]

end Pieces

/-! ## The body's arithmetic, entry by entry, over the extended reals -/

/-- The zero row, entry by entry. -/
theorem pay1_apply (j : S1x32.Idx) : k0_pay1 (F := Ideal) j = 0 := by
  unfold k0_pay1
  exact Ideal.ofBits_zero_f32

/-- The block of the layer at row p, column q: the three channels with the self loop folded in, times the
    three rows of the weights, summed left to right, plus the bias. -/
theorem pay2_apply (x0 x1 : Vec Ideal S5000x3 .f32) (x2 : Vec Ideal S5000x1 .f32) (x3 : Vec Ideal S3x32 .f32)
    (x4 : Vec Ideal S1x32 .f32) (p : Fin 5000) (q : Fin 32) :
    k0_pay2 (F := Ideal) x0 x1 x2 x3 x4 (ix2 p q)
      = (((x0 (ix2 p (0 : Fin 3)) + x1 (ix2 p (0 : Fin 3)) * x2 (ix2 p (0 : Fin 1))) * x3 (ix2 (0 : Fin 3) q)
          + (x0 (ix2 p (1 : Fin 3)) + x1 (ix2 p (1 : Fin 3)) * x2 (ix2 p (0 : Fin 1))) * x3 (ix2 (1 : Fin 3) q))
          + (x0 (ix2 p (2 : Fin 3)) + x1 (ix2 p (2 : Fin 3)) * x2 (ix2 p (0 : Fin 1))) * x3 (ix2 (2 : Fin 3) q))
        + x4 (ix2 (0 : Fin 1) q) := by
  unfold k0_pay2
  simp only [addf_apply, mulf_apply, shapeCast_self, broadcastTo_1b_ab_apply, broadcastTo_a1_ab_apply,
    slice2_axis1_eq, slice2_axis0_eq]
  rfl

/-- The running row after a block: what it held plus the block's column sums. -/
theorem pay3_apply (x0 x1 : Vec Ideal S5000x3 .f32) (x2 : Vec Ideal S5000x1 .f32) (x3 : Vec Ideal S3x32 .f32)
    (x4 : Vec Ideal S1x32 .f32) (acc : Vec Ideal S1x32 .f32) (u : Fin 1) (q : Fin 32) :
    k0_pay3 (F := Ideal) x0 x1 x2 x3 x4 acc (ix2 u q)
      = acc (ix2 u q) + ∑ p : Fin 5000, k0_pay2 (F := Ideal) x0 x1 x2 x3 x4 (ix2 p q) := by
  unfold k0_pay3
  rw [addf_apply, shapeCast_self]
  exact congrArg (acc (ix2 u q) + ·) (Cert.LibColSum.colSumRow_apply _ _ _ _ _ u q)

end Cert.KernelIdeal.Regions

end
-- ==== Proof.Region0.lean ====
/-
  The first grid computation (20 blocks of 5000 rows): its two output arrays as functions of its input arrays.
-/
import proofs.«166766_j89163521065197_2_alg».proof.Proof.RegionDefs
import proofs.«166766_j89163521065197_2_alg».proof.Proof.Region0Body
import proofs.«166766_j89163521065197_2_alg».proof.Proof.LibSums
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Idealize.ShloMosaic Idealize.ShloMosaic.ValueIdx Idealize.ShloMosaic.TcCoe Cert.KernelIdeal Cert.KernelIdeal.Gen
open scoped BigOperators

variable (V : (c : Dev nD) → (b : Ref sig .tc) → Buf (Elt Ideal) ((c : Thread nD τ).loc b))

/-! ## Where each block sits in its array -/

/-- The block indices at point t, decided over the grid: the three row-blocked inputs and the first output are at
    block row t, the weights, the bias and the running row at their one block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0 :=
  (by decide +kernel : ∀ t : Fin grid0.N, _)

/-- The aggregate's block at point t, entry (p, k): row 5000 t + p of the array. -/
theorem blk0_0 (c : Dev nD) (t : Fin cfg0.N) (p : Fin 5000) (k : Fin 3) (i : Fin 100000)
    (hi : i.val = 5000 * t.val + p.val) :
    (iblk0 V c 0 t : Vec Ideal S5000x3 .f32) (ix2 p k) = V c main_v41 (ix2 i k) := by
  obtain ⟨e0, e1, -⟩ := idx_facts0 t
  unfold iblk0
  rw [View.read_apply]
  show V c main_v41 _ = V c main_v41 _
  refine congrArg (V c main_v41) (funext fun a => Fin.ext ?_)
  match a with
  | ⟨0, _⟩ => show win0_0.index t (0 : Fin 2) * 5000 + 1 * p.val = i.val; omega
  | ⟨1, _⟩ => show win0_0.index t (1 : Fin 2) * 3 + 1 * k.val = k.val; omega

/-- The features' block at point t, entry (p, k): row 5000 t + p of the array. -/
theorem blk0_1 (c : Dev nD) (t : Fin cfg0.N) (p : Fin 5000) (k : Fin 3) (i : Fin 100000)
    (hi : i.val = 5000 * t.val + p.val) :
    (iblk0 V c 1 t : Vec Ideal S5000x3 .f32) (ix2 p k) = V c main_arg0 (ix2 i k) := by
  obtain ⟨-, -, e0, e1, -⟩ := idx_facts0 t
  unfold iblk0
  rw [View.read_apply]
  show V c main_arg0 _ = V c main_arg0 _
  refine congrArg (V c main_arg0) (funext fun a => Fin.ext ?_)
  match a with
  | ⟨0, _⟩ => show win0_1.index t (0 : Fin 2) * 5000 + 1 * p.val = i.val; omega
  | ⟨1, _⟩ => show win0_1.index t (1 : Fin 2) * 3 + 1 * k.val = k.val; omega

/-- The inverse degrees' block at point t, entry (p, 0): row 5000 t + p of the column. -/
theorem blk0_2 (c : Dev nD) (t : Fin cfg0.N) (p : Fin 5000) (i : Fin 100000)
    (hi : i.val = 5000 * t.val + p.val) :
    (iblk0 V c 2 t : Vec Ideal S5000x1 .f32) (ix2 p (0 : Fin 1)) = V c main_v13 (ix2 i (0 : Fin 1)) := by
  obtain ⟨-, -, -, -, e0, e1, -⟩ := idx_facts0 t
  unfold iblk0
  rw [View.read_apply]
  show V c main_v13 _ = V c main_v13 _
  refine congrArg (V c main_v13) (funext fun a => Fin.ext ?_)
  match a with
  | ⟨0, _⟩ => show win0_2.index t (0 : Fin 2) * 5000 + 1 * p.val = i.val; omega
  | ⟨1, _⟩ => show win0_2.index t (1 : Fin 2) * 1 + 1 * (0 : Fin 1).val = (0 : Fin 1).val; omega

/-- The weights' one block is the whole array. -/
theorem blk0_3 (c : Dev nD) (t : Fin cfg0.N) (k : Fin 3) (q : Fin 32) :
    (iblk0 V c 3 t : Vec Ideal S3x32 .f32) (ix2 k q) = V c main_arg2 (ix2 k q) := by
  obtain ⟨-, -, -, -, -, -, e0, e1, -⟩ := idx_facts0 t
  unfold iblk0
  rw [View.read_apply]
  show V c main_arg2 _ = V c main_arg2 _
  refine congrArg (V c main_arg2) (funext fun a => Fin.ext ?_)
  match a with
  | ⟨0, _⟩ => show win0_3.index t (0 : Fin 2) * 3 + 1 * k.val = k.val; omega
  | ⟨1, _⟩ => show win0_3.index t (1 : Fin 2) * 32 + 1 * q.val = q.val; omega

/-- The bias row's one block is the whole array. -/
theorem blk0_4 (c : Dev nD) (t : Fin cfg0.N) (q : Fin 32) :
    (iblk0 V c 4 t : Vec Ideal S1x32 .f32) (ix2 (0 : Fin 1) q) = V c main_v42 (ix2 (0 : Fin 1) q) := by
  obtain ⟨-, -, -, -, -, -, -, -, e0, e1, -⟩ := idx_facts0 t
  unfold iblk0
  rw [View.read_apply]
  show V c main_v42 _ = V c main_v42 _
  refine congrArg (V c main_v42) (funext fun a => Fin.ext ?_)
  match a with
  | ⟨0, _⟩ => show win0_4.index t (0 : Fin 2) * 1 + 1 * (0 : Fin 1).val = (0 : Fin 1).val; omega
  | ⟨1, _⟩ => show win0_4.index t (1 : Fin 2) * 32 + 1 * q.val = q.val; omega

/-! ## The layer on a block -/

/-- The block of the layer at (p, q) from the eleven entries it reads, each named by an equation. -/
theorem pay2_apply_of (x0 x1 : Vec Ideal S5000x3 .f32) (x2 : Vec Ideal S5000x1 .f32) (x3 : Vec Ideal S3x32 .f32)
    (x4 : Vec Ideal S1x32 .f32) (p : Fin 5000) (q : Fin 32) (a0 a1 a2 b0 b1 b2 d w0 w1 w2 bb : EReal)
    (ha0 : x0 (ix2 p (0 : Fin 3)) = a0) (ha1 : x0 (ix2 p (1 : Fin 3)) = a1) (ha2 : x0 (ix2 p (2 : Fin 3)) = a2)
    (hb0 : x1 (ix2 p (0 : Fin 3)) = b0) (hb1 : x1 (ix2 p (1 : Fin 3)) = b1) (hb2 : x1 (ix2 p (2 : Fin 3)) = b2)
    (hd : x2 (ix2 p (0 : Fin 1)) = d)
    (hw0 : x3 (ix2 (0 : Fin 3) q) = w0) (hw1 : x3 (ix2 (1 : Fin 3) q) = w1) (hw2 : x3 (ix2 (2 : Fin 3) q) = w2)
    (hbb : x4 (ix2 (0 : Fin 1) q) = bb) :
    k0_pay2 (F := Ideal) x0 x1 x2 x3 x4 (ix2 p q)
      = (((a0 + b0 * d) * w0 + (a1 + b1 * d) * w1) + (a2 + b2 * d) * w2) + bb := by
  subst ha0 ha1 ha2 hb0 hb1 hb2 hd hw0 hw1 hw2 hbb
  exact pay2_apply x0 x1 x2 x3 x4 p q

/-- The body's block of the layer at point t, entry (p, q), is the layer's entry of row 5000 t + p. -/
theorem pay2_blk (c : Dev nD) (t : Fin cfg0.N) (p : Fin 5000) (q : Fin 32) (i : Fin 100000)
    (hi : i.val = 5000 * t.val + p.val) :
    k0_pay2 (F := Ideal) (iblk0 V c 0 t) (iblk0 V c 1 t) (iblk0 V c 2 t) (iblk0 V c 3 t) (iblk0 V c 4 t) (ix2 p q) = layer V c i q :=
  pay2_apply_of (iblk0 V c 0 t) (iblk0 V c 1 t) (iblk0 V c 2 t) (iblk0 V c 3 t) (iblk0 V c 4 t) p q
    (V c main_v41 (ix2 i (0 : Fin 3))) (V c main_v41 (ix2 i (1 : Fin 3))) (V c main_v41 (ix2 i (2 : Fin 3)))
    (V c main_arg0 (ix2 i (0 : Fin 3))) (V c main_arg0 (ix2 i (1 : Fin 3))) (V c main_arg0 (ix2 i (2 : Fin 3)))
    (V c main_v13 (ix2 i (0 : Fin 1)))
    (V c main_arg2 (ix2 (0 : Fin 3) q)) (V c main_arg2 (ix2 (1 : Fin 3) q)) (V c main_arg2 (ix2 (2 : Fin 3) q))
    (V c main_v42 (ix2 (0 : Fin 1) q))
    (blk0_0 V c t p 0 i hi) (blk0_0 V c t p 1 i hi) (blk0_0 V c t p 2 i hi)
    (blk0_1 V c t p 0 i hi) (blk0_1 V c t p 1 i hi) (blk0_1 V c t p 2 i hi) (blk0_2 V c t p i hi)
    (blk0_3 V c t 0 q) (blk0_3 V c t 1 q) (blk0_3 V c t 2 q) (blk0_4 V c t q)

/-- What the first output's block holds after point t: the layer's block, in either case. -/
theorem out5_eq (c : Dev nD) (t : Fin cfg0.N) :
    (outsAt0 V c t.val t.isLt).1 = k0_pay2 (F := Ideal) (iblk0 V c 0 t) (iblk0 V c 1 t) (iblk0 V c 2 t) (iblk0 V c 3 t) (iblk0 V c 4 t) := by
  by_cases h0 : t.val % 20 = 0
  · rw [outsAt0_A V c t h0]
    dsimp only
    rw [piece_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) _ (iblk0 V c 0 t) (iblk0 V c 1 t) (iblk0 V c 2 t) (iblk0 V c 3 t) (iblk0 V c 4 t)]
  · rw [outsAt0_B V c t h0]
    dsimp only
    rw [piece_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) _ (iblk0 V c 0 t) (iblk0 V c 1 t) (iblk0 V c 2 t) (iblk0 V c 3 t) (iblk0 V c 4 t) _]

/-! ## The running column sums -/

/-- Row v of the layer at column q, and zero past the last row. -/
def rowf (c : Dev nD) (q : Fin 32) (v : ℕ) : EReal := if h : v < 100000 then layer V c ⟨v, h⟩ q else 0

/-- The column sums of the layer's block at point t are the sums of rows 5000 t … 5000 t + 4999. -/
theorem blocksum (c : Dev nD) (t : Fin cfg0.N) (q : Fin 32) :
    ∑ p : Fin 5000, k0_pay2 (F := Ideal) (iblk0 V c 0 t) (iblk0 V c 1 t) (iblk0 V c 2 t) (iblk0 V c 3 t) (iblk0 V c 4 t) (ix2 p q)
      = ∑ p : Fin 5000, rowf V c q (t.val * 5000 + p.val) := by
  have hN : cfg0.N = 20 := N_0
  refine Finset.sum_congr rfl fun p _ => ?_
  have ht : t.val < 20 := lt_of_lt_of_eq t.isLt hN
  have hlt : t.val * 5000 + p.val < 100000 := by have := p.isLt; omega
  rw [rowf, dif_pos hlt]
  exact pay2_blk V c t p q ⟨t.val * 5000 + p.val, hlt⟩ (by show t.val * 5000 + p.val = 5000 * t.val + p.val; omega)

/-- After point n the running row holds, at column q, the sum of the layer's rows of blocks 0 … n. -/
theorem acc_eq (c : Dev nD) : ∀ (n : ℕ) (hn : n < cfg0.N) (u : Fin 1) (q : Fin 32),
    (outsAt0 V c n hn).2 (ix2 u q) = ∑ k ∈ Finset.range (n + 1), ∑ p : Fin 5000, rowf V c q (k * 5000 + p.val)
  | 0, hn, u, q => by
    rw [outsAt0_A V c ⟨0, hn⟩ rfl]
    dsimp only
    rw [piece_A_6 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) _ (iblk0 V c 0 ⟨0, hn⟩) (iblk0 V c 1 ⟨0, hn⟩) (iblk0 V c 2 ⟨0, hn⟩) (iblk0 V c 3 ⟨0, hn⟩) (iblk0 V c 4 ⟨0, hn⟩)]
    refine (pay3_apply (iblk0 V c 0 ⟨0, hn⟩) (iblk0 V c 1 ⟨0, hn⟩) (iblk0 V c 2 ⟨0, hn⟩) (iblk0 V c 3 ⟨0, hn⟩) (iblk0 V c 4 ⟨0, hn⟩) (k0_pay1 (F := Ideal)) u q).trans ?_
    rw [pay1_apply, zero_add, Finset.sum_range_one, blocksum V c ⟨0, hn⟩ q]
  | n + 1, hn, u, q => by
    have hN : cfg0.N = 20 := N_0
    have hB : ¬(⟨n + 1, hn⟩ : Fin cfg0.N).val % 20 = 0 := by dsimp only; omega
    rw [outsAt0_B V c ⟨n + 1, hn⟩ hB]
    dsimp only
    rw [piece_B_6 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) _ (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) _]
    refine (pay3_apply (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) _ u q).trans ?_
    rw [Finset.sum_range_succ _ (n + 1), blocksum V c ⟨n + 1, hn⟩ q]
    exact congrArg (· + _) (acc_eq c n (Nat.lt_of_succ_lt hn) u q)

/-! ## The first output array -/

/-- What point t writes back of the first output is block t of the layer. -/
theorem flushed5_eq (c : Dev nD) (t : Fin cfg0.N) :
    (dat0 V c).flushed 5 t
      = ((cfg0.win 5).blk t).view.read (Elt Ideal) (asArr S100000x32 fun j => layer V c (j 0) (j 1)) := by
  obtain ⟨-, -, -, -, -, -, -, -, -, -, e0, e1, -⟩ := idx_facts0 t
  show (cfg0.win 5).cut (grid0.coords t) ((dat0 V c).after 5 t) = _
  rw [after0_5, out5_eq V c t]
  funext y
  obtain ⟨p, q, rfl⟩ : ∃ (p : Fin 5000) (q : Fin 32), y = ix2 p q := ⟨y 0, y 1, eq_ix2 y⟩
  rw [View.read_apply]
  show k0_pay2 (F := Ideal) (iblk0 V c 0 t) (iblk0 V c 1 t) (iblk0 V c 2 t) (iblk0 V c 3 t) (iblk0 V c 4 t) (ix2 p q)
    = layer V c ((((cfg0.win 5).blk t).view.emb (ix2 p q)) 0) ((((cfg0.win 5).blk t).view.emb (ix2 p q)) 1)
  have hq : (((cfg0.win 5).blk t).view.emb (ix2 p q)) 1 = q :=
    Fin.ext (by show win0_5.index t (1 : Fin 2) * 32 + 1 * q.val = q.val; omega)
  refine (pay2_blk V c t p q ((((cfg0.win 5).blk t).view.emb (ix2 p q)) 0)
    (by show win0_5.index t (0 : Fin 2) * 5000 + 1 * p.val = 5000 * t.val + p.val; omega)).trans ?_
  exact congrArg (layer V c _) hq.symm

/-- The first output array after the first computation: the linear layer, entry by entry. -/
theorem region0_agg (c : Dev nD) :
    (dat0 V c).arrAt 5 cfg0.N = fun j : S100000x32.Idx => layer V c (j 0) (j 1) := by
  have hN : cfg0.N = 20 := N_0
  refine (dat0 V c).arrAt_eq_of_cover 5 (asArr S100000x32 fun j => layer V c (j 0) (j 1))
    (fun t _ => flushed5_eq V c t) fun i => ?_
  have hi0 : (i 0).val < 100000 := (i 0).isLt
  have hi1 : (i 1).val < 32 := (i 1).isLt
  obtain ⟨t, ht⟩ : ∃ t : Fin cfg0.N, t.val = (i 0).val / 5000 := ⟨⟨(i 0).val / 5000, by rw [hN]; omega⟩, rfl⟩
  obtain ⟨-, -, -, -, -, -, -, -, -, -, e0, e1, -⟩ := idx_facts0 t
  refine ⟨t, flush0_5 t, ?_⟩
  show i ∈ ((View.whole main_v43_0).slice (win0_5.rect t)).set
  rw [View.set_slice_whole, Rect.mem_set_unit]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 32 ≤ (i 1).val ∧ (i 1).val < win0_5.index t (1 : Fin 2) * 32 + 32
    omega

/-! ## The second output array -/

/-- Column q's sum of the layer over all 100000 rows. -/
def colsum (c : Dev nD) (q : Fin 32) : EReal := ∑ i : Fin 100000, layer V c i q

/-- The twenty blocks' sums add up to the sum over all 100000 rows. -/
theorem total_eq (c : Dev nD) (q : Fin 32) :
    ∑ k ∈ Finset.range (19 + 1), ∑ p : Fin 5000, rowf V c q (k * 5000 + p.val) = colsum V c q := by
  unfold colsum
  rw [Cert.Sums.sum_tiles (19 + 1) 5000 (rowf V c q), Finset.sum_range]
  show ∑ i : Fin 100000, rowf V c q i.val = _
  exact Finset.sum_congr rfl fun i _ => dif_pos i.isLt

/-- The running row's one block is the whole one-row array: any row read through it at (u, q) is the row at (0, q). -/
theorem read_row_blk (c : Dev nD) (t : Fin cfg0.N) (G : S1x32.Idx → EReal) (u : Fin 1) (q : Fin 32) :
    ((cfg0.win 6).blk t).view.read (Elt Ideal) G (ix2 u q) = G (ix2 (0 : Fin 1) q) := by
  obtain ⟨-, -, -, -, -, -, -, -, -, -, -, -, e0, e1⟩ := idx_facts0 t
  rw [View.read_apply]
  refine congrArg G (funext fun a => Fin.ext ?_)
  match a with
  | ⟨0, _⟩ =>
    show win0_6.index t (0 : Fin 2) * 1 + 1 * u.val = 0
    have := u.isLt; omega
  | ⟨1, _⟩ => show win0_6.index t (1 : Fin 2) * 32 + 1 * q.val = q.val; omega

/-- The one write-back of the running row, after the last point, is the row of the layer's column sums. -/
theorem flushed6_eq (c : Dev nD) (t : Fin cfg0.N) (hf : (cfg0.win 6).flush t = true) :
    (dat0 V c).flushed 6 t
      = ((cfg0.win 6).blk t).view.read (Elt Ideal) (asArr S1x32 fun j => colsum V c (j 1)) := by
  have hN : cfg0.N = 20 := N_0
  have h19 : t.val = 19 := by have := (flush0_6 t).mp hf; have := t.isLt; omega
  show (cfg0.win 6).cut (grid0.coords t) ((dat0 V c).after 6 t) = _
  rw [after0_6]
  funext y
  obtain ⟨u, q, rfl⟩ : ∃ (u : Fin 1) (q : Fin 32), y = ix2 u q := ⟨y 0, y 1, eq_ix2 y⟩
  have htot : ∑ k ∈ Finset.range (t.val + 1), ∑ p : Fin 5000, rowf V c q (k * 5000 + p.val) = colsum V c q := by
    rw [h19]; exact total_eq V c q
  have hG : (asArr S1x32 fun j => colsum V c (j 1)) (ix2 (0 : Fin 1) q) = colsum V c q := rfl
  refine Eq.trans ?_ (read_row_blk c t (asArr S1x32 fun j => colsum V c (j 1)) u q).symm
  show (outsAt0 V c t.val t.isLt).2 (ix2 u q) = _
  exact (acc_eq V c t.val t.isLt u q).trans (htot.trans hG.symm)

/-- The second output array after the first computation: each column's sum over all 100000 rows of the layer. -/
theorem region0_sum (c : Dev nD) :
    (dat0 V c).arrAt 6 cfg0.N = fun j : S1x32.Idx => ∑ i : Fin 100000, layer V c i (j 1) := by
  have hN : cfg0.N = 20 := N_0
  refine (dat0 V c).arrAt_eq_of_cover 6 (asArr S1x32 fun j => colsum V c (j 1))
    (flushed6_eq V c) fun i => ?_
  have hi0 : (i 0).val < 1 := (i 0).isLt
  have hi1 : (i 1).val < 32 := (i 1).isLt
  obtain ⟨t, ht⟩ : ∃ t : Fin cfg0.N, t.val = 19 := ⟨⟨19, by rw [hN]; omega⟩, rfl⟩
  obtain ⟨-, -, -, -, -, -, -, -, -, -, -, -, e0, e1⟩ := idx_facts0 t
  refine ⟨t, (flush0_6 t).mpr (by rw [ht]), ?_⟩
  show i ∈ ((View.whole main_v43_1).slice (win0_6.rect t)).set
  rw [View.set_slice_whole, Rect.mem_set_unit]
  intro a
  match a with
  | ⟨0, _⟩ =>
    show win0_6.index t (0 : Fin 2) * 1 ≤ (i 0).val ∧ (i 0).val < win0_6.index t (0 : Fin 2) * 1 + 1
    omega
  | ⟨1, _⟩ =>
    show win0_6.index t (1 : Fin 2) * 32 ≤ (i 1).val ∧ (i 1).val < win0_6.index t (1 : Fin 2) * 32 + 32
    omega

end Cert.KernelIdeal.Regions

end
-- ==== Proof.Region2.lean ====
/-
  The third grid computation (5 blocks of 5000 rows, every block independent): its output array as a function of its inputs.
-/
import proofs.«166766_j89163521065197_2_alg».proof.Proof.RegionDefs
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Idealize.ShloMosaic Idealize.ShloMosaic.ValueIdx Idealize.ShloMosaic.TcCoe Cert.KernelIdeal Cert.KernelIdeal.Gen
open scoped BigOperators

variable (V : (c : Dev nD) → (b : Ref sig .tc) → Buf (Elt Ideal) ((c : Thread nD τ).loc b))

namespace Normalize

/-- The one-entry array broadcast over a 5000 by 128 block reads its one entry everywhere. -/
theorem broadcastTo_11_apply (v : S1x1.Idx → EReal) (h : S1x1.Broadcasts S5000x128) (p : Fin 5000) (q : Fin 128) :
    broadcastTo S5000x128 v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The body's arithmetic at row p, lane q of a block: the entry centred, scaled twice, shifted, then rectified with the slope. -/
theorem pay_apply (v0 : Vec Ideal S5000x128 .f32) (v2 v6 v10 v14 : Vec Ideal S1x128 .f32) (v18 : Vec Ideal S1x1 .f32)
    (p : Fin 5000) (q : Fin 128) :
    k2_pay1 v0 v2 v6 v10 v14 v18 (ix2 p q)
      = Cert.Spec.act (v18 (ix2 (0 : Fin 1) (0 : Fin 1)))
          ((((v0 (ix2 p q) - v2 (ix2 (0 : Fin 1) q)) * v6 (ix2 (0 : Fin 1) q)) * v10 (ix2 (0 : Fin 1) q)) + v14 (ix2 (0 : Fin 1) q)) := by
  unfold k2_pay1
  simp only [shapeCast_self]
  rw [select_apply, cmpf_apply, mulf_apply, addf_apply, mulf_apply, mulf_apply, subf_apply, broadcast_apply,
    broadcastTo_11_apply]
  rw [broadcastTo_1b_ab_apply (a := 5000) (b := 128) v2, broadcastTo_1b_ab_apply (a := 5000) (b := 128) v6,
    broadcastTo_1b_ab_apply (a := 5000) (b := 128) v10, broadcastTo_1b_ab_apply (a := 5000) (b := 128) v14]
  rfl

/-- The zero offsets of a whole-block load or store, as a function. -/
theorem zero_off : (![0, 0] : Fin 2 → Nat) = fun _ => 0 := funext fun a => by fin_cases a <;> rfl

/-- The body's arithmetic at an index of a block, from what its six operands hold at the places it reads. -/
theorem pay_at (x0 : Vec Ideal S5000x128 .f32) (x1 x2 x3 x4 : Vec Ideal S1x128 .f32) (x5 : Vec Ideal S1x1 .f32)
    (j : S5000x128.Idx) (a0 a1 a2 a3 a4 a5 : EReal)
    (h0 : x0 j = a0) (h1 : x1 (ix2 (0 : Fin 1) (j 1)) = a1) (h2 : x2 (ix2 (0 : Fin 1) (j 1)) = a2)
    (h3 : x3 (ix2 (0 : Fin 1) (j 1)) = a3) (h4 : x4 (ix2 (0 : Fin 1) (j 1)) = a4)
    (h5 : x5 (ix2 (0 : Fin 1) (0 : Fin 1)) = a5) :
    k2_pay1 x0 x1 x2 x3 x4 x5 j = Cert.Spec.act a5 ((((a0 - a1) * a2) * a3) + a4) := by
  subst h0 h1 h2 h3 h4 h5
  obtain ⟨p, q, rfl⟩ : ∃ (p : Fin 5000) (q : Fin 128), j = ix2 p q := ⟨j 0, j 1, eq_ix2 j⟩
  exact pay_apply x0 x1 x2 x3 x4 x5 p q

/-- The printed block index maps over the five points: the row block of the input and of the output is the point's
    number, every other block index is 0. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- What point t writes back is block t of the normalised array. -/
theorem flushed_eq (c : Dev nD) (t : Fin cfg2.N) :
    (dat2 V c).flushed 6 t
      = ((cfg2.win 6).blk t).view.read (Elt Ideal) (fun j : S25000x128.Idx => normed V c (j 0) (j 1)) := by
  show (cfg2.win 6).cut (grid2.coords t) ((dat2 V c).after 6 t) = _
  rw [after2_6]
  unfold out2_6
  rw [View.canon_unit_zero zero_off]
  simp only [View.ld_unit_zero (S := S5000x128) zero_off, View.ld_unit_zero (S := S1x128) zero_off,
    View.ld_unit_zero (S := S1x1) zero_off]
  obtain ⟨e00, e01, e10, e11, e20, e21, e30, e31, e40, e41, e50, e51, e60, e61⟩ := idx_facts t
  funext j
  show k2_pay1 (iblk2 V c 0 t) (iblk2 V c 1 t) (iblk2 V c 2 t) (iblk2 V c 3 t) (iblk2 V c 4 t) (iblk2 V c 5 t)
      ((cfg2.win 6).xinj (grid2.coords t) j)
    = normed V c ((((cfg2.win 6).blk t).view.emb j) 0) ((((cfg2.win 6).blk t).view.emb j) 1)
  unfold normed
  refine pay_at _ _ _ _ _ _ _ _ _ _ _ _ _ ?_ ?_ ?_ ?_ ?_ ?_
  · show V c main_v49 (((cfg2.win 0).blk t).view.emb ((cfg2.win 6).xinj (grid2.coords t) j)) = V c main_v49 _
    refine congrArg (V c main_v49) (funext fun a => Fin.ext ?_)
    match a with
    | ⟨0, _⟩ => show win2_0.index t (0 : Fin 2) * 5000 + 1 * (j 0).val = win2_6.index t (0 : Fin 2) * 5000 + 1 * (j 0).val; omega
    | ⟨1, _⟩ => show win2_0.index t (1 : Fin 2) * 128 + 1 * (j 1).val = win2_6.index t (1 : Fin 2) * 128 + 1 * (j 1).val; omega
  · show V c main_v48 (((cfg2.win 1).blk t).view.emb (ix2 (0 : Fin 1) (((cfg2.win 6).xinj (grid2.coords t) j) 1))) = V c main_v48 _
    refine congrArg (V c main_v48) (funext fun a => Fin.ext ?_)
    match a with
    | ⟨0, _⟩ => show win2_1.index t (0 : Fin 2) * 1 + 1 * 0 = 0; omega
    | ⟨1, _⟩ => show win2_1.index t (1 : Fin 2) * 128 + 1 * (j 1).val = win2_6.index t (1 : Fin 2) * 128 + 1 * (j 1).val; omega
  · show V c main_v60 (((cfg2.win 2).blk t).view.emb (ix2 (0 : Fin 1) (((cfg2.win 6).xinj (grid2.coords t) j) 1))) = V c main_v60 _
    refine congrArg (V c main_v60) (funext fun a => Fin.ext ?_)
    match a with
    | ⟨0, _⟩ => show win2_2.index t (0 : Fin 2) * 1 + 1 * 0 = 0; omega
    | ⟨1, _⟩ => show win2_2.index t (1 : Fin 2) * 128 + 1 * (j 1).val = win2_6.index t (1 : Fin 2) * 128 + 1 * (j 1).val; omega
  · show V c main_v64 (((cfg2.win 3).blk t).view.emb (ix2 (0 : Fin 1) (((cfg2.win 6).xinj (grid2.coords t) j) 1))) = V c main_v64 _
    refine congrArg (V c main_v64) (funext fun a => Fin.ext ?_)
    match a with
    | ⟨0, _⟩ => show win2_3.index t (0 : Fin 2) * 1 + 1 * 0 = 0; omega
    | ⟨1, _⟩ => show win2_3.index t (1 : Fin 2) * 128 + 1 * (j 1).val = win2_6.index t (1 : Fin 2) * 128 + 1 * (j 1).val; omega
  · show V c main_v68 (((cfg2.win 4).blk t).view.emb (ix2 (0 : Fin 1) (((cfg2.win 6).xinj (grid2.coords t) j) 1))) = V c main_v68 _
    refine congrArg (V c main_v68) (funext fun a => Fin.ext ?_)
    match a with
    | ⟨0, _⟩ => show win2_4.index t (0 : Fin 2) * 1 + 1 * 0 = 0; omega
    | ⟨1, _⟩ => show win2_4.index t (1 : Fin 2) * 128 + 1 * (j 1).val = win2_6.index t (1 : Fin 2) * 128 + 1 * (j 1).val; omega
  · show V c main_v69 (((cfg2.win 5).blk t).view.emb (ix2 (0 : Fin 1) (0 : Fin 1))) = V c main_v69 _
    refine congrArg (V c main_v69) (funext fun a => Fin.ext ?_)
    match a with
    | ⟨0, _⟩ => show win2_5.index t (0 : Fin 2) * 1 + 1 * 0 = 0; omega
    | ⟨1, _⟩ => show win2_5.index t (1 : Fin 2) * 1 + 1 * 0 = 0; omega

/-- An index of the array is in point t's block iff each coordinate is in the block's range on its axis. -/
theorem mem_blk (t : Fin cfg2.N) (i : S25000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v70).slice (win2_6.rect t)).set ↔ _
  rw [View.set_slice_whole, Rect.mem_set_unit]
  exact Iff.rfl

/-- Every entry of the array is written back: row r lies in the block of point r / 5000. -/
theorem cover (i : S25000x128.Idx) :
    ∃ t : Fin cfg2.N, (cfg2.win 6).flush t = true ∧ i ∈ ((cfg2.win 6).blk t).view.set := by
  have hi0 : (i 0).val < 25000 := (i 0).isLt
  have hi1 : (i 1).val < 128 := (i 1).isLt
  obtain ⟨t, ht⟩ : ∃ t : Fin cfg2.N, t.val = (i 0).val / 5000 :=
    ⟨⟨(i 0).val / 5000, by show _ < grid2.N; rw [N_2]; omega⟩, rfl⟩
  obtain ⟨-, -, -, -, -, -, -, -, -, -, -, -, e60, e61⟩ := idx_facts t
  refine ⟨t, flush2_6 t, ?_⟩
  rw [mem_blk]
  intro a
  match a with
  | ⟨0, _⟩ =>
    show win2_6.index t (0 : Fin 2) * 5000 ≤ (i 0).val ∧ (i 0).val < win2_6.index t (0 : Fin 2) * 5000 + 5000
    omega
  | ⟨1, _⟩ =>
    show win2_6.index t (1 : Fin 2) * 128 ≤ (i 1).val ∧ (i 1).val < win2_6.index t (1 : Fin 2) * 128 + 128
    omega

end Normalize

/-- The output array after the third computation, entry by entry. -/
theorem region2_out (c : Dev nD) :
    (dat2 V c).arrAt 6 cfg2.N = fun j : S25000x128.Idx => normed V c (j 0) (j 1) :=
  (dat2 V c).arrAt_eq_of_cover 6 (fun j : S25000x128.Idx => normed V c (j 0) (j 1))
    (fun t _ => Normalize.flushed_eq V c t) Normalize.cover

end Cert.KernelIdeal.Regions

end
-- ==== Proof.RefValue.lean ====
/-
  The reference program read at an index: the features times W, the 32-channel messages and their aggregate with the
  self loop and the bias (the layer), and then, as one function of the layer's entries, the column statistics over the
  nodes, the normalisation, the scale and shift, and the one-slope leaky rectifier.
-/
import proofs.«166766_j89163521065197_2_alg».proof.Proof.RefRead
import proofs.«166766_j89163521065197_2_alg».proof.Proof.Spec
import proofs.«166766_j89163521065197_2_alg».proof.Proof.LibIndexOps
import proofs.«166766_j89163521065197_2_alg».proof.Proof.RefEdges

noncomputable section

namespace Cert.RefValue

open Cert.ReferenceIdeal Cert.ReferenceIdeal.ReadP Idealize.ShloMosaic Idealize.ShloMosaic.ValueIdx
open scoped BigOperators

variable (x0 : (⟨2, ![100000, 3]⟩ : Shape).Idx → EReal) (x1 : (⟨2, ![2, 1600000]⟩ : Shape).Idx → BitVec 32)
  (x2 : (⟨2, ![3, 32]⟩ : Shape).Idx → EReal) (x3 x4 x5 : (⟨1, ![32]⟩ : Shape).Idx → EReal)
  (x6 : (⟨1, ![1]⟩ : Shape).Idx → EReal)

/-! ## The features times W -/

theorem v11_apply (j : Fin 100000) (q : Fin 32) :
    val_main_v11 (F := Ideal) x0 x2 (ix2 j q)
      = Cert.Spec.hmat (fun i c => x0 (ix2 i c)) (fun c q => x2 (ix2 c q)) j q := by
  rw [val_main_v11_apply]
  unfold Cert.Spec.hmat
  refine Finset.sum_congr rfl fun c _ => ?_
  have hl : lidx_main_v11 (ix2 j q) c = ix2 j c := funext fun a => by
    match a with
    | ⟨0, _⟩ => rfl
    | ⟨1, _⟩ => rfl
  have hr : ridx_main_v11 (ix2 j q) c = ix2 c q := funext fun a => by
    match a with
    | ⟨0, _⟩ => rfl
    | ⟨1, _⟩ => rfl
  rw [hl, hr]

/-! ## The messages and their aggregate: the layer -/

/-- The list of positions the rows are picked by: the wrapped row 0 of the edge list as a column. -/
theorem v32_apply (e : Fin 1600000) :
    val_main_v32 (F := Ideal) x1 (ix2 e (0 : Fin 1)) = Cert.Edges.wrap (Cert.Edges.src x1 e) := by
  rw [val_main_v32_apply, ← Cert.RefEdges.v31_apply]
  refine congrArg (val_main_v31 (F := Ideal) x1) (funext fun a => ?_)
  match a with
  | ⟨0, _⟩ => rfl

/-- The picked rows of the features times W. -/
theorem v33_apply (e : Fin 1600000) (q : Fin 32) :
    val_main_v33 (F := Ideal) x0 x1 x2 (ix2 e q)
      = Cert.Spec.hmat (fun i c => x0 (ix2 i c)) (fun c q => x2 (ix2 c q)) (Cert.Edges.sp x1 e) q := by
  unfold val_main_v33
  show Host.gather (Cert.LibIndexOps.rowsGather 100000 1600000 32 Facts₀.gather_S100000x32_S1600000x1_S1600000x32_1_0_n_n_0_1_132_wf) _ _ _ = _
  rw [Cert.LibIndexOps.gather_rows_apply (by decide), ← v11_apply]
  refine congrArg (fun j : Fin 100000 => val_main_v11 (F := Ideal) x0 x2 (ix2 j q)) (Fin.ext ?_)
  show min (val_main_v32 (F := Ideal) x1 (ix2 e (0 : Fin 1))).toInt.toNat (100000 - 1) = _
  rw [v32_apply]
  rfl

/-- The per-edge weight, broadcast along the channels. -/
theorem v35_apply (e : Fin 1600000) (q : Fin 32) :
    val_main_v35 (F := Ideal) x1 (ix2 e q) = Cert.Edges.nrm x1 e := by
  rw [val_main_v35_apply, val_main_v34_apply, ← Cert.RefEdges.v26_apply]
  refine congrArg (val_main_v26 (F := Ideal) x1) (funext fun a => ?_)
  match a with
  | ⟨0, _⟩ => rfl

/-- The message of edge e at channel q. -/
theorem v36_apply (e : Fin 1600000) (q : Fin 32) :
    val_main_v36 (F := Ideal) x0 x1 x2 (ix2 e q)
      = Cert.Spec.hmat (fun i c => x0 (ix2 i c)) (fun c q => x2 (ix2 c q)) (Cert.Edges.sp x1 e) q * Cert.Edges.nrm x1 e := by
  rw [val_main_v36_apply, v33_apply, v35_apply, Ideal.mulf_def]

/-- The list of positions the messages are accumulated by: row 1 of the edge list as a column. -/
theorem v38_apply (e : Fin 1600000) :
    val_main_v38 (F := Ideal) x1 (ix2 e (0 : Fin 1)) = Cert.Edges.dst x1 e := by
  rw [val_main_v38_apply, ← Cert.RefEdges.v3_apply]
  refine congrArg (val_main_v3 (F := Ideal) x1) (funext fun a => ?_)
  match a with
  | ⟨0, _⟩ => rfl

/-- The aggregate: from zero, the messages of the edges whose signed number is node i. -/
theorem v39_apply (i : Fin 100000) (q : Fin 32) :
    val_main_v39 (F := Ideal) x0 x1 x2 (ix2 i q)
      = Cert.Spec.zeroW + ∑ e : Fin 1600000, if Cert.Edges.dl x1 e = (i.val : Int)
          then Cert.Spec.hmat (fun i c => x0 (ix2 i c)) (fun c q => x2 (ix2 c q)) (Cert.Edges.sp x1 e) q * Cert.Edges.nrm x1 e
          else 0 := by
  unfold val_main_v39
  show Host.scatterAdd (Cert.LibIndexOps.rowsScatter 100000 1600000 32 Facts₀.scatter_S100000x32_S1600000x1_S1600000x32_1_0_0_1_wf) _ _ _ _ = _
  rw [Cert.LibIndexOps.scatterAdd_rows_apply]
  refine congrArg₂ (· + ·) ?_ (Finset.sum_congr rfl fun e _ => ?_)
  · rw [val_main_v37_apply]; rfl
  · rw [v38_apply, v36_apply]
    rfl

/-- 1/deg, broadcast along the channels. -/
theorem v43_apply (i : Fin 100000) (q : Fin 32) :
    val_main_v43 (F := Ideal) x1 (ix2 i q) = Cert.Edges.invdeg x1 i := by
  rw [val_main_v43_apply, val_main_v42_apply, ← Cert.RefEdges.v41_apply]
  refine congrArg (val_main_v41 (F := Ideal) x1) (funext fun a => ?_)
  match a with
  | ⟨0, _⟩ => rfl

/-- The bias, broadcast over the nodes. -/
theorem v47_apply (i : Fin 100000) (q : Fin 32) : val_main_v47 (F := Ideal) x3 (ix2 i q) = x3 (ix1 q) := by
  rw [val_main_v47_apply, val_main_v46_apply]
  refine congrArg x3 (funext fun a => ?_)
  match a with
  | ⟨0, _⟩ => rfl

/-- The layer: the aggregate, the self loop, the bias. -/
theorem v48_apply (i : Fin 100000) (q : Fin 32) :
    val_main_v48 (F := Ideal) x0 x1 x2 x3 (ix2 i q)
      = Cert.Spec.aggR (Cert.Edges.sp x1) (Cert.Edges.dl x1) (Cert.Edges.nrm x1) (Cert.Edges.invdeg x1)
          (fun i c => x0 (ix2 i c)) (fun c q => x2 (ix2 c q)) (fun q => x3 (ix1 q)) i q := by
  rw [val_main_v48_apply, val_main_v45_apply, val_main_v44_apply, v39_apply, v11_apply, v43_apply, v47_apply,
    Ideal.mulf_def, Ideal.addf_def, Ideal.addf_def]
  rfl

/-! ## After the layer: everything below is one function of the layer's entries

  The layer is carried as the matrix `lay` of its entries and is never opened here. -/

/-- The layer's entries. -/
def lay : Fin 100000 → Fin 32 → EReal := fun i q => val_main_v48 (F := Ideal) x0 x1 x2 x3 (ix2 i q)

theorem lay_def (i : Fin 100000) (q : Fin 32) :
    val_main_v48 (F := Ideal) x0 x1 x2 x3 (ix2 i q) = lay x0 x1 x2 x3 i q := rfl

/-- A row [32] broadcast to [1, 32] and then to [100000, 32], read at (i, q), is read at q. -/
theorem row_idx (i : Fin 100000) (q : Fin 32) :
    idx_main_v52 (idx_main_v53 (ix2 i q)) = ix1 q := funext fun a => by
  match a with
  | ⟨0, _⟩ => rfl

/-- The column sums of the layer: the accumulation starts from the zero word, which is 0. -/
theorem v49_apply (q : Fin 32) :
    val_main_v49 (F := Ideal) x0 x1 x2 x3 (ix1 q) = ∑ k : Fin 100000, lay x0 x1 x2 x3 k q := by
  rw [val_main_v49_apply]
  have h0 : ∀ j, val_main_cst_9 (F := Ideal) j = 0 := fun _ => Ideal.ofBits_zero_f32
  rw [h0, zero_add]
  refine Finset.sum_congr rfl fun k _ => ?_
  have hk : idx_main_v49 (ix1 q) k = ix2 k q := funext fun a => by
    match a with
    | ⟨0, _⟩ => rfl
    | ⟨1, _⟩ => rfl
  rw [hk]
  rfl

/-- The column means. -/
theorem v51_apply (q : Fin 32) :
    val_main_v51 (F := Ideal) x0 x1 x2 x3 (ix1 q) = Cert.Spec.mean (lay x0 x1 x2 x3) q := by
  rw [val_main_v51_apply, v49_apply, val_main_v50_apply]
  rfl

/-- The mean, broadcast over the nodes (the copy the squared deviations use). -/
theorem v53_apply (i : Fin 100000) (q : Fin 32) :
    val_main_v53 (F := Ideal) x0 x1 x2 x3 (ix2 i q) = Cert.Spec.mean (lay x0 x1 x2 x3) q := by
  rw [val_main_v53_apply, val_main_v52_apply, row_idx, v51_apply]

/-- The mean, broadcast over the nodes (the copy the normalisation uses). -/
theorem v60_apply (i : Fin 100000) (q : Fin 32) :
    val_main_v60 (F := Ideal) x0 x1 x2 x3 (ix2 i q) = Cert.Spec.mean (lay x0 x1 x2 x3) q := by
  rw [val_main_v60_apply, val_main_v59_apply]
  have h : idx_main_v59 (idx_main_v60 (ix2 i q)) = ix1 q := row_idx i q
  rw [h, v51_apply]

/-- The deviation from the column mean. -/
theorem v54_apply (i : Fin 100000) (q : Fin 32) :
    val_main_v54 (F := Ideal) x0 x1 x2 x3 (ix2 i q)
      = lay x0 x1 x2 x3 i q - Cert.Spec.mean (lay x0 x1 x2 x3) q := by
  rw [val_main_v54_apply, v53_apply, lay_def, Ideal.subf_def]

theorem v55_apply (i : Fin 100000) (q : Fin 32) :
    val_main_v55 (F := Ideal) x0 x1 x2 x3 (ix2 i q)
      = (lay x0 x1 x2 x3 i q - Cert.Spec.mean (lay x0 x1 x2 x3) q)
        * (lay x0 x1 x2 x3 i q - Cert.Spec.mean (lay x0 x1 x2 x3) q) := by
  rw [val_main_v55_apply, v54_apply, Ideal.mulf_def]

/-- The column sums of the squared deviations. -/
theorem v56_apply (q : Fin 32) :
    val_main_v56 (F := Ideal) x0 x1 x2 x3 (ix1 q)
      = Cert.Spec.sqdev (lay x0 x1 x2 x3) (Cert.Spec.mean (lay x0 x1 x2 x3)) q := by
  rw [val_main_v56_apply]
  have h0 : ∀ j, val_main_cst_11 (F := Ideal) j = 0 := fun _ => Ideal.ofBits_zero_f32
  rw [h0, zero_add]
  unfold Cert.Spec.sqdev
  refine Finset.sum_congr rfl fun k _ => ?_
  have hk : idx_main_v56 (ix1 q) k = ix2 k q := funext fun a => by
    match a with
    | ⟨0, _⟩ => rfl
    | ⟨1, _⟩ => rfl
  rw [hk, v55_apply]

/-- One over the square root of the (biased) variance plus the small word. -/
theorem v64_apply (q : Fin 32) :
    val_main_v64 (F := Ideal) x0 x1 x2 x3 (ix1 q) = Cert.Spec.invstd (lay x0 x1 x2 x3) q := by
  rw [val_main_v64_apply, val_main_v63_apply, val_main_v58_apply, v56_apply, val_main_v57_apply, val_main_v62_apply,
    Ideal.hostUnary_rsqrt_def, Ideal.hostDivf_def, Ideal.addf_def]
  rfl

theorem v66_apply (i : Fin 100000) (q : Fin 32) :
    val_main_v66 (F := Ideal) x0 x1 x2 x3 (ix2 i q) = Cert.Spec.invstd (lay x0 x1 x2 x3) q := by
  rw [val_main_v66_apply, val_main_v65_apply]
  have h : idx_main_v65 (idx_main_v66 (ix2 i q)) = ix1 q := row_idx i q
  rw [h, v64_apply]

theorem v61_apply (i : Fin 100000) (q : Fin 32) :
    val_main_v61 (F := Ideal) x0 x1 x2 x3 (ix2 i q)
      = lay x0 x1 x2 x3 i q - Cert.Spec.mean (lay x0 x1 x2 x3) q := by
  rw [val_main_v61_apply, v60_apply, lay_def, Ideal.subf_def]

/-- A vector [32] broadcast over the nodes, read at (i, q), is read at q. -/
theorem v69_apply (i : Fin 100000) (q : Fin 32) : val_main_v69 (F := Ideal) x4 (ix2 i q) = x4 (ix1 q) := by
  rw [val_main_v69_apply, val_main_v68_apply]
  exact congrArg x4 (row_idx i q)

theorem v72_apply (i : Fin 100000) (q : Fin 32) : val_main_v72 (F := Ideal) x5 (ix2 i q) = x5 (ix1 q) := by
  rw [val_main_v72_apply, val_main_v71_apply]
  exact congrArg x5 (row_idx i q)

/-- The normalised, scaled and shifted entry. -/
theorem v73_apply (i : Fin 100000) (q : Fin 32) :
    val_main_v73 (F := Ideal) x0 x1 x2 x3 x4 x5 (ix2 i q)
      = ((lay x0 x1 x2 x3 i q - Cert.Spec.mean (lay x0 x1 x2 x3) q) * Cert.Spec.invstd (lay x0 x1 x2 x3) q)
          * x4 (ix1 q) + x5 (ix1 q) := by
  rw [val_main_v73_apply, val_main_v70_apply, val_main_v67_apply, v61_apply, v66_apply, v69_apply, v72_apply,
    Ideal.mulf_def, Ideal.mulf_def, Ideal.addf_def]

/-- The slope: the one entry of the [1] array, through the reshape to rank 0 and the broadcast over the nodes. -/
theorem v77_apply (i : Fin 100000) (q : Fin 32) :
    val_main_v77 (F := Ideal) x6 (ix2 i q) = x6 (ix1 (0 : Fin 1)) := by
  rw [val_main_v77_apply]
  unfold val_main_v76
  refine shapeCast_apply x6 Facts₀.shapeCasts_S1_S_ _ (ix1 (0 : Fin 1)) ?_
  rw [Shape.rowMajor_val_one]
  have h2 : (S_.rowMajor (idx_main_v77 (ix2 i q))).val < 1 :=
    lt_of_lt_of_eq (S_.rowMajor _).isLt (Shape.numel_eq_one (s := S_) (fun a => a.elim0))
  show 0 = _
  omega

/-- Everything after the layer, as one function of the layer's entries. -/
theorem v79_apply (i : Fin 100000) (q : Fin 32) :
    val_main_v79 (F := Ideal) x0 x1 x2 x3 x4 x5 x6 (ix2 i q)
      = Cert.Spec.out (lay x0 x1 x2 x3) (fun q => x4 (ix1 q)) (fun q => x5 (ix1 q)) (x6 (ix1 (0 : Fin 1))) i q := by
  rw [val_main_v79_apply, val_main_v75_apply, val_main_v78_apply, v73_apply, v77_apply, val_main_v74_apply]
  unfold Cert.Spec.out Cert.Spec.act
  rfl

/-! ## The layer, and the whole reference program, at an index -/

/-- The layer of the reference program at (i, q). -/
theorem ref_layer (x0 : (⟨2, ![100000, 3]⟩ : Shape).Idx → EReal) (x1 : (⟨2, ![2, 1600000]⟩ : Shape).Idx → BitVec 32)
    (x2 : (⟨2, ![3, 32]⟩ : Shape).Idx → EReal) (x3 : (⟨1, ![32]⟩ : Shape).Idx → EReal) (i : Fin 100000) (q : Fin 32) :
    Cert.ReferenceIdeal.ReadP.val_main_v48 (F := Ideal) x0 x1 x2 x3 (ix2 i q)
      = Cert.Spec.aggR (Cert.Edges.sp x1) (Cert.Edges.dl x1) (Cert.Edges.nrm x1) (Cert.Edges.invdeg x1)
          (fun i c => x0 (ix2 i c)) (fun c q => x2 (ix2 c q)) (fun q => x3 (ix1 q)) i q :=
  v48_apply x0 x1 x2 x3 i q

theorem lay_eq :
    lay x0 x1 x2 x3
      = Cert.Spec.aggR (Cert.Edges.sp x1) (Cert.Edges.dl x1) (Cert.Edges.nrm x1) (Cert.Edges.invdeg x1)
          (fun i c => x0 (ix2 i c)) (fun c q => x2 (ix2 c q)) (fun q => x3 (ix1 q)) :=
  funext fun i => funext fun q => v48_apply x0 x1 x2 x3 i q

/-- The reference program's result at (i, q). -/
theorem ref_value (x0 : (⟨2, ![100000, 3]⟩ : Shape).Idx → EReal) (x1 : (⟨2, ![2, 1600000]⟩ : Shape).Idx → BitVec 32)
    (x2 : (⟨2, ![3, 32]⟩ : Shape).Idx → EReal) (x3 x4 x5 : (⟨1, ![32]⟩ : Shape).Idx → EReal)
    (x6 : (⟨1, ![1]⟩ : Shape).Idx → EReal) (i : Fin 100000) (q : Fin 32) :
    Cert.ReferenceIdeal.ReadP.val_main_v79 (F := Ideal) x0 x1 x2 x3 x4 x5 x6 (ix2 i q)
      = Cert.Spec.out
          (Cert.Spec.aggR (Cert.Edges.sp x1) (Cert.Edges.dl x1) (Cert.Edges.nrm x1) (Cert.Edges.invdeg x1)
            (fun i c => x0 (ix2 i c)) (fun c q => x2 (ix2 c q)) (fun q => x3 (ix1 q)))
          (fun q => x4 (ix1 q)) (fun q => x5 (ix1 q)) (x6 (ix1 (0 : Fin 1))) i q := by
  rw [v79_apply, lay_eq]

end Cert.RefValue

end
-- ==== Proof.LibRealEntry.lean ====
/-
  The entry fact behind a "every input is finite" precondition, at the ideal values: the precondition compares each
  entry's absolute value with the float word of +infinity by "less than"; an extended real that passes is a real
  number. Independent of any program: use it on each entry after the precondition's conjunction and its
  all-reductions have been opened.
-/
import Idealize.ShloMosaic.PureOps.Ideal

noncomputable section

namespace Cert.LibRealEntry

open Idealize.ShloMosaic

/-- The f32 word 0x7F800000 denotes +infinity. -/
theorem inf_word : Ideal.ofBits .f32 0x7F800000#32 = (⊤ : EReal) := by
  simp [Ideal.ofBits, Ideal.ieee]

/-- An extended real whose absolute value `max x (-x)` compares below the word of +infinity is a real number:
    the absolute value of either infinity is +infinity. -/
theorem real_of_abs_lt_inf (x : EReal)
    (h : Ideal.cmp .olt (max x (-x)) (Ideal.ofBits .f32 0x7F800000#32) = 1#1) : ∃ r : ℝ, x = r := by
  rw [inf_word] at h
  have h' : max x (-x) < ⊤ := by
    by_contra hn
    simp [Ideal.cmp, hn] at h
  induction x using EReal.rec with
  | bot => simp at h'
  | coe r => exact ⟨r, rfl⟩
  | top => simp at h'

end Cert.LibRealEntry
-- ==== Proof.Finite.lean ====
/-
  From the precondition to real entries.

  The precondition is one truth value: for each of the six float inputs, "every entry's absolute value is below
  +infinity", the six joined by "and" from left to right. When it holds, each of the six holds; an "all" over an
  array that holds gives the comparison at every entry; and an extended real whose absolute value is below
  +infinity is a real number. Only the first two of the six are needed here: the features and the weight matrix.
-/
import proofs.«166766_j89163521065197_2_alg».proof.Pre_finite_inputs
import proofs.«166766_j89163521065197_2_alg».proof.Proof.LibRealEntry
import Idealize.ShloMosaic.Lib.ReduceAll
import Idealize.ShloMosaic.Lib.ValueIdx
import Idealize.ShloMosaic.PureOps.Ideal

noncomputable section

namespace Cert.Finite

open Idealize.ShloMosaic

/-- A rank-0 array has one index. -/
instance : Subsingleton Cert.Pre_finite_inputs.S_.Idx := ⟨fun a b => funext fun d => d.elim0⟩

/-- Under the precondition every entry of the features and of the weight matrix is a real number. -/
theorem x_w_real [Cert.Pre_finite_inputs.Facts]
    (a0 : FVec Ideal Cert.Pre_finite_inputs.S100000x3 .f32) (a1 : IVec Cert.Pre_finite_inputs.S2x1600000 32)
    (a2 : FVec Ideal Cert.Pre_finite_inputs.S3x32 .f32)
    (a3 a4 a5 : FVec Ideal Cert.Pre_finite_inputs.S32 .f32) (a6 : FVec Ideal Cert.Pre_finite_inputs.S1 .f32)
    (h : Cert.Pre_finite_inputs.fn (F := Ideal) a0 a1 a2 a3 a4 a5 a6 = fun _ => 1#1) :
    (∀ j, ∃ r : ℝ, a0 j = (r : EReal)) ∧ (∀ j, ∃ r : ℝ, a2 j = (r : EReal)) := by
  -- the precondition's one truth value, as the conjunction of the six "all" tests
  have e := congrFun h ValueIdx.ix0
  dsimp only [Cert.Pre_finite_inputs.fn, Cert.Pre_finite_inputs.fn_part1, andi] at e
  rw [IntOp.andi_eq_one, IntOp.andi_eq_one, IntOp.andi_eq_one, IntOp.andi_eq_one, IntOp.andi_eq_one] at e
  obtain ⟨⟨⟨⟨⟨h3, h7⟩, -⟩, -⟩, -⟩, -⟩ := e
  -- an "all" that holds gives the comparison at each entry; an entry that passes it is real
  refine ⟨fun j => ?_, fun j => ?_⟩
  · exact Cert.LibRealEntry.real_of_abs_lt_inf (a0 j) (Host.reduce_andi_all _ _ _ _ _ h3 j)
  · exact Cert.LibRealEntry.real_of_abs_lt_inf (a2 j) (Host.reduce_andi_all _ _ _ _ _ h7 j)

end Cert.Finite

end
-- ==== Proof.Values.lean ====
/-
  The two programs' results as one function of the arguments.

  `G` is the specification's output — the reference arrangement of the layer, normalised and rectified — of a
  memory's argument arrays. The kernel program's result buffer after its run is `G` of its launch memory when the
  features and W hold real numbers (`kernel_value`): the third grid computation's output re-laid is the specification's
  `out` of the first computation's layer, that layer is the kernel arrangement `aggK`, and the two arrangements agree
  over the reals (the edge weights and inverse degrees are real because a degree is one plus a count). The reference
  program's result term is `G` of its launch memory unconditionally (`reference_value`).
-/
import proofs.«166766_j89163521065197_2_alg».proof.Proof.KernelStats
import proofs.«166766_j89163521065197_2_alg».proof.Proof.LayerEq
import proofs.«166766_j89163521065197_2_alg».proof.Proof.Region0
import proofs.«166766_j89163521065197_2_alg».proof.Proof.Region2
import proofs.«166766_j89163521065197_2_alg».proof.Proof.RefValue
import proofs.«166766_j89163521065197_2_alg».proof.Proof.Bridge
import proofs.«166766_j89163521065197_2_alg».proof.Proof.Finite
import proofs.«166766_j89163521065197_2_alg».proof.Proof.Edges

set_option maxRecDepth 16384

noncomputable section

namespace Cert.Values

open Idealize.ShloMosaic Idealize.ShloMosaic.ValueIdx Idealize.ShloMosaic.TcCoe Idealize.SL.Sem
open scoped BigOperators

/-- The specification's output of seven argument arrays, entry by entry. -/
def G (x0 : (⟨2, ![100000, 3]⟩ : Shape).Idx → EReal) (x1 : (⟨2, ![2, 1600000]⟩ : Shape).Idx → BitVec 32)
    (x2 : (⟨2, ![3, 32]⟩ : Shape).Idx → EReal) (x3 x4 x5 : (⟨1, ![32]⟩ : Shape).Idx → EReal) (x6 : (⟨1, ![1]⟩ : Shape).Idx → EReal) :
    (⟨2, ![100000, 32]⟩ : Shape).Idx → EReal := fun j =>
  Cert.Spec.out
    (Cert.Spec.aggR (Cert.Edges.sp x1) (Cert.Edges.dl x1) (Cert.Edges.nrm x1) (Cert.Edges.invdeg x1)
      (fun i c => x0 (ix2 i c)) (fun c q => x2 (ix2 c q)) (fun q => x3 (ix1 q)))
    (fun q => x4 (ix1 q)) (fun q => x5 (ix1 q)) (x6 (ix1 (0 : Fin 1))) (j 0) (j 1)

section Kernel
open Cert.KernelIdeal Cert.KernelIdeal.Gen

/-- The kernel program's result buffer after the run, when the features and W are real. -/
theorem kernel_value (m : (ℓ : Loc nD τ sig) → Buf (Elt Ideal) ℓ) (ρ : Dev nD → PrngReg) (c : Dev nD)
    (hx : ∀ j, ∃ r : ℝ, m ((c.tc : Thread nD τ).loc main_arg0) j = (r : EReal))
    (hw : ∀ j, ∃ r : ℝ, m ((c.tc : Thread nD τ).loc main_arg2) j = (r : EReal)) :
    W7 m ρ c (Proc.devRef .tc main_v71)
      = G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  funext j
  obtain ⟨i, q, rfl⟩ : ∃ (i : Fin 100000) (q : Fin 32), j = ix2 i q := ⟨j 0, j 1, eq_ix2 j⟩
  refine (Glue.out_apply m ρ c (Regions.region0_agg (V1 m ρ) c) (Regions.region0_sum (V1 m ρ) c) (Regions.region2_out (V5 m ρ) c) i q).trans ?_
  rw [Glue.layer_eq m ρ c,
    Cert.Bridge.aggK_eq_aggR _ _ _ _ _ _ _ (fun i k => hx (ix2 i k)) (fun k q => hw (ix2 k q))
      (Cert.Edges.nrm_real _) (Cert.Edges.invdeg_real _)]
  rfl

end Kernel

section Reference
open Cert.ReferenceIdeal

/-- The reference program's result term. -/
theorem reference_value (m : (ℓ : Loc nD τ sig) → Buf (Elt Ideal) ℓ) (c : Dev nD) :
    Cert.ReferenceIdeal.ValueP.res_main_v79 (F := Ideal) m c
      = G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  rw [Cert.ReferenceIdeal.ReadP.val_main_v79_eq]
  funext j
  obtain ⟨i, q, rfl⟩ : ∃ (i : Fin 100000) (q : Fin 32), j = ix2 i q := ⟨j 0, j 1, eq_ix2 j⟩
  exact Cert.RefValue.ref_value _ _ _ _ _ _ _ i q

end Reference

end Cert.Values

end
-- ==== Proof.lean ====
/-
  The claim: a three-stage kernel program — a graph convolution's linear layer with the self loop folded in and the
  column sums, the centred sums of squares, then normalisation, scale, shift and a leaky rectifier, over host-side
  gathers and scatters along the edge list — against its plain reference.

  The three frames: the two kernel programs' frames are generated; the reference's frame is its run with the result
  dropped. The idealization's ledger is empty. The value claim: both programs end with the specification's output
  `Values.G` of their (agreeing) argument arrays — the kernel program by its run with the result buffer named and
  `Values.kernel_value` (which uses that the features and W are finite, from the precondition), the reference by its run
  and `Values.reference_value`.
-/
import proofs.«166766_j89163521065197_2_alg».proof.Defs
import proofs.«166766_j89163521065197_2_alg».proof.Proof.Gen.Kernel
import proofs.«166766_j89163521065197_2_alg».proof.Proof.Gen.Kernel.Skeleton
import proofs.«166766_j89163521065197_2_alg».proof.Proof.Gen.Kernel.Launch
import proofs.«166766_j89163521065197_2_alg».proof.Proof.Gen.Kernel.Points
import proofs.«166766_j89163521065197_2_alg».proof.Proof.Gen.Kernel.Frame
import proofs.«166766_j89163521065197_2_alg».proof.Proof.Gen.KernelIdeal
import proofs.«166766_j89163521065197_2_alg».proof.Proof.Gen.KernelIdeal.Skeleton
import proofs.«166766_j89163521065197_2_alg».proof.Proof.Gen.KernelIdeal.Launch
import proofs.«166766_j89163521065197_2_alg».proof.Proof.Gen.KernelIdeal.Points
import proofs.«166766_j89163521065197_2_alg».proof.Proof.Gen.KernelIdeal.Frame
import proofs.«166766_j89163521065197_2_alg».proof.Proof.Gen.ReferenceIdeal
import proofs.«166766_j89163521065197_2_alg».proof.Proof.Gen.Pre_finite_inputs
import proofs.«166766_j89163521065197_2_alg».proof.Proof.RunNamed
import proofs.«166766_j89163521065197_2_alg».proof.Proof.RefRun
import proofs.«166766_j89163521065197_2_alg».proof.Proof.Values
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.ValueP.run (F := Ideal) m ρ)

theorem algebraic :
    @Cert.algebraic_KernelIdeal_ReferenceIdeal Cert.KernelIdeal.Gen.facts Cert.ReferenceIdeal.Gen.facts Cert.Pre_finite_inputs.Gen.facts := by
  intro m ρ m' ρ' hpre hagree
  refine ⟨fun c => Cert.Values.G (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3))
      (m ((c.tc : Thread _ _).loc Cert.KernelIdeal.main_arg4)) (m ((c.tc : Thread _ _).loc Cert.KernelIdeal.main_arg5))
      (m ((c.tc : Thread _ _).loc Cert.KernelIdeal.main_arg6)), ?_, ?_⟩
  · refine (θ_run Cert.KernelIdeal.defs _ _).mono (fun _ h c => ⟨(h c).1.trans ?_, (h c).2⟩) (Cert.KernelIdeal.Named.run_named (F := Ideal) m ρ)
    have hfin := Cert.Finite.x_w_real _ _ _ _ _ _ _ (hpre c)
    exact Cert.Values.kernel_value m ρ c hfin.1 hfin.2
  · refine (θ_run Cert.ReferenceIdeal.defs _ _).mono (fun _ h c => ⟨(h c).1.trans ?_, (h c).2⟩)
      (Cert.ReferenceIdeal.ValueP.run (F := Ideal) m' ρ')
    rw [Cert.Values.reference_value m' c, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
